-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v91)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v91) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v123) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S3x128x128 : Shape := ⟨3, ![3, 128, 128]⟩
abbrev S3x128 : Shape := ⟨2, ![3, 128]⟩
abbrev S128x47 : Shape := ⟨2, ![128, 47]⟩
abbrev S47 : Shape := ⟨1, ![47]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S128x47 : S_.BroadcastsInDim S128x47 (![] : Fin 0 → Fin S128x47.rank)
  reducesTo_S128x47_S_d0_1 : S128x47.ReducesTo [0, 1] S_
  bcast_S_S47 : S_.BroadcastsInDim S47 (![] : Fin 0 → Fin S47.rank)
  reducesTo_S47_S_d0 : S47.ReducesTo [0] S_

variable [Facts]

def fn_part2 {F : FTy → Type} [FloatOps F] (main_arg8 : FVec F S47 .f32) (main_arg9 : FVec F S128x47 .f32) (main_v33 : IVec S_ 1) : IVec S_ 1 :=
  let main_v34 : FVec F S47 .f32 := Host.absf main_arg8
  let main_cst_12 : FVec F S_ .f32 := constant S_ .f32 0x7F800000#32
  let main_v35 : FVec F S47 .f32 := broadcastInDim S47 ![] bcast_S_S47 main_cst_12
  let main_v36 : IVec S47 1 := cmpf .olt main_v34 main_v35
  let main_c_13 : IVec S_ 1 := constantI S_ 1 1#1
  let main_v37 : IVec S_ 1 := (fun x v => Host.reduce IntOp.andi x v reducesTo_S47_S_d0 h_S_) main_v36 main_c_13
  let main_v38 : IVec S_ 1 := andi main_v33 main_v37
  let main_v39 : FVec F S128x47 .f32 := Host.absf main_arg9
  let main_cst_14 : FVec F S_ .f32 := constant S_ .f32 0x7F800000#32
  let main_v40 : FVec F S128x47 .f32 := broadcastInDim S128x47 ![] bcast_S_S128x47 main_cst_14
  let main_v41 : IVec S128x47 1 := cmpf .olt main_v39 main_v40
  let main_c_15 : IVec S_ 1 := constantI S_ 1 1#1
  let main_v42 : IVec S_ 1 := (fun x v => Host.reduce IntOp.andi x v reducesTo_S128x47_S_d0_1 h_S_) main_v41 main_c_15
  let main_v43 : IVec S_ 1 := andi main_v38 main_v42
  main_v43

def fn_part1 {F : FTy → Type} [FloatOps F] (main_arg5 : FVec F S3x128 .f32) (main_arg6 : FVec F S3x128x128 .f32) (main_arg7 : FVec F S128x47 .f32) (main_arg8 : FVec F S47 .f32) (main_arg9 : FVec F S128x47 .f32) (main_v13 : IVec S_ 1) (main_v16 : IVec S3x128x128 1) : IVec S_ 1 :=
  let main_c_5 : IVec S_ 1 := constantI S_ 1 1#1
  let main_v17 : IVec S_ 1 := (fun x v => Host.reduce IntOp.andi x v reducesTo_S3x128x128_S_d0_1_2 h_S_) main_v16 main_c_5
  let main_v18 : IVec S_ 1 := andi main_v13 main_v17
  let main_v19 : FVec F S3x128 .f32 := Host.absf main_arg5
  let main_cst_6 : FVec F S_ .f32 := constant S_ .f32 0x7F800000#32
  let main_v20 : FVec F S3x128 .f32 := broadcastInDim S3x128 ![] bcast_S_S3x128 main_cst_6
  let main_v21 : IVec S3x128 1 := cmpf .olt main_v19 main_v20
  let main_c_7 : IVec S_ 1 := constantI S_ 1 1#1
  let main_v22 : IVec S_ 1 := (fun x v => Host.reduce IntOp.andi x v reducesTo_S3x128_S_d0_1 h_S_) main_v21 main_c_7
  let main_v23 : IVec S_ 1 := andi main_v18 main_v22
  let main_v24 : FVec F S3x128x128 .f32 := Host.absf main_arg6
  let main_cst_8 : FVec F S_ .f32 := constant S_ .f32 0x7F800000#32
  let main_v25 : FVec F S3x128x128 .f32 := broadcastInDim S3x128x128 ![] bcast_S_S3x128x128 main_cst_8
  let main_v26 : IVec S3x128x128 1 := cmpf .olt main_v24 main_v25
  let main_c_9 : IVec S_ 1 := constantI S_ 1 1#1
  let main_v27 : IVec S_ 1 := (fun x v => Host.reduce IntOp.andi x v reducesTo_S3x128x128_S_d0_1_2 h_S_) main_v26 main_c_9
  let main_v28 : IVec S_ 1 := andi main_v23 main_v27
  let main_v29 : FVec F S128x47 .f32 := Host.absf main_arg7
  let main_cst_10 : FVec F S_ .f32 := constant S_ .f32 0x7F800000#32
  let main_v30 : FVec F S128x47 .f32 := broadcastInDim S128x47 ![] bcast_S_S128x47 main_cst_10
  let main_v31 : IVec S128x47 1 := cmpf .olt main_v29 main_v30
  let main_c_11 : IVec S_ 1 := constantI S_ 1 1#1
  let main_v32 : IVec S_ 1 := (fun x v => Host.reduce IntOp.andi x v reducesTo_S128x47_S_d0_1 h_S_) main_v31 main_c_11
  let main_v33 : IVec S_ 1 := andi main_v28 main_v32
  fn_part2 (F := F) main_arg8 main_arg9 main_v33

def fn {F : FTy → Type} [FloatOps F] (main_arg0 : FVec F S100000x256 .f32) (main_arg1 : IVec S2x1600000 32) (main_arg2 : FVec F S256x128 .f32) (main_arg3 : FVec F S128 .f32) (main_arg4 : FVec F S3x128x128 .f32) (main_arg5 : FVec F S3x128 .f32) (main_arg6 : FVec F S3x128x128 .f32) (main_arg7 : FVec F S128x47 .f32) (main_arg8 : FVec F S47 .f32) (main_arg9 : FVec F S128x47 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S3x128x128 .f32 := Host.absf main_arg4
  let main_cst_4 : FVec F S_ .f32 := constant S_ .f32 0x7F800000#32
  let main_v15 : FVec F S3x128x128 .f32 := broadcastInDim S3x128x128 ![] bcast_S_S3x128x128 main_cst_4
  let main_v16 : IVec S3x128x128 1 := cmpf .olt main_v14 main_v15
  fn_part1 (F := F) main_arg5 main_arg6 main_arg7 main_arg8 main_arg9 main_v13 main_v16
-- ==== Kernel.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S3x128x128 : Shape := ⟨3, ![3, 128, 128]⟩
abbrev S3x128 : Shape := ⟨2, ![3, 128]⟩
abbrev S128x47 : Shape := ⟨2, ![128, 47]⟩
abbrev S47 : Shape := ⟨1, ![47]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1x128 : Shape := ⟨2, ![1, 128]⟩
abbrev S100000x128 : Shape := ⟨2, ![100000, 128]⟩
abbrev S5000x256 : Shape := ⟨2, ![5000, 256]⟩
abbrev S5000x128 : Shape := ⟨2, ![5000, 128]⟩
abbrev S1600000x128 : Shape := ⟨2, ![1600000, 128]⟩
abbrev S100000x1 : Shape := ⟨2, ![100000, 1]⟩
abbrev S1x128x128 : Shape := ⟨3, ![1, 128, 128]⟩
abbrev S128x128 : Shape := ⟨2, ![128, 128]⟩
abbrev S1x47 : Shape := ⟨2, ![1, 47]⟩
abbrev S100000x47 : Shape := ⟨2, ![100000, 47]⟩
abbrev S5000x47 : Shape := ⟨2, ![5000, 47]⟩
abbrev S5000 : Shape := ⟨1, ![5000]⟩
abbrev S5000x1 : Shape := ⟨2, ![5000, 1]⟩

abbrev nBuf : Space → Nat
  | .hbm => 119
  | .vmem => 50
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S256x128, .f32⟩
  | .hbm, ⟨3, _⟩ => ⟨S128, .f32⟩
  | .hbm, ⟨4, _⟩ => ⟨S3x128x128, .f32⟩
  | .hbm, ⟨5, _⟩ => ⟨S3x128, .f32⟩
  | .hbm, ⟨6, _⟩ => ⟨S3x128x128, .f32⟩
  | .hbm, ⟨7, _⟩ => ⟨S128x47, .f32⟩
  | .hbm, ⟨8, _⟩ => ⟨S47, .f32⟩
  | .hbm, ⟨9, _⟩ => ⟨S128x47, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S_, .f32⟩
  | .hbm, ⟨15, _⟩ => ⟨S1600000, .f32⟩
  | .hbm, ⟨16, _⟩ => ⟨S_, .f32⟩
  | .hbm, ⟨17, _⟩ => ⟨S100000, .f32⟩
  | .hbm, ⟨18, _⟩ => ⟨S1600000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S1x128, .f32⟩
  | .hbm, ⟨27, _⟩ => ⟨S100000x128, .f32⟩
  | .hbm, ⟨28, _⟩ => ⟨S100000x128, .f32⟩
  | .hbm, ⟨29, _⟩ => ⟨S_, .i32⟩
  | .hbm, ⟨30, _⟩ => ⟨S1600000, .i32⟩
  | .hbm, ⟨31, _⟩ => ⟨S1600000, .i1⟩
  | .hbm, ⟨32, _⟩ => ⟨S_, .i32⟩
  | .hbm, ⟨33, _⟩ => ⟨S1600000, .i32⟩
  | .hbm, ⟨34, _⟩ => ⟨S1600000, .i32⟩
  | .hbm, ⟨35, _⟩ => ⟨S1600000, .i32⟩
  | .hbm, ⟨36, _⟩ => ⟨S1600000x1, .i32⟩
  | .hbm, ⟨37, _⟩ => ⟨S1600000x128, .f32⟩
  | .hbm, ⟨38, _⟩ => ⟨S_, .f32⟩
  | .hbm, ⟨39, _⟩ => ⟨S100000x128, .f32⟩
  | .hbm, ⟨40, _⟩ => ⟨S1600000x1, .i32⟩
  | .hbm, ⟨41, _⟩ => ⟨S100000x128, .f32⟩
  | .hbm, ⟨42, _⟩ => ⟨S100000x1, .f32⟩
  | .hbm, ⟨43, _⟩ => ⟨S100000x128, .f32⟩
  | .hbm, ⟨44, _⟩ => ⟨S100000x128, .f32⟩
  | .hbm, ⟨45, _⟩ => ⟨S1x128x128, .f32⟩
  | .hbm, ⟨46, _⟩ => ⟨S128x128, .f32⟩
  | .hbm, ⟨47, _⟩ => ⟨S1x128, .f32⟩
  | .hbm, ⟨48, _⟩ => ⟨S128, .f32⟩
  | .hbm, ⟨49, _⟩ => ⟨S1x128x128, .f32⟩
  | .hbm, ⟨50, _⟩ => ⟨S128x128, .f32⟩
  | .hbm, ⟨51, _⟩ => ⟨S1x128, .f32⟩
  | .hbm, ⟨52, _⟩ => ⟨S100000x128, .f32⟩
  | .hbm, ⟨53, _⟩ => ⟨S_, .i32⟩
  | .hbm, ⟨54, _⟩ => ⟨S1600000, .i32⟩
  | .hbm, ⟨55, _⟩ => ⟨S1600000, .i1⟩
  | .hbm, ⟨56, _⟩ => ⟨S_, .i32⟩
  | .hbm, ⟨57, _⟩ => ⟨S1600000, .i32⟩
  | .hbm, ⟨58, _⟩ => ⟨S1600000, .i32⟩
  | .hbm, ⟨59, _⟩ => ⟨S1600000, .i32⟩
  | .hbm, ⟨60, _⟩ => ⟨S1600000x1, .i32⟩
  | .hbm, ⟨61, _⟩ => ⟨S1600000x128, .f32⟩
  | .hbm, ⟨62, _⟩ => ⟨S_, .f32⟩
  | .hbm, ⟨63, _⟩ => ⟨S100000x128, .f32⟩
  | .hbm, ⟨64, _⟩ => ⟨S1600000x1, .i32⟩
  | .hbm, ⟨65, _⟩ => ⟨S100000x128, .f32⟩
  | .hbm, ⟨66, _⟩ => ⟨S100000x1, .f32⟩
  | .hbm, ⟨67, _⟩ => ⟨S100000x128, .f32⟩
  | .hbm, ⟨68, _⟩ => ⟨S100000x128, .f32⟩
  | .hbm, ⟨69, _⟩ => ⟨S1x128x128, .f32⟩
  | .hbm, ⟨70, _⟩ => ⟨S128x128, .f32⟩
  | .hbm, ⟨71, _⟩ => ⟨S1x128, .f32⟩
  | .hbm, ⟨72, _⟩ => ⟨S128, .f32⟩
  | .hbm, ⟨73, _⟩ => ⟨S1x128x128, .f32⟩
  | .hbm, ⟨74, _⟩ => ⟨S128x128, .f32⟩
  | .hbm, ⟨75, _⟩ => ⟨S1x128, .f32⟩
  | .hbm, ⟨76, _⟩ => ⟨S100000x128, .f32⟩
  | .hbm, ⟨77, _⟩ => ⟨S_, .i32⟩
  | .hbm, ⟨78, _⟩ => ⟨S1600000, .i32⟩
  | .hbm, ⟨79, _⟩ => ⟨S1600000, .i1⟩
  | .hbm, ⟨80, _⟩ => ⟨S_, .i32⟩
  | .hbm, ⟨81, _⟩ => ⟨S1600000, .i32⟩
  | .hbm, ⟨82, _⟩ => ⟨S1600000, .i32⟩
  | .hbm, ⟨83, _⟩ => ⟨S1600000, .i32⟩
  | .hbm, ⟨84, _⟩ => ⟨S1600000x1, .i32⟩
  | .hbm, ⟨85, _⟩ => ⟨S1600000x128, .f32⟩
  | .hbm, ⟨86, _⟩ => ⟨S_, .f32⟩
  | .hbm, ⟨87, _⟩ => ⟨S100000x128, .f32⟩
  | .hbm, ⟨88, _⟩ => ⟨S1600000x1, .i32⟩
  | .hbm, ⟨89, _⟩ => ⟨S100000x128, .f32⟩
  | .hbm, ⟨90, _⟩ => ⟨S100000x1, .f32⟩
  | .hbm, ⟨91, _⟩ => ⟨S100000x128, .f32⟩
  | .hbm, ⟨92, _⟩ => ⟨S100000x128, .f32⟩
  | .hbm, ⟨93, _⟩ => ⟨S1x128x128, .f32⟩
  | .hbm, ⟨94, _⟩ => ⟨S128x128, .f32⟩
  | .hbm, ⟨95, _⟩ => ⟨S1x128, .f32⟩
  | .hbm, ⟨96, _⟩ => ⟨S128, .f32⟩
  | .hbm, ⟨97, _⟩ => ⟨S1x128x128, .f32⟩
  | .hbm, ⟨98, _⟩ => ⟨S128x128, .f32⟩
  | .hbm, ⟨99, _⟩ => ⟨S1x128, .f32⟩
  | .hbm, ⟨100, _⟩ => ⟨S100000x128, .f32⟩
  | .hbm, ⟨101, _⟩ => ⟨S_, .i32⟩
  | .hbm, ⟨102, _⟩ => ⟨S1600000, .i32⟩
  | .hbm, ⟨103, _⟩ => ⟨S1600000, .i1⟩
  | .hbm, ⟨104, _⟩ => ⟨S_, .i32⟩
  | .hbm, ⟨105, _⟩ => ⟨S1600000, .i32⟩
  | .hbm, ⟨106, _⟩ => ⟨S1600000, .i32⟩
  | .hbm, ⟨107, _⟩ => ⟨S1600000, .i32⟩
  | .hbm, ⟨108, _⟩ => ⟨S1600000x1, .i32⟩
  | .hbm, ⟨109, _⟩ => ⟨S1600000x128, .f32⟩
  | .hbm, ⟨110, _⟩ => ⟨S_, .f32⟩
  | .hbm, ⟨111, _⟩ => ⟨S100000x128, .f32⟩
  | .hbm, ⟨112, _⟩ => ⟨S1600000x1, .i32⟩
  | .hbm, ⟨113, _⟩ => ⟨S100000x128, .f32⟩
  | .hbm, ⟨114, _⟩ => ⟨S100000x1, .f32⟩
  | .hbm, ⟨115, _⟩ => ⟨S100000x128, .f32⟩
  | .hbm, ⟨116, _⟩ => ⟨S100000x128, .f32⟩
  | .hbm, ⟨117, _⟩ => ⟨S1x47, .f32⟩
  | .hbm, ⟨118, _⟩ => ⟨S100000x47, .f32⟩
  | .local _ .vmem, ⟨0, _⟩ => ⟨S5000x256, .f32⟩
  | .local _ .vmem, ⟨1, _⟩ => ⟨S5000x256, .f32⟩
  | .local _ .vmem, ⟨2, _⟩ => ⟨S256x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S128x128, .f32⟩
  | .local _ .vmem, ⟨15, _⟩ => ⟨S1x128, .f32⟩
  | .local _ .vmem, ⟨16, _⟩ => ⟨S128x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S128x128, .f32⟩
  | .local _ .vmem, ⟨26, _⟩ => ⟨S1x128, .f32⟩
  | .local _ .vmem, ⟨27, _⟩ => ⟨S128x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S5000x128, .f32⟩
  | .local _ .vmem, ⟨32, _⟩ => ⟨S5000x128, .f32⟩
  | .local _ .vmem, ⟨33, _⟩ => ⟨S5000x128, .f32⟩
  | .local _ .vmem, ⟨34, _⟩ => ⟨S5000x128, .f32⟩
  | .local _ .vmem, ⟨35, _⟩ => ⟨S5000x128, .f32⟩
  | .local _ .vmem, ⟨36, _⟩ => ⟨S128x128, .f32⟩
  | .local _ .vmem, ⟨37, _⟩ => ⟨S1x128, .f32⟩
  | .local _ .vmem, ⟨38, _⟩ => ⟨S128x128, .f32⟩
  | .local _ .vmem, ⟨39, _⟩ => ⟨S5000x128, .f32⟩
  | .local _ .vmem, ⟨40, _⟩ => ⟨S5000x128, .f32⟩
  | .local _ .vmem, ⟨41, _⟩ => ⟨S5000x128, .f32⟩
  | .local _ .vmem, ⟨42, _⟩ => ⟨S5000x128, .f32⟩
  | .local _ .vmem, ⟨43, _⟩ => ⟨S5000x128, .f32⟩
  | .local _ .vmem, ⟨44, _⟩ => ⟨S5000x128, .f32⟩
  | .local _ .vmem, ⟨45, _⟩ => ⟨S128x47, .f32⟩
  | .local _ .vmem, ⟨46, _⟩ => ⟨S1x47, .f32⟩
  | .local _ .vmem, ⟨47, _⟩ => ⟨S128x47, .f32⟩
  | .local _ .vmem, ⟨48, _⟩ => ⟨S5000x47, .f32⟩
  | .local _ .vmem, ⟨49, _⟩ => ⟨S5000x47, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | _, _ => false

abbrev semScoped : Fin 0 → Bool
  | ⟨_, h⟩ => absurd h (Nat.not_lt_zero _)

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  ofTc nBuf bufTy 0 50 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13_0 : Ref sig .tc := ⟨.hbm, 27, rfl⟩
abbrev main_v13_1 : Ref sig .tc := ⟨.hbm, 28, rfl⟩
abbrev main_c : Ref sig .tc := ⟨.hbm, 29, rfl⟩
abbrev main_v14 : Ref sig .tc := ⟨.hbm, 30, rfl⟩
abbrev main_v15 : Ref sig .tc := ⟨.hbm, 31, rfl⟩
abbrev main_c_3 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_4 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_c_5 : Ref sig .tc := ⟨.hbm, 53, rfl⟩
abbrev main_v35 : Ref sig .tc := ⟨.hbm, 54, rfl⟩
abbrev main_v36 : Ref sig .tc := ⟨.hbm, 55, rfl⟩
abbrev main_c_6 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_7 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_c_8 : Ref sig .tc := ⟨.hbm, 77, rfl⟩
abbrev main_v56 : Ref sig .tc := ⟨.hbm, 78, rfl⟩
abbrev main_v57 : Ref sig .tc := ⟨.hbm, 79, rfl⟩
abbrev main_c_9 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_cst_10 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_c_11 : Ref sig .tc := ⟨.hbm, 101, rfl⟩
abbrev main_v77 : Ref sig .tc := ⟨.hbm, 102, rfl⟩
abbrev main_v78 : Ref sig .tc := ⟨.hbm, 103, rfl⟩
abbrev main_c_12 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_cst_13 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg6_1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg1_1 : Ref sig .tc := ⟨.vmem, 22, rfl⟩
abbrev cc2_stg2_0 : Ref sig .tc := ⟨.vmem, 23, rfl⟩
abbrev cc2_stg2_1 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg6_0 : Ref sig .tc := ⟨.vmem, 28, rfl⟩
abbrev cc2_stg6_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg1_1 : Ref sig .tc := ⟨.vmem, 33, rfl⟩
abbrev cc3_stg2_0 : Ref sig .tc := ⟨.vmem, 34, rfl⟩
abbrev cc3_stg2_1 : Ref sig .tc := ⟨.vmem, 35, rfl⟩
abbrev cc3_stg3_0 : Ref sig .tc := ⟨.vmem, 36, rfl⟩
abbrev cc3_stg4_0 : Ref sig .tc := ⟨.vmem, 37, rfl⟩
abbrev cc3_stg5_0 : Ref sig .tc := ⟨.vmem, 38, rfl⟩
abbrev cc3_stg6_0 : Ref sig .tc := ⟨.vmem, 39, rfl⟩
abbrev cc3_stg6_1 : Ref sig .tc := ⟨.vmem, 40, rfl⟩
abbrev cc4_stg0_0 : Ref sig .tc := ⟨.vmem, 41, rfl⟩
abbrev cc4_stg0_1 : Ref sig .tc := ⟨.vmem, 42, rfl⟩
abbrev cc4_stg1_0 : Ref sig .tc := ⟨.vmem, 43, rfl⟩
abbrev cc4_stg1_1 : Ref sig .tc := ⟨.vmem, 44, rfl⟩
abbrev cc4_stg2_0 : Ref sig .tc := ⟨.vmem, 45, rfl⟩
abbrev cc4_stg3_0 : Ref sig .tc := ⟨.vmem, 46, rfl⟩
abbrev cc4_stg4_0 : Ref sig .tc := ⟨.vmem, 47, rfl⟩
abbrev cc4_stg5_0 : Ref sig .tc := ⟨.vmem, 48, rfl⟩
abbrev cc4_stg5_1 : Ref sig .tc := ⟨.vmem, 49, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem6_1 : DmaSem sig := 18
abbrev cc2_sem0_0 : DmaSem sig := 19
abbrev cc2_sem0_1 : DmaSem sig := 20
abbrev cc2_sem1_0 : DmaSem sig := 21
abbrev cc2_sem1_1 : DmaSem sig := 22
abbrev cc2_sem2_0 : DmaSem sig := 23
abbrev cc2_sem2_1 : DmaSem sig := 24
abbrev cc2_sem3_0 : DmaSem sig := 25
abbrev cc2_sem4_0 : DmaSem sig := 26
abbrev cc2_sem5_0 : DmaSem sig := 27
abbrev cc2_sem6_0 : DmaSem sig := 28
abbrev cc2_sem6_1 : DmaSem sig := 29
abbrev cc3_sem0_0 : DmaSem sig := 30
abbrev cc3_sem0_1 : DmaSem sig := 31
abbrev cc3_sem1_0 : DmaSem sig := 32
abbrev cc3_sem1_1 : DmaSem sig := 33
abbrev cc3_sem2_0 : DmaSem sig := 34
abbrev cc3_sem2_1 : DmaSem sig := 35
abbrev cc3_sem3_0 : DmaSem sig := 36
abbrev cc3_sem4_0 : DmaSem sig := 37
abbrev cc3_sem5_0 : DmaSem sig := 38
abbrev cc3_sem6_0 : DmaSem sig := 39
abbrev cc3_sem6_1 : DmaSem sig := 40
abbrev cc4_sem0_0 : DmaSem sig := 41
abbrev cc4_sem0_1 : DmaSem sig := 42
abbrev cc4_sem1_0 : DmaSem sig := 43
abbrev cc4_sem1_1 : DmaSem sig := 44
abbrev cc4_sem2_0 : DmaSem sig := 45
abbrev cc4_sem3_0 : DmaSem sig := 46
abbrev cc4_sem4_0 : DmaSem sig := 47
abbrev cc4_sem5_0 : DmaSem sig := 48
abbrev cc4_sem5_1 : DmaSem sig := 49

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S5000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x47 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x47 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S128x47 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S5000x47 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S128_S1x128 : S128.ShapeCasts S1x128
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  shapeCasts_S47_S1x47 : S47.ShapeCasts S1x47
  inb_S128x47_S128x47_0_0 : ∀ a, (![0, 0] : Fin 2 → Nat) a + S128x47.size a ≤ S128x47.size a
  h_S128x47 : 0 < S128x47.numel
  inb_S1x47_S1x47_0_0 : ∀ a, (![0, 0] : Fin 2 → Nat) a + S1x47.size a ≤ S1x47.size a
  h_S1x47 : 0 < S1x47.numel
  shapeCasts_S1x47_S1x47 : S1x47.ShapeCasts S1x47
  broadcasts_S1x47_S5000x47 : S1x47.Broadcasts S5000x47
  reduces_S5000x47_S5000 : S5000x47.Reduces [1] S5000
  shapeCasts_S5000_S5000x1 : S5000.ShapeCasts S5000x1
  broadcasts_S5000x1_S5000x47 : S5000x1.Broadcasts S5000x47
  inb_S5000x47_S5000x47_0_0 : ∀ a, (![0, 0] : Fin 2 → Nat) a + S5000x47.size a ≤ S5000x47.size a
  h_S5000x47 : 0 < S5000x47.numel
  scatter_S100000_S1600000x1_S1600000_n_0_0_1_wf : ScatterDims.WF S100000 S1600000x1 S1600000 [] [0] [0] 1
  dot_S5000x256_S256x128_S5000x128_1_0_0_1_n_n_wf : DotDims.WF S5000x256 S256x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  dot_S5000x128_S128x47_S5000x47_1_0_0_1_n_n_wf : DotDims.WF S5000x128 S128x47 S5000x47 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S100000x128.size a
  hwx0_4 : ∀ i : grid0.Coords, EltTy.bits .f32 = 32 ∨ (Rect.block (s := S100000x128) S5000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S100000x128.size a
  hwx1_6 : ∀ i : grid1.Coords, EltTy.bits .f32 = 32 ∨ (Rect.block (s := S100000x128) S5000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .f32 = 32 ∨ (Rect.block (s := S128x128) S128x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x128.size a ≤ S100000x128.size a
  hwx2_6 : ∀ i : grid2.Coords, EltTy.bits .f32 = 32 ∨ (Rect.block (s := S100000x128) S5000x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S100000x128.size a
  hwx3_1 : ∀ i : grid3.Coords, EltTy.bits .f32 = 32 ∨ (Rect.block (s := S100000x128) S5000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S100000x128.size a
  hwx3_2 : ∀ i : grid3.Coords, EltTy.bits .f32 = 32 ∨ (Rect.block (s := S100000x128) S5000x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128x128.size a ≤ S128x128.size a
  hwx3_5 : ∀ i : grid3.Coords, EltTy.bits .f32 = 32 ∨ (Rect.block (s := S128x128) S128x128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x128.size a ≤ S100000x128.size a
  hwx3_6 : ∀ i : grid3.Coords, EltTy.bits .f32 = 32 ∨ (Rect.block (s := S100000x128) S5000x128.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S100000x128.size a
  hwx4_1 : ∀ i : grid4.Coords, EltTy.bits .f32 = 32 ∨ (Rect.block (s := S100000x128) S5000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x47.size a ≤ S128x47.size a
  hwx4_2 : ∀ i : grid4.Coords, EltTy.bits .f32 = 32 ∨ (Rect.block (s := S128x47) S128x47.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x47.size a ≤ S1x47.size a
  hwx4_3 : ∀ i : grid4.Coords, EltTy.bits .f32 = 32 ∨ (Rect.block (s := S1x47) S1x47.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S128x47.size a ≤ S128x47.size a
  hwx4_4 : ∀ i : grid4.Coords, EltTy.bits .f32 = 32 ∨ (Rect.block (s := S128x47) S128x47.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S5000x47.size a ≤ S100000x47.size a
  hwx4_5 : ∀ i : grid4.Coords, EltTy.bits .f32 = 32 ∨ (Rect.block (s := S100000x47) S5000x47.size (cc4_transform_5 i) (hinb4_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x47_S5000x47_1_0_0_1_n_n : DotDims S5000x128 S128x47 S5000x47 where
  lhsContracting := [1]
  rhsContracting := [0]
  lhsNonContracting := [0]
  rhsNonContracting := [1]
  lhsBatch := []
  rhsBatch := []
  wf := dot_S5000x128_S128x47_S5000x47_1_0_0_1_n_n_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v12) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13_0) S5000x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v13_1) S5000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v26) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13_1) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v13_0) S5000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v28) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v33) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v32) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v34) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v47) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v34) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v13_0) S5000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v49) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v54) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v53) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v55) S5000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v68) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v55) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v13_0) S5000x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v70) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v75) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v74) S128x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v76) S5000x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v89) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v76) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg7) S128x47.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v90) S1x47.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_arg9) S128x47.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v91) S5000x47.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

class Facts : Prop extends Facts₀ where

variable [Facts]
-- ==== ReferenceIdeal.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S3x128x128 : Shape := ⟨3, ![3, 128, 128]⟩
abbrev S3x128 : Shape := ⟨2, ![3, 128]⟩
abbrev S128x47 : Shape := ⟨2, ![128, 47]⟩
abbrev S47 : Shape := ⟨1, ![47]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x128 : Shape := ⟨2, ![100000, 128]⟩
abbrev S1x128 : Shape := ⟨2, ![1, 128]⟩
abbrev S1x128x128 : Shape := ⟨3, ![1, 128, 128]⟩
abbrev S128x128 : Shape := ⟨2, ![128, 128]⟩
abbrev S1600000x128 : Shape := ⟨2, ![1600000, 128]⟩
abbrev S100000x1 : Shape := ⟨2, ![100000, 1]⟩
abbrev S100000x47 : Shape := ⟨2, ![100000, 47]⟩
abbrev S1x47 : Shape := ⟨2, ![1, 47]⟩

abbrev nBuf : Space → Nat
  | .hbm => 175
  | .vmem => 0
  | .smem => 0
  | _ => 0

abbrev hbmTy0_0 (i : Nat) : BufTy := match i % 128 with
  | 0 => ⟨S100000x256, .f32⟩
  | 1 => ⟨S2x1600000, .i32⟩
  | 2 => ⟨S256x128, .f32⟩
  | 3 => ⟨S128, .f32⟩
  | 4 => ⟨S3x128x128, .f32⟩
  | 5 => ⟨S3x128, .f32⟩
  | 6 => ⟨S3x128x128, .f32⟩
  | 7 => ⟨S128x47, .f32⟩
  | 8 => ⟨S47, .f32⟩
  | 9 => ⟨S128x47, .f32⟩
  | 10 => ⟨S1x1600000, .i32⟩
  | 11 => ⟨S1600000, .i32⟩
  | 12 => ⟨S1x1600000, .i32⟩
  | 13 => ⟨S1600000, .i32⟩
  | 14 => ⟨S_, .f32⟩
  | 15 => ⟨S1600000, .f32⟩
  | 16 => ⟨S_, .f32⟩
  | 17 => ⟨S100000, .f32⟩
  | 18 => ⟨S1600000x1, .i32⟩
  | 19 => ⟨S100000, .f32⟩
  | 20 => ⟨S_, .f32⟩
  | 21 => ⟨S100000, .f32⟩
  | 22 => ⟨S100000, .f32⟩
  | 23 => ⟨S_, .f32⟩
  | 24 => ⟨S100000, .f32⟩
  | 25 => ⟨S100000, .f32⟩
  | 26 => ⟨S100000x128, .f32⟩
  | 27 => ⟨S1x128, .f32⟩
  | 28 => ⟨S100000x128, .f32⟩
  | 29 => ⟨S100000x128, .f32⟩
  | 30 => ⟨S_, .f32⟩
  | 31 => ⟨S100000x128, .f32⟩
  | 32 => ⟨S100000x128, .f32⟩
  | 33 => ⟨S1x128x128, .f32⟩
  | 34 => ⟨S128x128, .f32⟩
  | 35 => ⟨S1x128, .f32⟩
  | 36 => ⟨S128, .f32⟩
  | 37 => ⟨S1x128x128, .f32⟩
  | 38 => ⟨S128x128, .f32⟩
  | 39 => ⟨S_, .i32⟩
  | 40 => ⟨S1600000, .i32⟩
  | 41 => ⟨S1600000, .i1⟩
  | 42 => ⟨S_, .i32⟩
  | 43 => ⟨S1600000, .i32⟩
  | 44 => ⟨S1600000, .i32⟩
  | 45 => ⟨S1600000, .i32⟩
  | 46 => ⟨S1600000x1, .i32⟩
  | 47 => ⟨S1600000x128, .f32⟩
  | 48 => ⟨S_, .f32⟩
  | 49 => ⟨S100000x128, .f32⟩
  | 50 => ⟨S1600000x1, .i32⟩
  | 51 => ⟨S100000x128, .f32⟩
  | 52 => ⟨S100000x1, .f32⟩
  | 53 => ⟨S100000x128, .f32⟩
  | 54 => ⟨S100000x128, .f32⟩
  | 55 => ⟨S100000x128, .f32⟩
  | 56 => ⟨S1x128, .f32⟩
  | 57 => ⟨S100000x128, .f32⟩
  | 58 => ⟨S100000x128, .f32⟩
  | 59 => ⟨S100000x128, .f32⟩
  | 60 => ⟨S100000x128, .f32⟩
  | 61 => ⟨S_, .f32⟩
  | 62 => ⟨S100000x128, .f32⟩
  | 63 => ⟨S100000x128, .f32⟩
  | 64 => ⟨S_, .f32⟩
  | 65 => ⟨S100000x128, .f32⟩
  | 66 => ⟨S100000x128, .f32⟩
  | 67 => ⟨S100000x128, .f32⟩
  | 68 => ⟨S1x128x128, .f32⟩
  | 69 => ⟨S128x128, .f32⟩
  | 70 => ⟨S1x128, .f32⟩
  | 71 => ⟨S128, .f32⟩
  | 72 => ⟨S1x128x128, .f32⟩
  | 73 => ⟨S128x128, .f32⟩
  | 74 => ⟨S_, .i32⟩
  | 75 => ⟨S1600000, .i32⟩
  | 76 => ⟨S1600000, .i1⟩
  | 77 => ⟨S_, .i32⟩
  | 78 => ⟨S1600000, .i32⟩
  | 79 => ⟨S1600000, .i32⟩
  | 80 => ⟨S1600000, .i32⟩
  | 81 => ⟨S1600000x1, .i32⟩
  | 82 => ⟨S1600000x128, .f32⟩
  | 83 => ⟨S_, .f32⟩
  | 84 => ⟨S100000x128, .f32⟩
  | 85 => ⟨S1600000x1, .i32⟩
  | 86 => ⟨S100000x128, .f32⟩
  | 87 => ⟨S100000x1, .f32⟩
  | 88 => ⟨S100000x128, .f32⟩
  | 89 => ⟨S100000x128, .f32⟩
  | 90 => ⟨S100000x128, .f32⟩
  | 91 => ⟨S1x128, .f32⟩
  | 92 => ⟨S100000x128, .f32⟩
  | 93 => ⟨S100000x128, .f32⟩
  | 94 => ⟨S100000x128, .f32⟩
  | 95 => ⟨S100000x128, .f32⟩
  | 96 => ⟨S_, .f32⟩
  | 97 => ⟨S100000x128, .f32⟩
  | 98 => ⟨S100000x128, .f32⟩
  | 99 => ⟨S_, .f32⟩
  | 100 => ⟨S100000x128, .f32⟩
  | 101 => ⟨S100000x128, .f32⟩
  | 102 => ⟨S100000x128, .f32⟩
  | 103 => ⟨S1x128x128, .f32⟩
  | 104 => ⟨S128x128, .f32⟩
  | 105 => ⟨S1x128, .f32⟩
  | 106 => ⟨S128, .f32⟩
  | 107 => ⟨S1x128x128, .f32⟩
  | 108 => ⟨S128x128, .f32⟩
  | 109 => ⟨S_, .i32⟩
  | 110 => ⟨S1600000, .i32⟩
  | 111 => ⟨S1600000, .i1⟩
  | 112 => ⟨S_, .i32⟩
  | 113 => ⟨S1600000, .i32⟩
  | 114 => ⟨S1600000, .i32⟩
  | 115 => ⟨S1600000, .i32⟩
  | 116 => ⟨S1600000x1, .i32⟩
  | 117 => ⟨S1600000x128, .f32⟩
  | 118 => ⟨S_, .f32⟩
  | 119 => ⟨S100000x128, .f32⟩
  | 120 => ⟨S1600000x1, .i32⟩
  | 121 => ⟨S100000x128, .f32⟩
  | 122 => ⟨S100000x1, .f32⟩
  | 123 => ⟨S100000x128, .f32⟩
  | 124 => ⟨S100000x128, .f32⟩
  | 125 => ⟨S100000x128, .f32⟩
  | 126 => ⟨S1x128, .f32⟩
  | 127 => ⟨S100000x128, .f32⟩
  | _ => ⟨S100000x256, .f32⟩

abbrev hbmTy0_1 (i : Nat) : BufTy := match i % 128 with
  | 0 => ⟨S100000x128, .f32⟩
  | 1 => ⟨S100000x128, .f32⟩
  | 2 => ⟨S100000x128, .f32⟩
  | 3 => ⟨S_, .f32⟩
  | 4 => ⟨S100000x128, .f32⟩
  | 5 => ⟨S100000x128, .f32⟩
  | 6 => ⟨S_, .f32⟩
  | 7 => ⟨S100000x128, .f32⟩
  | 8 => ⟨S100000x128, .f32⟩
  | 9 => ⟨S100000x128, .f32⟩
  | 10 => ⟨S_, .i32⟩
  | 11 => ⟨S1600000, .i32⟩
  | 12 => ⟨S1600000, .i1⟩
  | 13 => ⟨S_, .i32⟩
  | 14 => ⟨S1600000, .i32⟩
  | 15 => ⟨S1600000, .i32⟩
  | 16 => ⟨S1600000, .i32⟩
  | 17 => ⟨S1600000x1, .i32⟩
  | 18 => ⟨S1600000x128, .f32⟩
  | 19 => ⟨S_, .f32⟩
  | 20 => ⟨S100000x128, .f32⟩
  | 21 => ⟨S1600000x1, .i32⟩
  | 22 => ⟨S100000x128, .f32⟩
  | 23 => ⟨S100000x1, .f32⟩
  | 24 => ⟨S100000x128, .f32⟩
  | 25 => ⟨S100000x128, .f32⟩
  | 26 => ⟨S100000x47, .f32⟩
  | 27 => ⟨S1x47, .f32⟩
  | 28 => ⟨S100000x47, .f32⟩
  | 29 => ⟨S100000x47, .f32⟩
  | 30 => ⟨S100000x47, .f32⟩
  | 31 => ⟨S100000x47, .f32⟩
  | 32 => ⟨S_, .f32⟩
  | 33 => ⟨S100000, .f32⟩
  | 34 => ⟨S_, .f32⟩
  | 35 => ⟨S100000, .f32⟩
  | 36 => ⟨S100000, .f32⟩
  | 37 => ⟨S100000x1, .f32⟩
  | 38 => ⟨S100000x47, .f32⟩
  | 39 => ⟨S100000x47, .f32⟩
  | 40 => ⟨S100000x47, .f32⟩
  | 41 => ⟨S_, .f32⟩
  | 42 => ⟨S100000, .f32⟩
  | 43 => ⟨S100000x1, .f32⟩
  | 44 => ⟨S100000x1, .f32⟩
  | 45 => ⟨S100000x47, .f32⟩
  | 46 => ⟨S100000x47, .f32⟩
  | _ => ⟨S100000x256, .f32⟩

abbrev hbmTy (i : Nat) : BufTy := match i / 128 with
  | 0 => hbmTy0_0 i
  | 1 => hbmTy0_1 i
  | _ => ⟨S100000x256, .f32⟩

abbrev bufTy : (tb : Table) → Fin (tcTables nBuf tb) → BufTy
  | .hbm, ⟨i, _⟩ => hbmTy i
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_call0_cst : Ref sig .tc := ⟨.hbm, 30, rfl⟩
abbrev main_call0_v0 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c : Ref sig .tc := ⟨.hbm, 39, rfl⟩
abbrev main_v23 : Ref sig .tc := ⟨.hbm, 40, rfl⟩
abbrev main_v24 : Ref sig .tc := ⟨.hbm, 41, rfl⟩
abbrev main_c_3 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_4 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_call1_cst : Ref sig .tc := ⟨.hbm, 61, rfl⟩
abbrev main_call1_v0 : Ref sig .tc := ⟨.hbm, 62, rfl⟩
abbrev main_v42 : Ref sig .tc := ⟨.hbm, 63, rfl⟩
abbrev main_cst_5 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_c_6 : Ref sig .tc := ⟨.hbm, 74, rfl⟩
abbrev main_v52 : Ref sig .tc := ⟨.hbm, 75, rfl⟩
abbrev main_v53 : Ref sig .tc := ⟨.hbm, 76, rfl⟩
abbrev main_c_7 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_8 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_call2_cst : Ref sig .tc := ⟨.hbm, 96, rfl⟩
abbrev main_call2_v0 : Ref sig .tc := ⟨.hbm, 97, rfl⟩
abbrev main_v71 : Ref sig .tc := ⟨.hbm, 98, rfl⟩
abbrev main_cst_9 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_c_10 : Ref sig .tc := ⟨.hbm, 109, rfl⟩
abbrev main_v81 : Ref sig .tc := ⟨.hbm, 110, rfl⟩
abbrev main_v82 : Ref sig .tc := ⟨.hbm, 111, rfl⟩
abbrev main_c_11 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_cst_12 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_call3_cst : Ref sig .tc := ⟨.hbm, 131, rfl⟩
abbrev main_call3_v0 : Ref sig .tc := ⟨.hbm, 132, rfl⟩
abbrev main_v100 : Ref sig .tc := ⟨.hbm, 133, rfl⟩
abbrev main_cst_13 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_c_14 : Ref sig .tc := ⟨.hbm, 138, rfl⟩
abbrev main_v104 : Ref sig .tc := ⟨.hbm, 139, rfl⟩
abbrev main_v105 : Ref sig .tc := ⟨.hbm, 140, rfl⟩
abbrev main_c_15 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_cst_16 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_call4_cst : Ref sig .tc := ⟨.hbm, 160, rfl⟩
abbrev main_call4_v0 : Ref sig .tc := ⟨.hbm, 161, rfl⟩
abbrev main_call4_cst_0 : Ref sig .tc := ⟨.hbm, 162, rfl⟩
abbrev main_call4_v1 : Ref sig .tc := ⟨.hbm, 163, rfl⟩
abbrev main_call4_v2 : Ref sig .tc := ⟨.hbm, 164, rfl⟩
abbrev main_call4_v3 : Ref sig .tc := ⟨.hbm, 165, rfl⟩
abbrev main_call4_v4 : Ref sig .tc := ⟨.hbm, 166, rfl⟩
abbrev main_call4_v5 : Ref sig .tc := ⟨.hbm, 167, rfl⟩
abbrev main_call4_v6 : Ref sig .tc := ⟨.hbm, 168, rfl⟩
abbrev main_call4_cst_1 : Ref sig .tc := ⟨.hbm, 169, rfl⟩
abbrev main_call4_v7 : Ref sig .tc := ⟨.hbm, 170, rfl⟩
abbrev main_call4_v8 : Ref sig .tc := ⟨.hbm, 171, rfl⟩
abbrev main_call4_v9 : Ref sig .tc := ⟨.hbm, 172, rfl⟩
abbrev main_call4_v10 : Ref sig .tc := ⟨.hbm, 173, rfl⟩
abbrev main_v123 : Ref sig .tc := ⟨.hbm, 174, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  bcast_S47_S1x47_1 : S47.BroadcastsInDim S1x47 (![1] : Fin 1 → Fin S1x47.rank)
  bcast_S1x47_S100000x47_0_1 : S1x47.BroadcastsInDim S100000x47 (![0, 1] : Fin 2 → Fin S100000x47.rank)
  reducesTo_S100000x47_S100000_d1 : S100000x47.ReducesTo [1] S100000
  h_S_ : 0 < S_.numel
  bcast_S100000x1_S100000x47_0_1 : S100000x1.BroadcastsInDim S100000x47 (![0, 1] : Fin 2 → Fin S100000x47.rank)
  scatter_S100000_S1600000x1_S1600000_n_0_0_1_wf : ScatterDims.WF S100000 S1600000x1 S1600000 [] [0] [0] 1
  dot_S100000x256_S256x128_S100000x128_1_0_0_1_n_n_wf : DotDims.WF S100000x256 S256x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x128_S128x47_S100000x47_1_0_0_1_n_n_wf : DotDims.WF S100000x128 S128x47 S100000x47 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x47_S100000x47_1_0_0_1_n_n : DotDims S100000x128 S128x47 S100000x47 where
  lhsContracting := [1]
  rhsContracting := [0]
  lhsNonContracting := [0]
  rhsNonContracting := [1]
  lhsBatch := []
  rhsBatch := []
  wf := dot_S100000x128_S128x47_S100000x47_1_0_0_1_n_n_wf

class Facts : Prop extends Facts₀ where

variable [Facts]
-- ==== Proof.Spec.lean ====
/-
  The network as one function of its arguments, on the extended reals.

  Named here, over the reference program's shapes and layout facts, are the values the network passes from step to
  step: the edge list's two rows `src` and `dst`, the reciprocal in-degree `degInv` (at least one), the mean
  aggregation `agg h` of a node array `h` over the incoming edges (a row gather by `src`, a scatter-add by `dst`, a
  row scaling by `degInv`), the input projection `inp` and its rectified copy `h0`, the hidden update `upd`, the
  logits and their row-wise log-softmax `lsm`; `out` chains them as the network does. Both programs are shown to
  compute `out` of the arguments.
-/
import proofs.«171517_j47004122087951_1_alg».proof.ReferenceIdeal
import Idealize.ShloMosaic.PureOps.Ideal

noncomputable section

namespace Cert.Spec

open Idealize.ShloMosaic Cert.ReferenceIdeal
open Cert.ReferenceIdeal.Facts₀

variable [Cert.ReferenceIdeal.Facts₀] {F : FTy → Type} [FloatOps F]

/-- An array of the given shape and element type over the float values `F` (the extended reals where the claim is read). -/
abbrev Arr (F : FTy → Type) [FloatOps F] (s : Shape) (e : EltTy) := (⟨s, e⟩ : BufTy).Contents (Elt F)

/-- The edges' source nodes: row 0 of the edge list. -/
def src (ei : Arr F S2x1600000 .i32) : Arr F S1600000 .i32 :=
  shapeCast _ (extractStridedSlice S1x1600000 ![0, 0] ei slices_S2x1600000_S1x1600000_0_0) shapeCasts_S1x1600000_S1600000

/-- The edges' destination nodes: row 1 of the edge list. -/
def dst (ei : Arr F S2x1600000 .i32) : Arr F S1600000 .i32 :=
  shapeCast _ (extractStridedSlice S1x1600000 ![1, 0] ei slices_S2x1600000_S1x1600000_1_0) shapeCasts_S1x1600000_S1600000

/-- The source nodes with a negative index wrapped once by the node count. -/
def srcWrapped (ei : Arr F S2x1600000 .i32) : Arr F S1600000 .i32 :=
  select (cmpi .slt (src ei) (broadcastInDim S1600000 ![] bcast_S_S1600000 (constantI S_ 32 0#32)))
    (addi (src ei) (broadcastInDim S1600000 ![] bcast_S_S1600000 (constantI S_ 32 100000#32))) (src ei)

/-- One over the in-degree of each node, the in-degree taken at least one. -/
def degInv (ei : Arr F S2x1600000 .i32) : Arr F S100000 .f32 :=
  Host.divf (broadcastInDim S100000 ![] bcast_S_S100000 (constant S_ .f32 0x3F800000#32))
    (maximumf
      (Host.scatterAdd scatter_S100000_S1600000x1_S1600000_n_0_0_1
        (broadcastInDim S100000 ![] bcast_S_S100000 (constant S_ .f32 0x00000000#32))
        (broadcastInDim S1600000x1 ![0] bcast_S1600000_S1600000x1_0 (dst ei))
        (broadcastInDim S1600000 ![] bcast_S_S1600000 (constant S_ .f32 0x3F800000#32)))
      (broadcastInDim S100000 ![] bcast_S_S100000 (constant S_ .f32 0x3F800000#32)))

/-- The mean of `h` over each node's incoming edges: gather the source rows, add them up per destination, scale each
    row by the reciprocal in-degree. -/
def agg (h : Arr F S100000x128 .f32) (ei : Arr F S2x1600000 .i32) : Arr F S100000x128 .f32 :=
  mulf
    (Host.scatterAdd scatter_S100000x128_S1600000x1_S1600000x128_1_0_0_1
      (broadcastInDim S100000x128 ![] bcast_S_S100000x128 (constant S_ .f32 0x00000000#32))
      (broadcastInDim S1600000x1 ![0] bcast_S1600000_S1600000x1_0 (dst ei))
      (Host.gather gather_S100000x128_S1600000x1_S1600000x128_1_0_n_n_0_1_1128 h
        (broadcastInDim S1600000x1 ![0] bcast_S1600000_S1600000x1_0 (srcWrapped ei))))
    (broadcastInDim S100000x128 ![0, 1] bcast_S100000x1_S100000x128_0_1
      (broadcastInDim S100000x1 ![0] bcast_S100000_S100000x1_0 (degInv ei)))

/-- The input projection `x · W + b`. -/
def inp (x : Arr F S100000x256 .f32) (W : Arr F S256x128 .f32) (b : Arr F S128 .f32) : Arr F S100000x128 .f32 :=
  addf (Host.dotGeneral dot_S100000x256_S256x128_S100000x128_1_0_0_1_n_n none x W)
    (broadcastInDim S100000x128 ![0, 1] bcast_S1x128_S100000x128_0_1 (broadcastInDim S1x128 ![1] bcast_S128_S1x128_1 b))

/-- An array floored at zero, entry by entry. -/
def relu (v : Arr F S100000x128 .f32) : Arr F S100000x128 .f32 :=
  maximumf v (broadcastInDim S100000x128 ![] bcast_S_S100000x128 (constant S_ .f32 0x00000000#32))

/-- The hidden update `max (a · Wl + bl + h · Wr) 0 + c · inp`. -/
def upd (a h i : Arr F S100000x128 .f32) (Wl : Arr F S128x128 .f32) (bl : Arr F S128 .f32) (Wr : Arr F S128x128 .f32) :
    Arr F S100000x128 .f32 :=
  addf
    (relu (addf
      (addf (Host.dotGeneral dot_S100000x128_S128x128_S100000x128_1_0_0_1_n_n none a Wl)
        (broadcastInDim S100000x128 ![0, 1] bcast_S1x128_S100000x128_0_1 (broadcastInDim S1x128 ![1] bcast_S128_S1x128_1 bl)))
      (Host.dotGeneral dot_S100000x128_S128x128_S100000x128_1_0_0_1_n_n none h Wr)))
    (mulf (broadcastInDim S100000x128 ![] bcast_S_S100000x128 (constant S_ .f32 0x3E4CCCCD#32)) i)

/-- The logits `a · Wl + bl + h · Wr`. -/
def logits (a h : Arr F S100000x128 .f32) (Wl : Arr F S128x47 .f32) (bl : Arr F S47 .f32) (Wr : Arr F S128x47 .f32) :
    Arr F S100000x47 .f32 :=
  addf
    (addf (Host.dotGeneral dot_S100000x128_S128x47_S100000x47_1_0_0_1_n_n none a Wl)
      (broadcastInDim S100000x47 ![0, 1] bcast_S1x47_S100000x47_0_1 (broadcastInDim S1x47 ![1] bcast_S47_S1x47_1 bl)))
    (Host.dotGeneral dot_S100000x128_S128x47_S100000x47_1_0_0_1_n_n none h Wr)

/-- A row's entries less the row's largest. -/
def shifted (y : Arr F S100000x47 .f32) : Arr F S100000x47 .f32 :=
  subf y
    (broadcastInDim S100000x47 ![0, 1] bcast_S100000x1_S100000x47_0_1
      (broadcastInDim S100000x1 ![0] bcast_S100000_S100000x1_0
        (maximumf (broadcastInDim S100000 ![] bcast_S_S100000 (constant S_ .f32 0xFF800000#32))
          (Host.reduce FloatOps.maximumf y (constant S_ .f32 0xFF800000#32) reducesTo_S100000x47_S100000_d1 h_S_))))

/-- The row-wise log-softmax: the shifted row less the logarithm of the sum of its exponentials. -/
def lsm (y : Arr F S100000x47 .f32) : Arr F S100000x47 .f32 :=
  subf (shifted y)
    (broadcastInDim S100000x47 ![0, 1] bcast_S100000x1_S100000x47_0_1
      (Host.log
        (broadcastInDim S100000x1 ![0] bcast_S100000_S100000x1_0
          (Host.reduceAdd (Host.exp (shifted y)) (constant S_ .f32 0x00000000#32) reducesTo_S100000x47_S100000_d1 h_S_))))

/-- Layer `0`'s left weights, bias and right weights: slab 0 of the stacked arrays. -/
def wl0 (x4 : Arr F S3x128x128 .f32) : Arr F S128x128 .f32 :=
  shapeCast _ (extractStridedSlice S1x128x128 ![0, 0, 0] x4 slices_S3x128x128_S1x128x128_0_0_0) shapeCasts_S1x128x128_S128x128
def bl0 (x5 : Arr F S3x128 .f32) : Arr F S128 .f32 :=
  shapeCast _ (extractStridedSlice S1x128 ![0, 0] x5 slices_S3x128_S1x128_0_0) shapeCasts_S1x128_S128
/-- Slab 1. -/
def wl1 (x4 : Arr F S3x128x128 .f32) : Arr F S128x128 .f32 :=
  shapeCast _ (extractStridedSlice S1x128x128 ![1, 0, 0] x4 slices_S3x128x128_S1x128x128_1_0_0) shapeCasts_S1x128x128_S128x128
def bl1 (x5 : Arr F S3x128 .f32) : Arr F S128 .f32 :=
  shapeCast _ (extractStridedSlice S1x128 ![1, 0] x5 slices_S3x128_S1x128_1_0) shapeCasts_S1x128_S128
/-- Slab 2. -/
def wl2 (x4 : Arr F S3x128x128 .f32) : Arr F S128x128 .f32 :=
  shapeCast _ (extractStridedSlice S1x128x128 ![2, 0, 0] x4 slices_S3x128x128_S1x128x128_2_0_0) shapeCasts_S1x128x128_S128x128
def bl2 (x5 : Arr F S3x128 .f32) : Arr F S128 .f32 :=
  shapeCast _ (extractStridedSlice S1x128 ![2, 0] x5 slices_S3x128_S1x128_2_0) shapeCasts_S1x128_S128

/-- The projected input and the four hidden states, as the network chains them. -/
def h0 (x : Arr F S100000x256 .f32) (W : Arr F S256x128 .f32) (b : Arr F S128 .f32) : Arr F S100000x128 .f32 := relu (inp x W b)

def h1 (x : Arr F S100000x256 .f32) (ei : Arr F S2x1600000 .i32) (W : Arr F S256x128 .f32) (b : Arr F S128 .f32)
    (x4 : Arr F S3x128x128 .f32) (x5 : Arr F S3x128 .f32) (x6 : Arr F S3x128x128 .f32) : Arr F S100000x128 .f32 :=
  upd (agg (h0 x W b) ei) (h0 x W b) (inp x W b) (wl0 x4) (bl0 x5) (wl0 x6)

def h2 (x : Arr F S100000x256 .f32) (ei : Arr F S2x1600000 .i32) (W : Arr F S256x128 .f32) (b : Arr F S128 .f32)
    (x4 : Arr F S3x128x128 .f32) (x5 : Arr F S3x128 .f32) (x6 : Arr F S3x128x128 .f32) : Arr F S100000x128 .f32 :=
  upd (agg (h1 x ei W b x4 x5 x6) ei) (h1 x ei W b x4 x5 x6) (inp x W b) (wl1 x4) (bl1 x5) (wl1 x6)

def h3 (x : Arr F S100000x256 .f32) (ei : Arr F S2x1600000 .i32) (W : Arr F S256x128 .f32) (b : Arr F S128 .f32)
    (x4 : Arr F S3x128x128 .f32) (x5 : Arr F S3x128 .f32) (x6 : Arr F S3x128x128 .f32) : Arr F S100000x128 .f32 :=
  upd (agg (h2 x ei W b x4 x5 x6) ei) (h2 x ei W b x4 x5 x6) (inp x W b) (wl2 x4) (bl2 x5) (wl2 x6)

/-- The network's result. -/
def out (x : Arr F S100000x256 .f32) (ei : Arr F S2x1600000 .i32) (W : Arr F S256x128 .f32) (b : Arr F S128 .f32)
    (x4 : Arr F S3x128x128 .f32) (x5 : Arr F S3x128 .f32) (x6 : Arr F S3x128x128 .f32)
    (x7 : Arr F S128x47 .f32) (x8 : Arr F S47 .f32) (x9 : Arr F S128x47 .f32) : Arr F S100000x47 .f32 :=
  lsm (logits (agg (h3 x ei W b x4 x5 x6) ei) (h3 x ei W b x4 x5 x6) x7 x8 x9)

end Cert.Spec

end
-- ==== Proof.Assembly.lean ====
/-
  The claim, from the two programs' value runs.

  Both programs, read on the extended reals, end with the network's function `Cert.Spec.out` of their ten argument
  arrays in their result array and with the arguments unchanged. Granted those two runs, every conjunct of the claim
  follows: the three frames are the generated frames and the reference's run with its result forgotten; the
  idealization rewrote nothing; and from memories that agree on the arguments the two results are one function of
  equal arguments.
-/
import proofs.«171517_j47004122087951_1_alg».proof.Defs
import proofs.«171517_j47004122087951_1_alg».proof.Proof.Gen.Kernel
import proofs.«171517_j47004122087951_1_alg».proof.Proof.Gen.Kernel.Frame
import proofs.«171517_j47004122087951_1_alg».proof.Proof.Gen.KernelIdeal
import proofs.«171517_j47004122087951_1_alg».proof.Proof.Gen.KernelIdeal.Frame
import proofs.«171517_j47004122087951_1_alg».proof.Proof.Gen.ReferenceIdeal
import proofs.«171517_j47004122087951_1_alg».proof.Proof.Gen.Pre_finite_inputs
import proofs.«171517_j47004122087951_1_alg».proof.Proof.Spec

noncomputable section

namespace Cert.Proof.Assembly

open Idealize.ShloMosaic Idealize.SL.Sem

/-- The kernel program's run on the extended reals: from any memory it terminates without fault, its result array
    ends at the network's function of its argument arrays, and the arguments end unchanged. -/
abbrev KernelRun : Prop :=
  ∀ (m : (ℓ : Loc Cert.KernelIdeal.nD Cert.KernelIdeal.τ Cert.KernelIdeal.sig) → Buf (Elt Ideal) ℓ) (ρ : Dev Cert.KernelIdeal.nD → PrngReg),
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v91)
          = Cert.Spec.out (F := Ideal) (m ((c.tc : Thread Cert.KernelIdeal.nD Cert.KernelIdeal.τ).loc Cert.KernelIdeal.main_arg0))
              (m ((c.tc : Thread Cert.KernelIdeal.nD Cert.KernelIdeal.τ).loc Cert.KernelIdeal.main_arg1))
              (m ((c.tc : Thread Cert.KernelIdeal.nD Cert.KernelIdeal.τ).loc Cert.KernelIdeal.main_arg2))
              (m ((c.tc : Thread Cert.KernelIdeal.nD Cert.KernelIdeal.τ).loc Cert.KernelIdeal.main_arg3))
              (m ((c.tc : Thread Cert.KernelIdeal.nD Cert.KernelIdeal.τ).loc Cert.KernelIdeal.main_arg4))
              (m ((c.tc : Thread Cert.KernelIdeal.nD Cert.KernelIdeal.τ).loc Cert.KernelIdeal.main_arg5))
              (m ((c.tc : Thread Cert.KernelIdeal.nD Cert.KernelIdeal.τ).loc Cert.KernelIdeal.main_arg6))
              (m ((c.tc : Thread Cert.KernelIdeal.nD Cert.KernelIdeal.τ).loc Cert.KernelIdeal.main_arg7))
              (m ((c.tc : Thread Cert.KernelIdeal.nD Cert.KernelIdeal.τ).loc Cert.KernelIdeal.main_arg8))
              (m ((c.tc : Thread Cert.KernelIdeal.nD Cert.KernelIdeal.τ).loc Cert.KernelIdeal.main_arg9))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

/-- The reference program's run on the extended reals: the same, over its own buffers. -/
abbrev ReferenceRun : Prop :=
  ∀ (m : (ℓ : Loc Cert.ReferenceIdeal.nD Cert.ReferenceIdeal.τ Cert.ReferenceIdeal.sig) → Buf (Elt Ideal) ℓ) (ρ : Dev Cert.ReferenceIdeal.nD → PrngReg),
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread Cert.ReferenceIdeal.nD Cert.ReferenceIdeal.τ).loc Cert.ReferenceIdeal.main_v123)
          = Cert.Spec.out (F := Ideal) (m ((c.tc : Thread Cert.ReferenceIdeal.nD Cert.ReferenceIdeal.τ).loc Cert.ReferenceIdeal.main_arg0))
              (m ((c.tc : Thread Cert.ReferenceIdeal.nD Cert.ReferenceIdeal.τ).loc Cert.ReferenceIdeal.main_arg1))
              (m ((c.tc : Thread Cert.ReferenceIdeal.nD Cert.ReferenceIdeal.τ).loc Cert.ReferenceIdeal.main_arg2))
              (m ((c.tc : Thread Cert.ReferenceIdeal.nD Cert.ReferenceIdeal.τ).loc Cert.ReferenceIdeal.main_arg3))
              (m ((c.tc : Thread Cert.ReferenceIdeal.nD Cert.ReferenceIdeal.τ).loc Cert.ReferenceIdeal.main_arg4))
              (m ((c.tc : Thread Cert.ReferenceIdeal.nD Cert.ReferenceIdeal.τ).loc Cert.ReferenceIdeal.main_arg5))
              (m ((c.tc : Thread Cert.ReferenceIdeal.nD Cert.ReferenceIdeal.τ).loc Cert.ReferenceIdeal.main_arg6))
              (m ((c.tc : Thread Cert.ReferenceIdeal.nD Cert.ReferenceIdeal.τ).loc Cert.ReferenceIdeal.main_arg7))
              (m ((c.tc : Thread Cert.ReferenceIdeal.nD Cert.ReferenceIdeal.τ).loc Cert.ReferenceIdeal.main_arg8))
              (m ((c.tc : Thread Cert.ReferenceIdeal.nD Cert.ReferenceIdeal.τ).loc Cert.ReferenceIdeal.main_arg9))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

/-- The kernel as printed runs and leaves its arguments unchanged. -/
theorem frame_k : Cert.frame_Kernel := fun m ρ _ => Cert.Kernel.Gen.frame m ρ

/-- So does its reading on the extended reals. -/
theorem frame_ki : Cert.frame_KernelIdeal := fun m ρ _ => Cert.KernelIdeal.Gen.frame m ρ

/-- The reference's frame is its value run with the result's conjunct dropped. -/
theorem frame_ri (hR : ReferenceRun) : Cert.frame_ReferenceIdeal := fun m ρ _ =>
  (θ_run (Cert.ReferenceIdeal.defs (F := Ideal)) _ _).mono (fun _ h c => (h c).2) (hR m ρ)

/-- From memories agreeing on the arguments both results are `Cert.Spec.out` of the kernel's arguments. -/
theorem algebraic (hK : KernelRun) (hR : ReferenceRun) : Cert.algebraic_KernelIdeal_ReferenceIdeal := by
  intro m ρ m' ρ' _ hagree
  refine ⟨fun c => Cert.Spec.out (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9)), hK m ρ, ?_⟩
  refine (θ_run (Cert.ReferenceIdeal.defs (F := Ideal)) _ _).mono (fun _ h c => ⟨(h c).1.trans ?_, (h c).2⟩) (hR m' ρ')
  rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2]

/-- The claim, given the two value runs. -/
theorem claim_of (hK : KernelRun) (hR : ReferenceRun) : Cert.Claim :=
  ⟨Cert.Kernel.Gen.facts, Cert.KernelIdeal.Gen.facts, Cert.ReferenceIdeal.Gen.facts, Cert.Pre_finite_inputs.Gen.facts,
    frame_k, frame_ki, frame_ri hR, trivial, algebraic hK hR⟩

end Cert.Proof.Assembly

end
-- ==== Proof.KernelRun.lean ====
/-
  The idealized kernel program's run with every buffer named.

  The program is five kernel regions among stretches of host operations. From any launch memory every weakly fair
  execution terminates without a fault, and in the final state every buffer that is not a staging buffer holds the last
  of a chain of valuations: the launch contents, then after each host stretch the fold of its operations, then after
  each region the arrays its blocks were written back to. The chain (`W0` … `W10`) and the segments are the generated
  frame's; here the launch theorem is asked for the whole last valuation instead of the arguments alone.
-/
import proofs.«171517_j47004122087951_1_alg».proof.Proof.Gen.KernelIdeal.Frame

set_option maxRecDepth 16384

noncomputable section

namespace Cert.KernelIdeal.KValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with every unscoped buffer at the last
    valuation of the chain. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W10 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h => h)

/-- The same, at one TensorCore buffer that is not a staging buffer. -/
theorem mem_final {r : PUnit × MemSt nD τ sig (Elt F)}
    (h : ∀ c : Dev nD, ∀ b ∈ Pipeline.ucRefs τ sig, r.2.mem (((c : Thread nD τ)).1, b) = W10 m ρ c b)
    (c : Dev nD) (b : Ref sig .tc) (hb : ¬ (Proc.devRef .tc b : DevRef τ sig).isScoped) :
    r.2.mem ((c.tc : Thread nD τ).loc b) = W10 m ρ c (Proc.devRef .tc b) :=
  h c _ (mem_uc b hb)

end Cert.KernelIdeal.KValue

end
-- ==== Proof.LibDenseRows.lean ====
/-
  A dense layer read one row at a time, on the extended reals.

  For an `[R, K]` array `a`, a `[K, N]` array `w` and an `[N]` array `b`, row `r` of `a · w + b` is
  `n ↦ (∑ k, a r k * w k n) + b n`: it depends on row `r` of `a` alone. The lemmas here read that row off the
  two spellings a program gives the layer — a matrix product accumulated into the zero splat plus a
  `[N] → [1, N] → [R, N]` cast-and-broadcast of the bias, and a host `dot_general` plus the bias broadcast in
  dimension twice — for the plain dimension numbers (contract the left operand's last axis with the right operand's
  first, no batch axis), at any extents. Both spellings give the same function `affine` of the row, so a chain of
  layers computed on a block of rows and the same chain computed on all rows agree row by row.
-/
import Idealize.ShloMosaic.Lib.ValueLayout
import Idealize.ShloMosaic.Lib.ValueIdx
import Idealize.ShloMosaic.PureOps.Ideal.Laws

noncomputable section

namespace Cert.DenseRows

open Idealize.ShloMosaic Idealize.ShloMosaic.ValueIdx

/-! ## Rows, matrices, vectors as plain functions -/

/-- Row `r` of an `[R, K]` array. -/
def row {R K : ℕ} (H : (⟨2, ![R, K]⟩ : Shape).Idx → EReal) (r : Fin R) : Fin K → EReal := fun k => H (ix2 r k)

/-- A `[K, N]` array as a matrix. -/
def mat {K N : ℕ} (W : (⟨2, ![K, N]⟩ : Shape).Idx → EReal) : Fin K → Fin N → EReal := fun k n => W (ix2 k n)

/-- An `[N]` array as a vector. -/
def vec {N : ℕ} (b : (⟨1, ![N]⟩ : Shape).Idx → EReal) : Fin N → EReal := fun n => b (ix1 n)

/-- One dense layer applied to one row: `h · W + b`. -/
def affine {K N : ℕ} (h : Fin K → EReal) (W : Fin K → Fin N → EReal) (b : Fin N → EReal) : Fin N → EReal :=
  fun n => (∑ k : Fin K, h k * W k n) + b n

/-- The entrywise maximum of a row with a fixed threshold `z` (a rectifier when `z` is zero). -/
def floorAt {N : ℕ} (z : EReal) (v : Fin N → EReal) : Fin N → EReal := fun n => max (v n) z

/-! ## The plain contraction, re-indexed by the contracted coordinate -/

/-- The contraction sum of the plain dimension numbers at result index `(r, n)` runs over the contracted
    coordinate `k`: the left operand is read at `(r, k)`, the right at `(k, n)`. -/
theorem plain_contr_sum {M K N : ℕ} (f : (⟨2, ![M, K]⟩ : Shape).Idx → EReal) (g : (⟨2, ![K, N]⟩ : Shape).Idx → EReal)
    (r : Fin M) (n : Fin N) :
    ∑ q : (DotDims.plain M K N).contr.Idx,
        f ((DotDims.plain M K N).lhsIdx (ix2 r n) q) * g ((DotDims.plain M K N).rhsIdx (ix2 r n) q)
      = ∑ k : Fin K, f (ix2 r k) * g (ix2 k n) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r n) ((contrEquiv1 (DotDims.plain M K N) K rfl rfl).symm k) = ix2 r k :=
    funext fun a => Fin.ext (by
      match a with
      | ⟨0, _⟩ =>
        show ((DotDims.plain M K N).lhsIdx (ix2 r n) _ 0).val = r.val
        unfold DotDims.lhsIdx
        rw [dif_neg (show ¬(0 : Fin 2) ∈ (DotDims.plain M K N).lhsBatch from List.not_mem_nil),
          dif_pos (show (0 : Fin 2) ∈ (DotDims.plain M K N).lhsNonContracting from List.mem_singleton.mpr rfl)]
        rfl
      | ⟨1, _⟩ => exact ((DotDims.plain M K N).lhsIdx_val_of_single rfl (ix2 r n) _).trans hk)
  have er : (DotDims.plain M K N).rhsIdx (ix2 r n) ((contrEquiv1 (DotDims.plain M K N) K rfl rfl).symm k) = ix2 k n :=
    funext fun a => Fin.ext (by
      match a with
      | ⟨0, _⟩ => exact ((DotDims.plain M K N).rhsIdx_val_of_single rfl (ix2 r n) _).trans hk
      | ⟨1, _⟩ =>
        show ((DotDims.plain M K N).rhsIdx (ix2 r n) _ 1).val = n.val
        unfold DotDims.rhsIdx
        rw [dif_neg (show ¬(1 : Fin 2) ∈ (DotDims.plain M K N).rhsBatch from List.not_mem_nil),
          dif_pos (show (1 : Fin 2) ∈ (DotDims.plain M K N).rhsNonContracting from List.mem_singleton.mpr rfl)]
        rfl)
  rw [el, er]

/-! ## The bias, broadcast over the rows -/

/-- An `[N]` array cast to `[1, N]` and broadcast to `[R, N]` reads, at `(r, n)`, the array at `n`. -/
theorem castBroadcast_apply {α : Type} {R N : ℕ} (b : (⟨1, ![N]⟩ : Shape).Idx → α)
    (hc : (⟨1, ![N]⟩ : Shape).ShapeCasts ⟨2, ![1, N]⟩) (hb : (⟨2, ![1, N]⟩ : Shape).Broadcasts ⟨2, ![R, N]⟩)
    (r : Fin R) (n : Fin N) :
    broadcastTo ⟨2, ![R, N]⟩ (shapeCast ⟨2, ![1, N]⟩ b hc) hb (ix2 r n) = b (ix1 n) := by
  rw [broadcastTo_1b_ab_apply, shapeCast_a_1a_apply]

/-- An `[N]` array broadcast in dimension to `[1, N]` (its axis the second) and then to `[R, N]` reads, at
    `(r, n)`, the array at `n`. -/
theorem broadcastTwice_apply {α : Type} {R N : ℕ} (b : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![R, N]⟩ ![0, 1]) (r : Fin R) (n : Fin N) :
    broadcastInDim ⟨2, ![R, N]⟩ ![0, 1] h2 (broadcastInDim ⟨2, ![1, N]⟩ ![1] h1 b) (ix2 r n) = b (ix1 n) := by
  have hN : n.val = if N = 1 then 0 else n.val := by
    split
    · have := n.isLt; omega
    · rfl
  rw [broadcastInDim_apply ![0, 1] h2 _ (ix2 r n) (ix2 (0 : Fin 1) n) (fun a => by
      match a with
      | ⟨0, _⟩ => rfl
      | ⟨1, _⟩ => exact hN),
    broadcastInDim_apply ![1] h1 b (ix2 (0 : Fin 1) n) (ix1 n) (fun a => by
      match a with
      | ⟨0, _⟩ => exact hN)]

/-- A rank-zero array broadcast in dimension to any shape reads its one entry everywhere. -/
theorem splat_apply {α : Type} {t : Shape} (dims : Fin (⟨0, ![]⟩ : Shape).rank → Fin t.rank)
    (h : (⟨0, ![]⟩ : Shape).BroadcastsInDim t dims) (x : (⟨0, ![]⟩ : Shape).Idx → α) (j : t.Idx) :
    broadcastInDim t dims h x j = x ix0 :=
  broadcastInDim_apply dims h x j ix0 (fun a => a.elim0)

/-! ## A layer's row, in its two spellings -/

/-- Row `r` of a matrix product accumulated into the zero splat, plus the cast-and-broadcast bias. -/
theorem row_matmul_bias {R K N : ℕ} {φ₁ φ₂ : FTy} (d : DotDims ⟨2, ![R, K]⟩ ⟨2, ![K, N]⟩ ⟨2, ![R, N]⟩)
    (hd : d = DotDims.plain R K N) (prec : Option ContractPrecision)
    (a : FVec Ideal ⟨2, ![R, K]⟩ φ₁) (w : FVec Ideal ⟨2, ![K, N]⟩ φ₂) (b : FVec Ideal ⟨1, ![N]⟩ .f32)
    (hc : (⟨1, ![N]⟩ : Shape).ShapeCasts ⟨2, ![1, N]⟩) (hb : (⟨2, ![1, N]⟩ : Shape).Broadcasts ⟨2, ![R, N]⟩)
    (r : Fin R) :
    row (addf (matmul d prec a w (constant (F := Ideal) ⟨2, ![R, N]⟩ .f32 0x00000000#32))
          (broadcastTo ⟨2, ![R, N]⟩ (shapeCast ⟨2, ![1, N]⟩ b hc) hb)) r
      = affine (row a r) (mat w) (vec b) := by
  subst hd
  funext n
  show FloatOps.matmul (DotDims.plain R K N) prec a w (constant (F := Ideal) ⟨2, ![R, N]⟩ .f32 0x00000000#32) (ix2 r n)
      + broadcastTo ⟨2, ![R, N]⟩ (shapeCast ⟨2, ![1, N]⟩ b hc) hb (ix2 r n) = _
  rw [Ideal.matmul_constant_zero_apply, plain_contr_sum, castBroadcast_apply]
  rfl

/-- Row `r` of a host `dot_general` plus the bias broadcast in dimension twice. -/
theorem row_dotGeneral_bias {R K N : ℕ} {φ₁ φ₂ : FTy} (d : DotDims ⟨2, ![R, K]⟩ ⟨2, ![K, N]⟩ ⟨2, ![R, N]⟩)
    (hd : d = DotDims.plain R K N) (prec : Option ContractPrecision)
    (a : FVec Ideal ⟨2, ![R, K]⟩ φ₁) (w : FVec Ideal ⟨2, ![K, N]⟩ φ₂) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![R, N]⟩ ![0, 1]) (r : Fin R) :
    row (addf (Host.dotGeneral d prec a w)
          (broadcastInDim ⟨2, ![R, N]⟩ ![0, 1] h2 (broadcastInDim ⟨2, ![1, N]⟩ ![1] h1 b))) r
      = affine (row a r) (mat w) (vec b) := by
  subst hd
  funext n
  show FloatOps.dotGeneral (DotDims.plain R K N) prec .single a w (ix2 r n)
      + broadcastInDim ⟨2, ![R, N]⟩ ![0, 1] h2 (broadcastInDim ⟨2, ![1, N]⟩ ![1] h1 b) (ix2 r n) = _
  rw [Ideal.dotGeneral_apply, plain_contr_sum, broadcastTwice_apply]
  rfl

/-- Row `r` of the entrywise maximum with a splat scalar. -/
theorem row_max_splat {R N : ℕ} (v : FVec Ideal ⟨2, ![R, N]⟩ .f32) (z : Ideal .f32) (r : Fin R) :
    row (maximumf v (broadcast ⟨2, ![R, N]⟩ z)) r = floorAt z (row v r) := rfl

/-- Row `r` of the entrywise maximum with a rank-zero constant broadcast in dimension. -/
theorem row_max_splatInDim {R N : ℕ} (v : FVec Ideal ⟨2, ![R, N]⟩ .f32)
    (dims : Fin (⟨0, ![]⟩ : Shape).rank → Fin (⟨2, ![R, N]⟩ : Shape).rank)
    (h : (⟨0, ![]⟩ : Shape).BroadcastsInDim ⟨2, ![R, N]⟩ dims) (wd : BitVec FTy.f32.bits) (r : Fin R) :
    row (maximumf v (broadcastInDim ⟨2, ![R, N]⟩ dims h (constant (F := Ideal) ⟨0, ![]⟩ .f32 wd))) r
      = floorAt (Ideal.ofBits .f32 wd) (row v r) := by
  funext n
  show max (v (ix2 r n)) (broadcastInDim ⟨2, ![R, N]⟩ dims h (constant (F := Ideal) ⟨0, ![]⟩ .f32 wd) (ix2 r n)) = _
  rw [splat_apply]
  rfl

/-- A change of float format leaves every row as it was: on the extended reals it is the identity. -/
theorem row_truncf {R N : ℕ} {φ ψ : FTy} (v : FVec Ideal ⟨2, ![R, N]⟩ φ) (h : ψ.bits < φ.bits) (r : Fin R) :
    row (truncf ψ v h : FVec Ideal ⟨2, ![R, N]⟩ ψ) r = row v r := rfl

/-- A shape cast to the same shape leaves a matrix as it was. -/
theorem mat_shapeCast_self {K N : ℕ} (w : (⟨2, ![K, N]⟩ : Shape).Idx → EReal)
    (h : (⟨2, ![K, N]⟩ : Shape).ShapeCasts ⟨2, ![K, N]⟩) :
    mat (shapeCast ⟨2, ![K, N]⟩ w h) = mat w := by
  rw [shapeCast_self]

/-- A shape cast to the same shape leaves every row as it was. -/
theorem row_shapeCast_self {R N : ℕ} (v : (⟨2, ![R, N]⟩ : Shape).Idx → EReal)
    (h : (⟨2, ![R, N]⟩ : Shape).ShapeCasts ⟨2, ![R, N]⟩) (r : Fin R) :
    row (shapeCast ⟨2, ![R, N]⟩ v h) r = row v r := by
  rw [shapeCast_self]

end Cert.DenseRows

end
-- ==== Proof.LibBlockRows.lean ====
/-
  Rows of a kernel block, on the extended reals.

  A kernel body that works on a block of R rows often (a) scales a sum of two [R, K] blocks by a per-row factor held
  as a column [R, 1] and spread over the lanes, and (b) multiplies an [R, K] block by a [K, N] matrix, accumulating
  into zeros, and adds a bias held as a one-row matrix [1, N] spread over the rows (the bias was reshaped to one row
  on the host, and the body loads that row). In both, row r of the result depends on row r of the row operands alone:
      (a)  k ↦ (a r k + f r k) · s r            (b)  n ↦ (∑ k, a r k · w k n) + b 0 n.
  The lemmas below read those rows, at any extents, for the plain dimension numbers (contract the left operand's
  last axis with the right operand's first, no batch axis). They use `row`, `mat`, `affine` and
  `plain_contr_sum` of LibDenseRows.lean.
-/
import Idealize.ShloMosaic.Lib.ValueLayout
import Idealize.ShloMosaic.Lib.ValueIdx
import Idealize.ShloMosaic.Lib.Pipeline.Value
import Idealize.ShloMosaic.PureOps.Ideal.Laws
import proofs.«171517_j47004122087951_1_alg».proof.Proof.LibDenseRows

noncomputable section

namespace Cert.LibBlockRows

open Idealize.ShloMosaic Idealize.ShloMosaic.ValueIdx Cert.DenseRows

/-- A column [R, 1] spread over K lanes reads, at (r, k), the column at r. -/
theorem column_spread {α : Type} {R K : ℕ} (s : (⟨2, ![R, 1]⟩ : Shape).Idx → α)
    (hb : (⟨2, ![R, 1]⟩ : Shape).Broadcasts ⟨2, ![R, K]⟩) (r : Fin R) (k : Fin K) :
    broadcastTo ⟨2, ![R, K]⟩ s hb (ix2 r k) = s (ix2 r (0 : Fin 1)) := by
  refine broadcastTo_apply s hb (ix2 r k) (ix2 r (0 : Fin 1)) fun ax => ?_
  match ax with
  | ⟨0, _⟩ =>
    show r.val = if R = 1 then 0 else r.val
    split
    · have := r.isLt; omega
    · rfl
  | ⟨1, _⟩ => rfl

/-- A one-row matrix [1, N] spread over R rows reads, at (r, n), the row at n. -/
theorem row_spread {α : Type} {R N : ℕ} (b : (⟨2, ![1, N]⟩ : Shape).Idx → α)
    (hb : (⟨2, ![1, N]⟩ : Shape).Broadcasts ⟨2, ![R, N]⟩) (r : Fin R) (n : Fin N) :
    broadcastTo ⟨2, ![R, N]⟩ b hb (ix2 r n) = b (ix2 (0 : Fin 1) n) := by
  refine broadcastTo_apply b hb (ix2 r n) (ix2 (0 : Fin 1) n) fun ax => ?_
  match ax with
  | ⟨0, _⟩ => rfl
  | ⟨1, _⟩ =>
    show n.val = if N = 1 then 0 else n.val
    split
    · have := n.isLt; omega
    · rfl

/-- Row `r` of `(a + f) · s`, the column `s` spread over the lanes: every entry of the summed row times the one
    factor `s r`. -/
theorem row_scaled_sum {R K : ℕ} (a f : FVec Ideal ⟨2, ![R, K]⟩ .f32) (s : FVec Ideal ⟨2, ![R, 1]⟩ .f32)
    (hb : (⟨2, ![R, 1]⟩ : Shape).Broadcasts ⟨2, ![R, K]⟩) (r : Fin R) :
    row (mulf (addf a f) (broadcastTo ⟨2, ![R, K]⟩ s hb)) r
      = fun k => (row a r k + row f r k) * s (ix2 r (0 : Fin 1)) := by
  funext k
  show (a (ix2 r k) + f (ix2 r k)) * broadcastTo ⟨2, ![R, K]⟩ s hb (ix2 r k) = _
  rw [column_spread]
  rfl

/-- Row `r` of a matrix product accumulated into the zero splat, plus a one-row bias spread over the rows, is the
    dense layer `h ↦ h · w + b` of row `r` of the left operand. -/
theorem row_matmul_rowbias {R K N : ℕ} {φ₁ φ₂ : FTy} (d : DotDims ⟨2, ![R, K]⟩ ⟨2, ![K, N]⟩ ⟨2, ![R, N]⟩)
    (hd : d = DotDims.plain R K N) (prec : Option ContractPrecision)
    (a : FVec Ideal ⟨2, ![R, K]⟩ φ₁) (w : FVec Ideal ⟨2, ![K, N]⟩ φ₂) (b : FVec Ideal ⟨2, ![1, N]⟩ .f32)
    (hb : (⟨2, ![1, N]⟩ : Shape).Broadcasts ⟨2, ![R, N]⟩) (r : Fin R) :
    row (addf (matmul d prec a w (constant (F := Ideal) ⟨2, ![R, N]⟩ .f32 0x00000000#32))
          (broadcastTo ⟨2, ![R, N]⟩ b hb)) r
      = affine (row a r) (mat w) (row b (0 : Fin 1)) := by
  subst hd
  funext n
  show FloatOps.matmul (DotDims.plain R K N) prec a w (constant (F := Ideal) ⟨2, ![R, N]⟩ .f32 0x00000000#32) (ix2 r n)
      + broadcastTo ⟨2, ![R, N]⟩ b hb (ix2 r n) = _
  rw [Ideal.matmul_constant_zero_apply, plain_contr_sum, row_spread]
  rfl

end Cert.LibBlockRows

end
-- ==== Proof.Rows.lean ====
/-
  The network's dense steps, one row at a time, on the extended reals.

  Every dense step of the network acts on each node's row independently of every other node's:
    * the input projection sends a row `x` to `x · W + b`, and the first hidden state is its entrywise maximum with 0;
    * a hidden update sends the rows `(agg, h, inp)` of one node to `max (agg · Wl + bl + h · Wr) 0 + c · inp`;
    * the output step sends `(agg, h)` to `z - log (∑ exp z)`, `z = y - max y`, `y = agg · Wl + bl + h · Wr`.
  This file names those row functions and the few facts about rows that the two spellings of each step share.
-/
import proofs.«171517_j47004122087951_1_alg».proof.Proof.LibDenseRows
import proofs.«171517_j47004122087951_1_alg».proof.Proof.LibBlockRows

noncomputable section

namespace Cert.SageRows

open Idealize.ShloMosaic Idealize.ShloMosaic.ValueIdx Cert.DenseRows

/-- The word 0x00000000 read as a number: the rectifier's threshold. -/
abbrev zeroF : EReal := Ideal.ofBits .f32 0x00000000#32
/-- The word 0x3E4CCCCD read as a number: the residual's weight. -/
abbrev fifth : EReal := Ideal.ofBits .f32 0x3E4CCCCD#32
/-- The word 0xFF800000 read as a number: where a row's maximum is folded from. -/
abbrev negInf : EReal := Ideal.ofBits .f32 0xFF800000#32

/-- A row times a matrix. -/
def rowMat {K N : ℕ} (h : Fin K → EReal) (W : Fin K → Fin N → EReal) : Fin N → EReal := fun n => ∑ k : Fin K, h k * W k n

/-- The hidden update of one node: `max (agg · Wl + bl + h · Wr) z + c · inp`, `z` the rectifier's threshold and
    `c` the residual's weight. -/
def updateRow {N : ℕ} (z c : EReal) (agg h inp : Fin N → EReal) (Wl Wr : Fin N → Fin N → EReal) (bl : Fin N → EReal) :
    Fin N → EReal :=
  fun n => max (affine agg Wl bl n + rowMat h Wr n) z + c * inp n

/-- The logits of one node: `agg · Wl + bl + h · Wr`. -/
def logitsRow {K N : ℕ} (agg h : Fin K → EReal) (Wl Wr : Fin K → Fin N → EReal) (bl : Fin N → EReal) : Fin N → EReal :=
  fun n => affine agg Wl bl n + rowMat h Wr n

/-- The largest entry of a row, folded from `init`. -/
def rowMax {N : ℕ} (init : EReal) (y : Fin N → EReal) : EReal := (Finset.univ : Finset (Fin N)).fold max init y

/-- The shifted log-softmax of a row `y`, with `M` its maximum folded from `init`:
    `(y - M) - log (∑ exp (y - M))`. -/
def logSoftmaxRow {N : ℕ} (init : EReal) (y : Fin N → EReal) : Fin N → EReal :=
  fun n => (y n - rowMax init y) - Ideal.log (∑ k : Fin N, Ideal.exp (y k - rowMax init y))

/-- Folding the maximum from `init` never goes below `init`, so taking the maximum with `init` once more changes
    nothing. -/
theorem max_rowMax {N : ℕ} (init : EReal) (y : Fin N → EReal) : max init (rowMax init y) = rowMax init y :=
  max_eq_right ((Finset.le_fold_max (s := (Finset.univ : Finset (Fin N))) (f := y) (b := init) (c := init)).2 (Or.inl le_rfl))

/-- Two `[R, N]` arrays with the same rows are equal. -/
theorem ext_rows {R N : ℕ} {A B : (⟨2, ![R, N]⟩ : Shape).Idx → EReal} (h : ∀ r : Fin R, row A r = row B r) : A = B := by
  funext i
  obtain ⟨r, n, rfl⟩ : ∃ (r : Fin R) (n : Fin N), i = ix2 r n := ⟨i 0, i 1, eq_ix2 i⟩
  exact congrFun (h r) n

/-- An `[R, N]` array given by its rows. -/
def ofRows {R N : ℕ} (f : Fin R → Fin N → EReal) : (⟨2, ![R, N]⟩ : Shape).Idx → EReal := fun i => f (i 0) (i 1)

theorem row_ofRows {R N : ℕ} (f : Fin R → Fin N → EReal) (r : Fin R) : row (ofRows f) r = f r := rfl

/-- Row `r` of a matrix product accumulated into the zero splat. -/
theorem row_matmul {R K N : ℕ} {φ₁ φ₂ : FTy} (d : DotDims ⟨2, ![R, K]⟩ ⟨2, ![K, N]⟩ ⟨2, ![R, N]⟩)
    (hd : d = DotDims.plain R K N) (prec : Option ContractPrecision)
    (a : FVec Ideal ⟨2, ![R, K]⟩ φ₁) (w : FVec Ideal ⟨2, ![K, N]⟩ φ₂) (r : Fin R) :
    row (matmul d prec a w (constant (F := Ideal) ⟨2, ![R, N]⟩ .f32 0x00000000#32)) r = rowMat (row a r) (mat w) := by
  subst hd
  funext n
  show FloatOps.matmul (DotDims.plain R K N) prec a w (constant (F := Ideal) ⟨2, ![R, N]⟩ .f32 0x00000000#32) (ix2 r n) = _
  rw [Ideal.matmul_constant_zero_apply, plain_contr_sum]
  rfl

/-- Row `r` of a host `dot_general`. -/
theorem row_dotGeneral {R K N : ℕ} {φ₁ φ₂ : FTy} (d : DotDims ⟨2, ![R, K]⟩ ⟨2, ![K, N]⟩ ⟨2, ![R, N]⟩)
    (hd : d = DotDims.plain R K N) (prec : Option ContractPrecision)
    (a : FVec Ideal ⟨2, ![R, K]⟩ φ₁) (w : FVec Ideal ⟨2, ![K, N]⟩ φ₂) (r : Fin R) :
    row (Host.dotGeneral d prec a w) r = rowMat (row a r) (mat w) := by
  subst hd
  funext n
  show FloatOps.dotGeneral (DotDims.plain R K N) prec .single a w (ix2 r n) = _
  rw [Ideal.dotGeneral_apply, plain_contr_sum]
  rfl

end Cert.SageRows

end
-- ==== Proof.PayRows.lean ====
/-
  Rows of the kernel bodies' stored values, on the extended reals.

  Each kernel body computes its stored block from the blocks it loads with a matrix product per dense layer, and row
  `p` of the stored block depends on row `p` of the row operands alone: it is the network's row function of them.
-/
import proofs.«171517_j47004122087951_1_alg».proof.Proof.Gen.KernelIdeal.Skeleton
import proofs.«171517_j47004122087951_1_alg».proof.Proof.Rows

noncomputable section

namespace Cert.KernelIdeal.PayRows

open Idealize.ShloMosaic Idealize.ShloMosaic.ValueIdx Cert.DenseRows Cert.SageRows Cert.KernelIdeal Cert.KernelIdeal.Gen

/-- Row `p` of the projected block: `x · W + b`. -/
theorem pay0_1_row (x : Vec Ideal S5000x256 .f32) (w : Vec Ideal S256x128 .f32) (b : Vec Ideal S1x128 .f32) (p : Fin 5000) :
    row (k0_pay1 (F := Ideal) x w b) p = affine (row x p) (mat w) (row b (0 : Fin 1)) := by
  refine (Cert.LibBlockRows.row_matmul_rowbias dot_S5000x256_S256x128_S5000x128_1_0_0_1_n_n rfl none
    (truncf .bf16 x bitsLt_bf16_f32) (truncf .bf16 w bitsLt_bf16_f32) (shapeCast S1x128 b shapeCasts_S1x128_S1x128)
    broadcasts_S1x128_S5000x128 p).trans ?_
  exact congrArg (affine (row x p) (mat w)) (row_shapeCast_self b shapeCasts_S1x128_S1x128 (0 : Fin 1))

/-- Row `p` of the first hidden block: the projected row, floored at zero. -/
theorem pay0_2_row (x : Vec Ideal S5000x256 .f32) (w : Vec Ideal S256x128 .f32) (b : Vec Ideal S1x128 .f32) (p : Fin 5000) :
    row (k0_pay2 (F := Ideal) x w b) p = floorAt zeroF (affine (row x p) (mat w) (row b (0 : Fin 1))) := by
  refine (row_max_splat (k0_pay1 (F := Ideal) x w b) (Scalar.ofBits .f32 0x00000000#32) p).trans ?_
  exact congrArg (floorAt zeroF) (pay0_1_row x w b p)

/-- Row `p` of the first hidden update's block. -/
theorem pay1_row (agg h : Vec Ideal S5000x128 .f32) (wl wr : Vec Ideal S128x128 .f32) (b : Vec Ideal S1x128 .f32)
    (inp : Vec Ideal S5000x128 .f32) (p : Fin 5000) :
    row (k1_pay1 (F := Ideal) agg h wl wr b inp) p
      = updateRow zeroF fifth (row agg p) (row h p) (row inp p) (mat wl) (mat wr) (row b (0 : Fin 1)) := by
  have ea : row (truncf .bf16 (shapeCast S5000x128 agg shapeCasts_S5000x128_S5000x128) bitsLt_bf16_f32
      : FVec Ideal S5000x128 .bf16) p = row agg p := row_shapeCast_self agg shapeCasts_S5000x128_S5000x128 p
  have eh : row (truncf .bf16 (shapeCast S5000x128 h shapeCasts_S5000x128_S5000x128) bitsLt_bf16_f32
      : FVec Ideal S5000x128 .bf16) p = row h p := row_shapeCast_self h shapeCasts_S5000x128_S5000x128 p
  have ei : row (shapeCast S5000x128 inp shapeCasts_S5000x128_S5000x128) p = row inp p :=
    row_shapeCast_self inp shapeCasts_S5000x128_S5000x128 p
  have el : mat (truncf .bf16 (shapeCast S128x128 wl shapeCasts_S128x128_S128x128) bitsLt_bf16_f32
      : FVec Ideal S128x128 .bf16) = mat wl := mat_shapeCast_self wl shapeCasts_S128x128_S128x128
  have er : mat (truncf .bf16 (shapeCast S128x128 wr shapeCasts_S128x128_S128x128) bitsLt_bf16_f32
      : FVec Ideal S128x128 .bf16) = mat wr := mat_shapeCast_self wr shapeCasts_S128x128_S128x128
  have eb : row (shapeCast S1x128 b shapeCasts_S1x128_S1x128) (0 : Fin 1) = row b (0 : Fin 1) :=
    row_shapeCast_self b shapeCasts_S1x128_S1x128 (0 : Fin 1)
  have h16 := Cert.LibBlockRows.row_matmul_rowbias dot_S5000x128_S128x128_S5000x128_1_0_0_1_n_n rfl none
    (truncf .bf16 (shapeCast S5000x128 agg shapeCasts_S5000x128_S5000x128) bitsLt_bf16_f32)
    (truncf .bf16 (shapeCast S128x128 wl shapeCasts_S128x128_S128x128) bitsLt_bf16_f32)
    (shapeCast S1x128 b shapeCasts_S1x128_S1x128) broadcasts_S1x128_S5000x128 p
  have h17 := row_matmul dot_S5000x128_S128x128_S5000x128_1_0_0_1_n_n rfl none
    (truncf .bf16 (shapeCast S5000x128 h shapeCasts_S5000x128_S5000x128) bitsLt_bf16_f32)
    (truncf .bf16 (shapeCast S128x128 wr shapeCasts_S128x128_S128x128) bitsLt_bf16_f32) p
  rw [ea, el, eb] at h16
  rw [eh, er] at h17
  funext n
  exact congrArg₂ (· + ·)
    (congrArg (fun t => max t zeroF) (congrArg₂ (· + ·) (congrFun h16 n) (congrFun h17 n)))
    (congrArg (fun t => fifth * t) (congrFun ei n))

/-- Row `p` of the second hidden update's block. -/
theorem pay2_row (agg h : Vec Ideal S5000x128 .f32) (wl wr : Vec Ideal S128x128 .f32) (b : Vec Ideal S1x128 .f32)
    (inp : Vec Ideal S5000x128 .f32) (p : Fin 5000) :
    row (k2_pay1 (F := Ideal) agg h wl wr b inp) p
      = updateRow zeroF fifth (row agg p) (row h p) (row inp p) (mat wl) (mat wr) (row b (0 : Fin 1)) :=
  pay1_row agg h wl wr b inp p

/-- Row `p` of the third hidden update's block. -/
theorem pay3_row (agg h : Vec Ideal S5000x128 .f32) (wl wr : Vec Ideal S128x128 .f32) (b : Vec Ideal S1x128 .f32)
    (inp : Vec Ideal S5000x128 .f32) (p : Fin 5000) :
    row (k3_pay1 (F := Ideal) agg h wl wr b inp) p
      = updateRow zeroF fifth (row agg p) (row h p) (row inp p) (mat wl) (mat wr) (row b (0 : Fin 1)) :=
  pay1_row agg h wl wr b inp p

end Cert.KernelIdeal.PayRows

end
-- ==== Proof.Region0.lean ====
/-
  The two arrays the input projection's kernel leaves, on the extended reals.

  The kernel runs over 20 points; at point `t` it reads rows `5000 t .. 5000 t + 4999` of the features and the whole
  of the weight matrix and the bias, and writes back the same rows of its two results: the projected rows and the
  projected rows floored at zero. Row `p` of a block it writes depends on row `p` of the block of features alone, so
  row `r` of each array it leaves is that function of row `r` of the features.
-/
import proofs.«171517_j47004122087951_1_alg».proof.Proof.Gen.KernelIdeal.Frame
import proofs.«171517_j47004122087951_1_alg».proof.Proof.PayRows
import proofs.«171517_j47004122087951_1_alg».proof.Proof.Rows
import Idealize.ShloMosaic.Lib.Pipeline.Value
import Idealize.ShloMosaic.Lib.ValueIdx

set_option maxRecDepth 16384

noncomputable section

namespace Cert.KernelIdeal.RegionValue

open Idealize.ShloMosaic Idealize.ShloMosaic.TcCoe Idealize.ShloMosaic.ValueIdx Cert.DenseRows Cert.SageRows Cert.KernelIdeal Cert.KernelIdeal.Gen

variable (V : (c : Dev nD) → (b : Ref sig .tc) → Buf (Elt Ideal) ((c : Thread nD τ).loc b)) (c : Dev nD)

theorem hz0 : (![0, 0] : Fin 2 → Nat) = fun _ => 0 := funext fun a => by fin_cases a <;> rfl

/-- The block indices over the grid: the row windows sit at block `(t, 0)`, the weight and bias windows at `(0, 0)`. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- The projected array, by rows. -/
def G0_3 : S100000x128.Idx → EReal :=
  ofRows fun r => affine (row (V c main_arg0) r) (mat (V c main_arg2)) (row (V c main_v12) (0 : Fin 1))

/-- The first hidden array, by rows. -/
def G0_4 : S100000x128.Idx → EReal :=
  ofRows fun r => floorAt zeroF (affine (row (V c main_arg0) r) (mat (V c main_arg2)) (row (V c main_v12) (0 : Fin 1)))

/-! ## Where a block's entries sit in its array -/

theorem emb0_0 (t : Fin cfg0.N) (p : Fin 5000) (q : Fin 256) (r : Fin 100000) (hr : r.val = t.val * 5000 + p.val) :
    ((cfg0.win 0).blk t).view.emb (ix2 p q) = ix2 r q := by
  obtain ⟨e0, e1, -⟩ := idx_facts0 t
  funext a; apply Fin.ext
  match a with
  | ⟨0, _⟩ => show win0_0.index t (0 : Fin 2) * 5000 + 1 * p.val = r.val; omega
  | ⟨1, _⟩ => show win0_0.index t (1 : Fin 2) * 256 + 1 * q.val = q.val; omega

theorem emb0_1 (t : Fin cfg0.N) (k : Fin 256) (n : Fin 128) :
    ((cfg0.win 1).blk t).view.emb (ix2 k n) = ix2 k n := by
  obtain ⟨-, -, e0, e1, -⟩ := idx_facts0 t
  funext a; apply Fin.ext
  match a with
  | ⟨0, _⟩ => show win0_1.index t (0 : Fin 2) * 256 + 1 * k.val = k.val; omega
  | ⟨1, _⟩ => show win0_1.index t (1 : Fin 2) * 128 + 1 * n.val = n.val; omega

theorem emb0_2 (t : Fin cfg0.N) (k : Fin 1) (n : Fin 128) :
    ((cfg0.win 2).blk t).view.emb (ix2 k n) = ix2 k n := by
  obtain ⟨-, -, -, -, e0, e1, -⟩ := idx_facts0 t
  funext a; apply Fin.ext
  match a with
  | ⟨0, _⟩ => show win0_2.index t (0 : Fin 2) * 1 + 1 * k.val = k.val; omega
  | ⟨1, _⟩ => show win0_2.index t (1 : Fin 2) * 128 + 1 * n.val = n.val; omega

theorem emb0_3 (t : Fin cfg0.N) (p : Fin 5000) (q : Fin 128) (r : Fin 100000) (hr : r.val = t.val * 5000 + p.val) :
    ((cfg0.win 3).blk t).view.emb (ix2 p q) = ix2 r q := by
  obtain ⟨-, -, -, -, -, -, e0, e1, -⟩ := idx_facts0 t
  funext a; apply Fin.ext
  match a with
  | ⟨0, _⟩ => show win0_3.index t (0 : Fin 2) * 5000 + 1 * p.val = r.val; omega
  | ⟨1, _⟩ => show win0_3.index t (1 : Fin 2) * 128 + 1 * q.val = q.val; omega

theorem emb0_4 (t : Fin cfg0.N) (p : Fin 5000) (q : Fin 128) (r : Fin 100000) (hr : r.val = t.val * 5000 + p.val) :
    ((cfg0.win 4).blk t).view.emb (ix2 p q) = ix2 r q := by
  obtain ⟨-, -, -, -, -, -, -, -, e0, e1⟩ := idx_facts0 t
  funext a; apply Fin.ext
  match a with
  | ⟨0, _⟩ => show win0_4.index t (0 : Fin 2) * 5000 + 1 * p.val = r.val; omega
  | ⟨1, _⟩ => show win0_4.index t (1 : Fin 2) * 128 + 1 * q.val = q.val; omega

/-! ## The blocks the body reads, by rows -/

theorem blk0_0 (t : Fin cfg0.N) (p : Fin 5000) (r : Fin 100000) (hr : r.val = t.val * 5000 + p.val) :
    row (iblk0 V c 0 t) p = row (V c main_arg0) r := by
  funext k
  show V c (Pipeline.arrRef spec0 0) (((cfg0.win 0).blk t).view.emb (ix2 p k)) = V c main_arg0 (ix2 r k)
  exact congrArg (V c main_arg0) (emb0_0 t p k r hr)

theorem blk0_1 (t : Fin cfg0.N) : mat (iblk0 V c 1 t) = mat (V c main_arg2) := by
  funext k n
  show V c (Pipeline.arrRef spec0 1) (((cfg0.win 1).blk t).view.emb (ix2 k n)) = V c main_arg2 (ix2 k n)
  exact congrArg (V c main_arg2) (emb0_1 t k n)

theorem blk0_2 (t : Fin cfg0.N) : row (iblk0 V c 2 t) (0 : Fin 1) = row (V c main_v12) (0 : Fin 1) := by
  funext n
  show V c (Pipeline.arrRef spec0 2) (((cfg0.win 2).blk t).view.emb (ix2 (0 : Fin 1) n)) = V c main_v12 (ix2 (0 : Fin 1) n)
  exact congrArg (V c main_v12) (emb0_2 t 0 n)

/-! ## What a point writes back -/

/-- What point `t` writes back to the projected array is block `t` of the array of projected rows. -/
theorem flushed0_3_eq (t : Fin cfg0.N) :
    (dat0 (F := Ideal) V c).flushed 3 t = ((cfg0.win 3).blk t).view.read (Elt Ideal) (G0_3 V c) := by
  show (cfg0.win 3).cut (grid0.coords t) ((dat0 (F := Ideal) V c).after 3 t) = _
  rw [after0_3]
  unfold out0_3
  rw [View.canon_unit_zero hz0]
  simp only [View.ld_unit_zero (S := S5000x256) hz0, View.ld_unit_zero (S := S256x128) hz0, View.ld_unit_zero (S := S1x128) hz0]
  funext y
  obtain ⟨p, q, rfl⟩ : ∃ (p : Fin 5000) (q : Fin 128), y = ix2 p q := ⟨y 0, y 1, eq_ix2 y⟩
  have ht : t.val < 20 := t.isLt
  have hr : t.val * 5000 + p.val < 100000 := by have := p.isLt; omega
  refine (congrFun (PayRows.pay0_1_row (iblk0 V c 0 t) (iblk0 V c 1 t) (iblk0 V c 2 t) p) q).trans ?_
  rw [blk0_0 V c t p ⟨_, hr⟩ rfl, blk0_1, blk0_2]
  show _ = G0_3 V c (((cfg0.win 3).blk t).view.emb (ix2 p q))
  rw [emb0_3 t p q ⟨_, hr⟩ rfl]
  rfl

/-- What point `t` writes back to the first hidden array is block `t` of the array of floored projected rows. -/
theorem flushed0_4_eq (t : Fin cfg0.N) :
    (dat0 (F := Ideal) V c).flushed 4 t = ((cfg0.win 4).blk t).view.read (Elt Ideal) (G0_4 V c) := by
  show (cfg0.win 4).cut (grid0.coords t) ((dat0 (F := Ideal) V c).after 4 t) = _
  rw [after0_4]
  unfold out0_4
  rw [View.canon_unit_zero hz0]
  simp only [View.ld_unit_zero (S := S5000x256) hz0, View.ld_unit_zero (S := S256x128) hz0, View.ld_unit_zero (S := S1x128) hz0]
  funext y
  obtain ⟨p, q, rfl⟩ : ∃ (p : Fin 5000) (q : Fin 128), y = ix2 p q := ⟨y 0, y 1, eq_ix2 y⟩
  have ht : t.val < 20 := t.isLt
  have hr : t.val * 5000 + p.val < 100000 := by have := p.isLt; omega
  refine (congrFun (PayRows.pay0_2_row (iblk0 V c 0 t) (iblk0 V c 1 t) (iblk0 V c 2 t) p) q).trans ?_
  rw [blk0_0 V c t p ⟨_, hr⟩ rfl, blk0_1, blk0_2]
  show _ = G0_4 V c (((cfg0.win 4).blk t).view.emb (ix2 p q))
  rw [emb0_4 t p q ⟨_, hr⟩ rfl]
  rfl

/-! ## The cover -/

theorem mem_blk0_3 (t : Fin cfg0.N) (i : S100000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v13_0).slice (win0_3.rect t)).set ↔ _
  rw [View.set_slice_whole, Rect.mem_set_unit]
  exact Iff.rfl

theorem mem_blk0_4 (t : Fin cfg0.N) (i : S100000x128.Idx) :
    i ∈ ((cfg0.win 4).blk t).view.set ↔ ∀ a : Fin 2, win0_4.index t a * S5000x128.size a ≤ (i a).val ∧ (i a).val < win0_4.index t a * S5000x128.size a + S5000x128.size a := by
  show i ∈ ((View.whole main_v13_1).slice (win0_4.rect t)).set ↔ _
  rw [View.set_slice_whole, Rect.mem_set_unit]
  exact Iff.rfl

theorem covers0_3 (i : S100000x128.Idx) : ∃ t : Fin cfg0.N, (cfg0.win 3).flush t = true ∧ i ∈ ((cfg0.win 3).blk t).view.set := by
  have hi0 : (i 0).val < 100000 := (i 0).isLt
  have hi1 : (i 1).val < 128 := (i 1).isLt
  have hlt : (i 0).val / 5000 < 20 := by omega
  refine ⟨⟨(i 0).val / 5000, hlt⟩, flush0_3 _, ?_⟩
  rw [mem_blk0_3]
  obtain ⟨-, -, -, -, -, -, e0, e1, -⟩ := idx_facts0 ⟨(i 0).val / 5000, hlt⟩
  intro a
  match a with
  | ⟨0, _⟩ => show win0_3.index ⟨(i 0).val / 5000, hlt⟩ (0 : Fin 2) * 5000 ≤ (i 0).val ∧ (i 0).val < win0_3.index ⟨(i 0).val / 5000, hlt⟩ (0 : Fin 2) * 5000 + 5000; rw [e0]; show (i 0).val / 5000 * 5000 ≤ (i 0).val ∧ (i 0).val < (i 0).val / 5000 * 5000 + 5000; omega
  | ⟨1, _⟩ => show win0_3.index ⟨(i 0).val / 5000, hlt⟩ (1 : Fin 2) * 128 ≤ (i 1).val ∧ (i 1).val < win0_3.index ⟨(i 0).val / 5000, hlt⟩ (1 : Fin 2) * 128 + 128; rw [e1]; omega

theorem covers0_4 (i : S100000x128.Idx) : ∃ t : Fin cfg0.N, (cfg0.win 4).flush t = true ∧ i ∈ ((cfg0.win 4).blk t).view.set := by
  have hi0 : (i 0).val < 100000 := (i 0).isLt
  have hi1 : (i 1).val < 128 := (i 1).isLt
  have hlt : (i 0).val / 5000 < 20 := by omega
  refine ⟨⟨(i 0).val / 5000, hlt⟩, flush0_4 _, ?_⟩
  rw [mem_blk0_4]
  obtain ⟨-, -, -, -, -, -, -, -, e0, e1⟩ := idx_facts0 ⟨(i 0).val / 5000, hlt⟩
  intro a
  match a with
  | ⟨0, _⟩ => show win0_4.index ⟨(i 0).val / 5000, hlt⟩ (0 : Fin 2) * 5000 ≤ (i 0).val ∧ (i 0).val < win0_4.index ⟨(i 0).val / 5000, hlt⟩ (0 : Fin 2) * 5000 + 5000; rw [e0]; show (i 0).val / 5000 * 5000 ≤ (i 0).val ∧ (i 0).val < (i 0).val / 5000 * 5000 + 5000; omega
  | ⟨1, _⟩ => show win0_4.index ⟨(i 0).val / 5000, hlt⟩ (1 : Fin 2) * 128 ≤ (i 1).val ∧ (i 1).val < win0_4.index ⟨(i 0).val / 5000, hlt⟩ (1 : Fin 2) * 128 + 128; rw [e1]; omega

/-- The projected array the input kernel leaves: row `r` is the projection of row `r` of the features. -/
theorem value0_3 : (dat0 (F := Ideal) V c).arrAt 3 cfg0.N = ofRows fun r => affine (row (V c main_arg0) r) (mat (V c main_arg2)) (row (V c main_v12) (0 : Fin 1)) :=
  (dat0 (F := Ideal) V c).arrAt_eq_of_cover 3 (G0_3 V c) (fun t _ => flushed0_3_eq V c t) covers0_3

/-- The first hidden array the input kernel leaves: row `r` is the projection of row `r` of the features, floored at zero. -/
theorem value0_4 : (dat0 (F := Ideal) V c).arrAt 4 cfg0.N = ofRows fun r => floorAt zeroF (affine (row (V c main_arg0) r) (mat (V c main_arg2)) (row (V c main_v12) (0 : Fin 1))) :=
  (dat0 (F := Ideal) V c).arrAt_eq_of_cover 4 (G0_4 V c) (fun t _ => flushed0_4_eq V c t) covers0_4

end Cert.KernelIdeal.RegionValue

end
-- ==== Proof.Region1.lean ====
/-
  The array the first hidden update's kernel leaves, on the extended reals.

  The kernel runs over 20 points; at point `t` it reads rows `5000 t .. 5000 t + 4999` of its three row operands and
  the whole of its two weight matrices and its bias, and writes back the same rows of its result. Row `p` of the block
  it writes is the hidden update of rows `p` of the blocks it reads, so row `r` of the array it leaves is the hidden
  update of rows `r` of the arrays it reads.
-/
import proofs.«171517_j47004122087951_1_alg».proof.Proof.Gen.KernelIdeal.Frame
import proofs.«171517_j47004122087951_1_alg».proof.Proof.PayRows
import proofs.«171517_j47004122087951_1_alg».proof.Proof.Rows
import Idealize.ShloMosaic.Lib.Pipeline.Value
import Idealize.ShloMosaic.Lib.ValueIdx

set_option maxRecDepth 16384

noncomputable section

namespace Cert.KernelIdeal.RegionValue

open Idealize.ShloMosaic Idealize.ShloMosaic.TcCoe Idealize.ShloMosaic.ValueIdx Cert.DenseRows Cert.SageRows Cert.KernelIdeal Cert.KernelIdeal.Gen

variable (V : (c : Dev nD) → (b : Ref sig .tc) → Buf (Elt Ideal) ((c : Thread nD τ).loc b)) (c : Dev nD)

theorem hz1 : (![0, 0] : Fin 2 → Nat) = fun _ => 0 := funext fun a => by fin_cases a <;> rfl

/-- The block indices over the grid: the row windows sit at block `(t, 0)`, the weight and bias windows at `(0, 0)`. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- The array the kernel leaves, by rows. -/
def G1 : S100000x128.Idx → EReal :=
  ofRows fun r => updateRow zeroF fifth (row (V c main_v26) r) (row (V c main_v13_1) r) (row (V c main_v13_0) r)
    (mat (V c main_v28)) (mat (V c main_v32)) (row (V c main_v33) (0 : Fin 1))

/-! ## Where a block's entries sit in its array -/

theorem emb1_0 (t : Fin cfg1.N) (p : Fin 5000) (q : Fin 128) (r : Fin 100000) (hr : r.val = t.val * 5000 + p.val) :
    ((cfg1.win 0).blk t).view.emb (ix2 p q) = ix2 r q := by
  obtain ⟨e0, e1, -⟩ := idx_facts1 t
  funext a; apply Fin.ext
  match a with
  | ⟨0, _⟩ => show win1_0.index t (0 : Fin 2) * 5000 + 1 * p.val = r.val; omega
  | ⟨1, _⟩ => show win1_0.index t (1 : Fin 2) * 128 + 1 * q.val = q.val; omega

theorem emb1_1 (t : Fin cfg1.N) (p : Fin 5000) (q : Fin 128) (r : Fin 100000) (hr : r.val = t.val * 5000 + p.val) :
    ((cfg1.win 1).blk t).view.emb (ix2 p q) = ix2 r q := by
  obtain ⟨-, -, e0, e1, -⟩ := idx_facts1 t
  funext a; apply Fin.ext
  match a with
  | ⟨0, _⟩ => show win1_1.index t (0 : Fin 2) * 5000 + 1 * p.val = r.val; omega
  | ⟨1, _⟩ => show win1_1.index t (1 : Fin 2) * 128 + 1 * q.val = q.val; omega

theorem emb1_2 (t : Fin cfg1.N) (p : Fin 5000) (q : Fin 128) (r : Fin 100000) (hr : r.val = t.val * 5000 + p.val) :
    ((cfg1.win 2).blk t).view.emb (ix2 p q) = ix2 r q := by
  obtain ⟨-, -, -, -, e0, e1, -⟩ := idx_facts1 t
  funext a; apply Fin.ext
  match a with
  | ⟨0, _⟩ => show win1_2.index t (0 : Fin 2) * 5000 + 1 * p.val = r.val; omega
  | ⟨1, _⟩ => show win1_2.index t (1 : Fin 2) * 128 + 1 * q.val = q.val; omega

theorem emb1_3 (t : Fin cfg1.N) (k : Fin 128) (n : Fin 128) :
    ((cfg1.win 3).blk t).view.emb (ix2 k n) = ix2 k n := by
  obtain ⟨-, -, -, -, -, -, e0, e1, -⟩ := idx_facts1 t
  funext a; apply Fin.ext
  match a with
  | ⟨0, _⟩ => show win1_3.index t (0 : Fin 2) * 128 + 1 * k.val = k.val; omega
  | ⟨1, _⟩ => show win1_3.index t (1 : Fin 2) * 128 + 1 * n.val = n.val; omega

theorem emb1_4 (t : Fin cfg1.N) (k : Fin 1) (n : Fin 128) :
    ((cfg1.win 4).blk t).view.emb (ix2 k n) = ix2 k n := by
  obtain ⟨-, -, -, -, -, -, -, -, e0, e1, -⟩ := idx_facts1 t
  funext a; apply Fin.ext
  match a with
  | ⟨0, _⟩ => show win1_4.index t (0 : Fin 2) * 1 + 1 * k.val = k.val; omega
  | ⟨1, _⟩ => show win1_4.index t (1 : Fin 2) * 128 + 1 * n.val = n.val; omega

theorem emb1_5 (t : Fin cfg1.N) (k : Fin 128) (n : Fin 128) :
    ((cfg1.win 5).blk t).view.emb (ix2 k n) = ix2 k n := by
  obtain ⟨-, -, -, -, -, -, -, -, -, -, e0, e1, -⟩ := idx_facts1 t
  funext a; apply Fin.ext
  match a with
  | ⟨0, _⟩ => show win1_5.index t (0 : Fin 2) * 128 + 1 * k.val = k.val; omega
  | ⟨1, _⟩ => show win1_5.index t (1 : Fin 2) * 128 + 1 * n.val = n.val; omega

theorem emb1_6 (t : Fin cfg1.N) (p : Fin 5000) (q : Fin 128) (r : Fin 100000) (hr : r.val = t.val * 5000 + p.val) :
    ((cfg1.win 6).blk t).view.emb (ix2 p q) = ix2 r q := by
  obtain ⟨-, -, -, -, -, -, -, -, -, -, -, -, e0, e1⟩ := idx_facts1 t
  funext a; apply Fin.ext
  match a with
  | ⟨0, _⟩ => show win1_6.index t (0 : Fin 2) * 5000 + 1 * p.val = r.val; omega
  | ⟨1, _⟩ => show win1_6.index t (1 : Fin 2) * 128 + 1 * q.val = q.val; omega

/-! ## The blocks the body reads, by rows -/

theorem blk1_0 (t : Fin cfg1.N) (p : Fin 5000) (r : Fin 100000) (hr : r.val = t.val * 5000 + p.val) :
    row (iblk1 V c 0 t) p = row (V c main_v26) r := by
  funext k
  show V c (Pipeline.arrRef spec1 0) (((cfg1.win 0).blk t).view.emb (ix2 p k)) = V c main_v26 (ix2 r k)
  exact congrArg (V c main_v26) (emb1_0 t p k r hr)

theorem blk1_1 (t : Fin cfg1.N) (p : Fin 5000) (r : Fin 100000) (hr : r.val = t.val * 5000 + p.val) :
    row (iblk1 V c 1 t) p = row (V c main_v13_1) r := by
  funext k
  show V c (Pipeline.arrRef spec1 1) (((cfg1.win 1).blk t).view.emb (ix2 p k)) = V c main_v13_1 (ix2 r k)
  exact congrArg (V c main_v13_1) (emb1_1 t p k r hr)

theorem blk1_2 (t : Fin cfg1.N) (p : Fin 5000) (r : Fin 100000) (hr : r.val = t.val * 5000 + p.val) :
    row (iblk1 V c 2 t) p = row (V c main_v13_0) r := by
  funext k
  show V c (Pipeline.arrRef spec1 2) (((cfg1.win 2).blk t).view.emb (ix2 p k)) = V c main_v13_0 (ix2 r k)
  exact congrArg (V c main_v13_0) (emb1_2 t p k r hr)

theorem blk1_3 (t : Fin cfg1.N) : mat (iblk1 V c 3 t) = mat (V c main_v28) := by
  funext k n
  show V c (Pipeline.arrRef spec1 3) (((cfg1.win 3).blk t).view.emb (ix2 k n)) = V c main_v28 (ix2 k n)
  exact congrArg (V c main_v28) (emb1_3 t k n)

theorem blk1_4 (t : Fin cfg1.N) : row (iblk1 V c 4 t) (0 : Fin 1) = row (V c main_v33) (0 : Fin 1) := by
  funext n
  show V c (Pipeline.arrRef spec1 4) (((cfg1.win 4).blk t).view.emb (ix2 (0 : Fin 1) n)) = V c main_v33 (ix2 (0 : Fin 1) n)
  exact congrArg (V c main_v33) (emb1_4 t 0 n)

theorem blk1_5 (t : Fin cfg1.N) : mat (iblk1 V c 5 t) = mat (V c main_v32) := by
  funext k n
  show V c (Pipeline.arrRef spec1 5) (((cfg1.win 5).blk t).view.emb (ix2 k n)) = V c main_v32 (ix2 k n)
  exact congrArg (V c main_v32) (emb1_5 t k n)

/-! ## What a point writes back -/

/-- What point `t` writes back is block `t` of the array of updated rows. -/
theorem flushed1_eq (t : Fin cfg1.N) :
    (dat1 (F := Ideal) V c).flushed 6 t = ((cfg1.win 6).blk t).view.read (Elt Ideal) (G1 V c) := by
  show (cfg1.win 6).cut (grid1.coords t) ((dat1 (F := Ideal) V c).after 6 t) = _
  rw [after1_6]
  unfold out1_6
  rw [View.canon_unit_zero hz1]
  simp only [View.ld_unit_zero (S := S5000x128) hz1, View.ld_unit_zero (S := S128x128) hz1, View.ld_unit_zero (S := S1x128) hz1]
  funext y
  obtain ⟨p, q, rfl⟩ : ∃ (p : Fin 5000) (q : Fin 128), y = ix2 p q := ⟨y 0, y 1, eq_ix2 y⟩
  have ht : t.val < 20 := t.isLt
  have hr : t.val * 5000 + p.val < 100000 := by have := p.isLt; omega
  refine (congrFun (PayRows.pay1_row (iblk1 V c 0 t) (iblk1 V c 1 t) (iblk1 V c 3 t) (iblk1 V c 5 t) (iblk1 V c 4 t) (iblk1 V c 2 t) p) q).trans ?_
  rw [blk1_0 V c t p ⟨_, hr⟩ rfl, blk1_1 V c t p ⟨_, hr⟩ rfl, blk1_2 V c t p ⟨_, hr⟩ rfl, blk1_3, blk1_4, blk1_5]
  show _ = G1 V c (((cfg1.win 6).blk t).view.emb (ix2 p q))
  rw [emb1_6 t p q ⟨_, hr⟩ rfl]
  rfl

/-! ## The cover -/

theorem mem_blk1 (t : Fin cfg1.N) (i : S100000x128.Idx) :
    i ∈ ((cfg1.win 6).blk t).view.set ↔ ∀ a : Fin 2, win1_6.index t a * S5000x128.size a ≤ (i a).val ∧ (i a).val < win1_6.index t a * S5000x128.size a + S5000x128.size a := by
  show i ∈ ((View.whole main_v34).slice (win1_6.rect t)).set ↔ _
  rw [View.set_slice_whole, Rect.mem_set_unit]
  exact Iff.rfl

theorem cover1 (i : S100000x128.Idx) : ∃ t : Fin cfg1.N, (cfg1.win 6).flush t = true ∧ i ∈ ((cfg1.win 6).blk t).view.set := by
  have hi0 : (i 0).val < 100000 := (i 0).isLt
  have hi1 : (i 1).val < 128 := (i 1).isLt
  have hlt : (i 0).val / 5000 < 20 := by omega
  refine ⟨⟨(i 0).val / 5000, hlt⟩, flush1_6 _, ?_⟩
  rw [mem_blk1]
  obtain ⟨-, -, -, -, -, -, -, -, -, -, -, -, e0, e1⟩ := idx_facts1 ⟨(i 0).val / 5000, hlt⟩
  intro a
  match a with
  | ⟨0, _⟩ => show win1_6.index ⟨(i 0).val / 5000, hlt⟩ (0 : Fin 2) * 5000 ≤ (i 0).val ∧ (i 0).val < win1_6.index ⟨(i 0).val / 5000, hlt⟩ (0 : Fin 2) * 5000 + 5000; rw [e0]; show (i 0).val / 5000 * 5000 ≤ (i 0).val ∧ (i 0).val < (i 0).val / 5000 * 5000 + 5000; omega
  | ⟨1, _⟩ => show win1_6.index ⟨(i 0).val / 5000, hlt⟩ (1 : Fin 2) * 128 ≤ (i 1).val ∧ (i 1).val < win1_6.index ⟨(i 0).val / 5000, hlt⟩ (1 : Fin 2) * 128 + 128; rw [e1]; omega

/-- The array the first hidden update's kernel leaves: row `r` is the update of the rows `r` it reads. -/
theorem value1 : (dat1 (F := Ideal) V c).arrAt 6 cfg1.N = ofRows fun r => updateRow zeroF fifth (row (V c main_v26) r) (row (V c main_v13_1) r) (row (V c main_v13_0) r) (mat (V c main_v28)) (mat (V c main_v32)) (row (V c main_v33) (0 : Fin 1)) :=
  (dat1 (F := Ideal) V c).arrAt_eq_of_cover 6 (G1 V c) (fun t _ => flushed1_eq V c t) cover1

end Cert.KernelIdeal.RegionValue

end
-- ==== Proof.SpecRows.lean ====
/-
  Rows of the network's dense steps as the reference program spells them, on the extended reals.

  Each dense step of the network, written as host operations over all the nodes at once, acts on every node's row
  by the same row function: row `r` of the step's result is that function of row `r` of the step's row operands.
-/
import proofs.«171517_j47004122087951_1_alg».proof.Proof.Spec
import proofs.«171517_j47004122087951_1_alg».proof.Proof.Rows
import proofs.«171517_j47004122087951_1_alg».proof.Proof.Gen.ReferenceIdeal

noncomputable section

namespace Cert.SpecRows

open Idealize.ShloMosaic Idealize.ShloMosaic.ValueIdx
open Cert.Spec Cert.ReferenceIdeal Cert.ReferenceIdeal.Facts₀ Cert.DenseRows Cert.SageRows

/-- Row `r` of the input projection: `x · W + b`. -/
theorem row_inp (x : Arr Ideal S100000x256 .f32) (W : Arr Ideal S256x128 .f32) (b : Arr Ideal S128 .f32) (r : Fin 100000) :
    row (inp (F := Ideal) x W b) r = affine (row x r) (mat W) (vec b) :=
  row_dotGeneral_bias dot_S100000x256_S256x128_S100000x128_1_0_0_1_n_n rfl none x W b
    bcast_S128_S1x128_1 bcast_S1x128_S100000x128_0_1 r

/-- Row `r` of an array floored at zero. -/
theorem row_relu (v : Arr Ideal S100000x128 .f32) (r : Fin 100000) :
    row (relu (F := Ideal) v) r = floorAt zeroF (row v r) :=
  row_max_splatInDim v ![] bcast_S_S100000x128 0x00000000#32 r

/-- Row `r` of a sum of two arrays is the sum of their rows. -/
theorem row_addf {R N : ℕ} (P Q : FVec Ideal ⟨2, ![R, N]⟩ .f32) (r : Fin R) :
    row (addf P Q) r = fun n => row P r n + row Q r n := rfl

/-- Row `r` of a rectified array plus the residual's weight times another array. -/
theorem row_relu_add_scaled (X i : Arr Ideal S100000x128 .f32) (r : Fin 100000) :
    row (addf (relu (F := Ideal) X)
          (mulf (broadcastInDim S100000x128 ![] bcast_S_S100000x128 (constant (F := Ideal) S_ .f32 0x3E4CCCCD#32)) i)) r
      = fun n => max (row X r n) zeroF + fifth * row i r n := by
  funext n
  show row (relu (F := Ideal) X) r n
      + broadcastInDim S100000x128 ![] bcast_S_S100000x128 (constant (F := Ideal) S_ .f32 0x3E4CCCCD#32) (ix2 r n) * i (ix2 r n) = _
  rw [row_relu, splat_apply]
  rfl

/-- Row `r` of the hidden update. -/
theorem row_upd (a h i : Arr Ideal S100000x128 .f32) (Wl : Arr Ideal S128x128 .f32) (bl : Arr Ideal S128 .f32)
    (Wr : Arr Ideal S128x128 .f32) (r : Fin 100000) :
    row (upd (F := Ideal) a h i Wl bl Wr) r
      = updateRow zeroF fifth (row a r) (row h r) (row i r) (mat Wl) (mat Wr) (vec bl) := by
  have h1 := row_dotGeneral_bias (φ₁ := .f32) (φ₂ := .f32) dot_S100000x128_S128x128_S100000x128_1_0_0_1_n_n rfl none a Wl bl
    bcast_S128_S1x128_1 bcast_S1x128_S100000x128_0_1 r
  have h2 := row_dotGeneral (φ₁ := .f32) (φ₂ := .f32) dot_S100000x128_S128x128_S100000x128_1_0_0_1_n_n rfl none h Wr r
  refine (row_relu_add_scaled _ i r).trans ?_
  funext n
  exact congrArg (fun t => max t zeroF + fifth * row i r n) (congrArg₂ (· + ·) (congrFun h1 n) (congrFun h2 n))

/-- Row `r` of the logits. -/
theorem row_logits (a h : Arr Ideal S100000x128 .f32) (Wl : Arr Ideal S128x47 .f32) (bl : Arr Ideal S47 .f32)
    (Wr : Arr Ideal S128x47 .f32) (r : Fin 100000) :
    row (logits (F := Ideal) a h Wl bl Wr) r = logitsRow (row a r) (row h r) (mat Wl) (mat Wr) (vec bl) := by
  have h1 := row_dotGeneral_bias (φ₁ := .f32) (φ₂ := .f32) dot_S100000x128_S128x47_S100000x47_1_0_0_1_n_n rfl none a Wl bl
    bcast_S47_S1x47_1 bcast_S1x47_S100000x47_0_1 r
  have h2 := row_dotGeneral (φ₁ := .f32) (φ₂ := .f32) dot_S100000x128_S128x47_S100000x47_1_0_0_1_n_n rfl none h Wr r
  funext n
  exact congrArg₂ (· + ·) (congrFun h1 n) (congrFun h2 n)

/-- An `[N]` array cast to one row `[1, N]`: the row is the array. -/
theorem vec_of_cast {N : ℕ} (b : (⟨1, ![N]⟩ : Shape).Idx → EReal) (hc : (⟨1, ![N]⟩ : Shape).ShapeCasts ⟨2, ![1, N]⟩) :
    row (shapeCast ⟨2, ![1, N]⟩ b hc) (0 : Fin 1) = vec b :=
  funext fun n => shapeCast_a_1a_apply b hc (0 : Fin 1) n

end Cert.SpecRows

end
-- ==== Proof.Chain1.lean ====
/-
  The kernel program's buffers through the input projection and the first hidden update.

  Along the chain of valuations of the kernel program's run, each buffer a later step reads is named as a value of the
  network function: the edge rows, the reciprocal in-degree and the reshaped bias after the first host stretch; the
  projected input and its rectified copy after the first region (a block of rows computes the rows of the whole, and
  the two spellings of the dense layer agree row by row); the mean aggregation and the layer's weights after the second
  host stretch; the first hidden state after the second region.
-/
import proofs.«171517_j47004122087951_1_alg».proof.Proof.Gen.KernelIdeal.Frame
import proofs.«171517_j47004122087951_1_alg».proof.Proof.Gen.ReferenceIdeal
import proofs.«171517_j47004122087951_1_alg».proof.Proof.Spec
import proofs.«171517_j47004122087951_1_alg».proof.Proof.Rows
import proofs.«171517_j47004122087951_1_alg».proof.Proof.Region0
import proofs.«171517_j47004122087951_1_alg».proof.Proof.Region1
import proofs.«171517_j47004122087951_1_alg».proof.Proof.SpecRows
import Idealize.ShloMosaic.Lib.StableHlo.Run

set_option maxRecDepth 16384

noncomputable section

namespace Cert.KernelIdeal.KChain

open Cert.KernelIdeal Cert.KernelIdeal.Gen
open Idealize.ShloMosaic Idealize.ShloMosaic.TcCoe Idealize.SL.Sem Idealize.ShloMosaic.StableHlo
open Cert.DenseRows Cert.SageRows

variable (m : (ℓ : Loc nD τ sig) → Buf (Elt Ideal) ℓ) (ρ : Dev nD → PrngReg) (c : Dev nD)

set_option quotPrecheck false

local notation "A0" => m ((c.tc : Thread nD τ).loc main_arg0)
local notation "A1" => m ((c.tc : Thread nD τ).loc main_arg1)
local notation "A2" => m ((c.tc : Thread nD τ).loc main_arg2)
local notation "A3" => m ((c.tc : Thread nD τ).loc main_arg3)
local notation "A4" => m ((c.tc : Thread nD τ).loc main_arg4)
local notation "A5" => m ((c.tc : Thread nD τ).loc main_arg5)
local notation "A6" => m ((c.tc : Thread nD τ).loc main_arg6)

/-! ## After the first host stretch -/

theorem W1_v1 : W1 m ρ c (Proc.devRef .tc main_v1) = Cert.Spec.src (F := Ideal) A1 := by
  show StableHlo.after hostOps0 (W0 m ρ c) (Proc.devRef .tc main_v1) = _
  after_results; rfl

theorem W1_v3 : W1 m ρ c (Proc.devRef .tc main_v3) = Cert.Spec.dst (F := Ideal) A1 := by
  show StableHlo.after hostOps0 (W0 m ρ c) (Proc.devRef .tc main_v3) = _
  after_results; rfl

theorem W1_v11 : W1 m ρ c (Proc.devRef .tc main_v11) = Cert.Spec.degInv (F := Ideal) A1 := by
  show StableHlo.after hostOps0 (W0 m ρ c) (Proc.devRef .tc main_v11) = _
  after_results; rfl

/-- The bias as the one-row matrix the first kernel loads. -/
theorem W1_v12 : W1 m ρ c (Proc.devRef .tc main_v12)
    = shapeCast (⟨2, ![1, 128]⟩ : Shape) (A3 : (⟨1, ![128]⟩ : Shape).Idx → EReal) shapeCasts_S128_S1x128 := by
  show StableHlo.after hostOps0 (W0 m ρ c) (Proc.devRef .tc main_v12) = _
  after_results; rfl

theorem W1_arg0 : W1 m ρ c (Proc.devRef .tc main_arg0) = A0 := by
  show StableHlo.after hostOps0 (W0 m ρ c) (Proc.devRef .tc main_arg0) = _
  after_results

theorem W1_arg2 : W1 m ρ c (Proc.devRef .tc main_arg2) = A2 := by
  show StableHlo.after hostOps0 (W0 m ρ c) (Proc.devRef .tc main_arg2) = _
  after_results

/-! ## After the first region -/

theorem W2_v13_0 : W2 m ρ c (Proc.devRef .tc main_v13_0) = Cert.Spec.inp (F := Ideal) A0 A2 A3 := by
  refine (W2_arr m ρ c 3).trans ?_
  refine (RegionValue.value0_3 (V1 m ρ) c).trans ?_
  refine ext_rows fun r => ?_
  rw [row_ofRows, Cert.SpecRows.row_inp]
  show affine (row (W1 m ρ c (Proc.devRef .tc main_arg0)) r) (mat (W1 m ρ c (Proc.devRef .tc main_arg2)))
      (row (W1 m ρ c (Proc.devRef .tc main_v12)) (0 : Fin 1)) = _
  rw [W1_arg0, W1_arg2, W1_v12, Cert.SpecRows.vec_of_cast]

theorem W2_v13_1 : W2 m ρ c (Proc.devRef .tc main_v13_1) = Cert.Spec.h0 (F := Ideal) A0 A2 A3 := by
  refine (W2_arr m ρ c 4).trans ?_
  refine (RegionValue.value0_4 (V1 m ρ) c).trans ?_
  refine ext_rows fun r => ?_
  unfold Cert.Spec.h0
  rw [row_ofRows, Cert.SpecRows.row_relu, Cert.SpecRows.row_inp]
  show floorAt zeroF (affine (row (W1 m ρ c (Proc.devRef .tc main_arg0)) r) (mat (W1 m ρ c (Proc.devRef .tc main_arg2)))
      (row (W1 m ρ c (Proc.devRef .tc main_v12)) (0 : Fin 1))) = _
  rw [W1_arg0, W1_arg2, W1_v12, Cert.SpecRows.vec_of_cast]

/-- A buffer the first stretch does not write keeps its launch contents. -/
theorem W1_arg4 : W1 m ρ c (Proc.devRef .tc main_arg4) = A4 := by
  show StableHlo.after hostOps0 (W0 m ρ c) (Proc.devRef .tc main_arg4) = _
  after_results
theorem W1_arg5 : W1 m ρ c (Proc.devRef .tc main_arg5) = A5 := by
  show StableHlo.after hostOps0 (W0 m ρ c) (Proc.devRef .tc main_arg5) = _
  after_results
theorem W1_arg6 : W1 m ρ c (Proc.devRef .tc main_arg6) = A6 := by
  show StableHlo.after hostOps0 (W0 m ρ c) (Proc.devRef .tc main_arg6) = _
  after_results

/-- What the first region does not write it leaves as it found it. -/
theorem W2_v1 : W2 m ρ c (Proc.devRef .tc main_v1) = Cert.Spec.src (F := Ideal) A1 :=
  (W2_of_ne m ρ c main_v1 (by decide)).trans (W1_v1 m ρ c)
theorem W2_v3 : W2 m ρ c (Proc.devRef .tc main_v3) = Cert.Spec.dst (F := Ideal) A1 :=
  (W2_of_ne m ρ c main_v3 (by decide)).trans (W1_v3 m ρ c)
theorem W2_v11 : W2 m ρ c (Proc.devRef .tc main_v11) = Cert.Spec.degInv (F := Ideal) A1 :=
  (W2_of_ne m ρ c main_v11 (by decide)).trans (W1_v11 m ρ c)
theorem W2_arg4 : W2 m ρ c (Proc.devRef .tc main_arg4) = A4 :=
  (W2_of_ne m ρ c main_arg4 (by decide)).trans (W1_arg4 m ρ c)
theorem W2_arg5 : W2 m ρ c (Proc.devRef .tc main_arg5) = A5 :=
  (W2_of_ne m ρ c main_arg5 (by decide)).trans (W1_arg5 m ρ c)
theorem W2_arg6 : W2 m ρ c (Proc.devRef .tc main_arg6) = A6 :=
  (W2_of_ne m ρ c main_arg6 (by decide)).trans (W1_arg6 m ρ c)

/-! ## After the second host stretch -/

set_option maxHeartbeats 4000000 in
/-- The mean aggregation of the rectified projection. -/
theorem W3_v26 : W3 m ρ c (Proc.devRef .tc main_v26)
    = Cert.Spec.agg (F := Ideal) (Cert.Spec.h0 (F := Ideal) A0 A2 A3) A1 := by
  show StableHlo.after hostOps1 (W2 m ρ c) (Proc.devRef .tc main_v26) = _
  after_results_simp
  rw [W2_v13_1, W2_v1, W2_v3, W2_v11]
  rfl

set_option maxHeartbeats 4000000 in
theorem W3_v28 : W3 m ρ c (Proc.devRef .tc main_v28) = Cert.Spec.wl0 (F := Ideal) A4 := by
  show StableHlo.after hostOps1 (W2 m ρ c) (Proc.devRef .tc main_v28) = _
  after_results_simp
  rw [W2_arg4]
  rfl

set_option maxHeartbeats 4000000 in
theorem W3_v32 : W3 m ρ c (Proc.devRef .tc main_v32) = Cert.Spec.wl0 (F := Ideal) A6 := by
  show StableHlo.after hostOps1 (W2 m ρ c) (Proc.devRef .tc main_v32) = _
  after_results_simp
  rw [W2_arg6]
  rfl

set_option maxHeartbeats 4000000 in
/-- The layer's bias as the one-row matrix the kernel loads. -/
theorem W3_v33 : W3 m ρ c (Proc.devRef .tc main_v33)
    = shapeCast (⟨2, ![1, 128]⟩ : Shape) (Cert.Spec.bl0 (F := Ideal) A5 : (⟨1, ![128]⟩ : Shape).Idx → EReal) shapeCasts_S128_S1x128 := by
  show StableHlo.after hostOps1 (W2 m ρ c) (Proc.devRef .tc main_v33) = _
  after_results_simp
  rw [W2_arg5]
  rfl

set_option maxHeartbeats 4000000 in
theorem W3_v13_0 : W3 m ρ c (Proc.devRef .tc main_v13_0) = Cert.Spec.inp (F := Ideal) A0 A2 A3 := by
  show StableHlo.after hostOps1 (W2 m ρ c) (Proc.devRef .tc main_v13_0) = _
  after_results_simp
  exact W2_v13_0 m ρ c

set_option maxHeartbeats 4000000 in
theorem W3_v13_1 : W3 m ρ c (Proc.devRef .tc main_v13_1) = Cert.Spec.h0 (F := Ideal) A0 A2 A3 := by
  show StableHlo.after hostOps1 (W2 m ρ c) (Proc.devRef .tc main_v13_1) = _
  after_results_simp
  exact W2_v13_1 m ρ c

/-! ## After the second region -/

/-- The first hidden state. -/
theorem W4_v34 : W4 m ρ c (Proc.devRef .tc main_v34) = Cert.Spec.h1 (F := Ideal) A0 A1 A2 A3 A4 A5 A6 := by
  refine (W4_arr m ρ c 6).trans ?_
  refine (RegionValue.value1 (V3 m ρ) c).trans ?_
  refine ext_rows fun r => ?_
  unfold Cert.Spec.h1
  rw [row_ofRows, Cert.SpecRows.row_upd]
  show updateRow zeroF fifth (row (W3 m ρ c (Proc.devRef .tc main_v26)) r) (row (W3 m ρ c (Proc.devRef .tc main_v13_1)) r)
      (row (W3 m ρ c (Proc.devRef .tc main_v13_0)) r) (mat (W3 m ρ c (Proc.devRef .tc main_v28)))
      (mat (W3 m ρ c (Proc.devRef .tc main_v32))) (row (W3 m ρ c (Proc.devRef .tc main_v33)) (0 : Fin 1)) = _
  rw [W3_v26, W3_v13_1, W3_v13_0, W3_v28, W3_v32, W3_v33, Cert.SpecRows.vec_of_cast]

end Cert.KernelIdeal.KChain

end
-- ==== Proof.Kept.lean ====
/-
  Buffers that later steps of the kernel program leave alone.

  A host stretch changes only the buffers its operations write, and a region only its windows' arrays. So a buffer none
  of them names holds, at every later valuation of the chain, what it held when it was last written: an argument its
  launch contents throughout, the edge rows and the reciprocal in-degree what the first stretch computed, the projected
  input what the first region wrote.
-/
import proofs.«171517_j47004122087951_1_alg».proof.Proof.Gen.KernelIdeal.Frame
import Idealize.ShloMosaic.Lib.StableHlo.Run
import Idealize.ShloMosaic.PureOps.Ideal

set_option maxRecDepth 16384

noncomputable section

namespace Cert.KernelIdeal.KChain

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- No operation of a literal stretch writes the given buffer: each operation's one result buffer is another. -/
macro "not_written" : tactic =>
  `(tactic| (refine List.forall_iff_forall_mem.mp ?_
             simp only [hostOps0, hostOps1, hostOps2, hostOps3, hostOps4, List.Forall, StableHlo.nullary_writes,
               StableHlo.unary_writes, StableHlo.binary_writes, StableHlo.ternary_writes, StableHlo.quaternary_writes,
               StableHlo.reshape_writes, StableHlo.binaryIndexed_writes, Finset.mem_singleton]
             repeat' apply And.intro
             all_goals exact StableHlo.devRef_ne_of_ne (by decide)))

/-- What each host stretch and each region does to a buffer it does not name: nothing. -/
theorem keepH0 (r : Ref sig .tc) (h : ∀ op ∈ (hostOps0 : List (HloOp τ sig (Elt Ideal))), Proc.devRef .tc r ∉ op.writes) :
    W1 m ρ c (Proc.devRef .tc r) = m ((c.tc : Thread nD τ).loc r) :=
  StableHlo.after_of_forall_not_mem (b := Proc.devRef .tc r) _ _ h
theorem keepH1 (r : Ref sig .tc) (h : ∀ op ∈ (hostOps1 : List (HloOp τ sig (Elt Ideal))), Proc.devRef .tc r ∉ op.writes) :
    W3 m ρ c (Proc.devRef .tc r) = W2 m ρ c (Proc.devRef .tc r) :=
  StableHlo.after_of_forall_not_mem (b := Proc.devRef .tc r) _ _ h
theorem keepH2 (r : Ref sig .tc) (h : ∀ op ∈ (hostOps2 : List (HloOp τ sig (Elt Ideal))), Proc.devRef .tc r ∉ op.writes) :
    W5 m ρ c (Proc.devRef .tc r) = W4 m ρ c (Proc.devRef .tc r) :=
  StableHlo.after_of_forall_not_mem (b := Proc.devRef .tc r) _ _ h
theorem keepH3 (r : Ref sig .tc) (h : ∀ op ∈ (hostOps3 : List (HloOp τ sig (Elt Ideal))), Proc.devRef .tc r ∉ op.writes) :
    W7 m ρ c (Proc.devRef .tc r) = W6 m ρ c (Proc.devRef .tc r) :=
  StableHlo.after_of_forall_not_mem (b := Proc.devRef .tc r) _ _ h
theorem keepH4 (r : Ref sig .tc) (h : ∀ op ∈ (hostOps4 : List (HloOp τ sig (Elt Ideal))), Proc.devRef .tc r ∉ op.writes) :
    W9 m ρ c (Proc.devRef .tc r) = W8 m ρ c (Proc.devRef .tc r) :=
  StableHlo.after_of_forall_not_mem (b := Proc.devRef .tc r) _ _ h

/-- Buffer `r` holds, at each valuation from the first region's exit to the last region's entry, what the first
    host stretch left in it. -/
abbrev KeptFrom1 (r : Ref sig .tc) : Prop :=
    W2 m ρ c (Proc.devRef .tc r) = W1 m ρ c (Proc.devRef .tc r)
    ∧ W3 m ρ c (Proc.devRef .tc r) = W1 m ρ c (Proc.devRef .tc r)
    ∧ W4 m ρ c (Proc.devRef .tc r) = W1 m ρ c (Proc.devRef .tc r)
    ∧ W5 m ρ c (Proc.devRef .tc r) = W1 m ρ c (Proc.devRef .tc r)
    ∧ W6 m ρ c (Proc.devRef .tc r) = W1 m ρ c (Proc.devRef .tc r)
    ∧ W7 m ρ c (Proc.devRef .tc r) = W1 m ρ c (Proc.devRef .tc r)
    ∧ W8 m ρ c (Proc.devRef .tc r) = W1 m ρ c (Proc.devRef .tc r)
    ∧ W9 m ρ c (Proc.devRef .tc r) = W1 m ρ c (Proc.devRef .tc r)

/-- A buffer that nothing after the first host stretch names — no later stretch writes it and it is no region's
    window — holds at every later valuation what the first stretch left in it. -/
theorem kept_from1 (r : Ref sig .tc) (g0 : ∀ w, Pipeline.arrRef spec0 w ≠ r)
    (h1 : ∀ op ∈ (hostOps1 : List (HloOp τ sig (Elt Ideal))), Proc.devRef .tc r ∉ op.writes) (g1 : ∀ w, Pipeline.arrRef spec1 w ≠ r)
    (h2 : ∀ op ∈ (hostOps2 : List (HloOp τ sig (Elt Ideal))), Proc.devRef .tc r ∉ op.writes) (g2 : ∀ w, Pipeline.arrRef spec2 w ≠ r)
    (h3 : ∀ op ∈ (hostOps3 : List (HloOp τ sig (Elt Ideal))), Proc.devRef .tc r ∉ op.writes) (g3 : ∀ w, Pipeline.arrRef spec3 w ≠ r)
    (h4 : ∀ op ∈ (hostOps4 : List (HloOp τ sig (Elt Ideal))), Proc.devRef .tc r ∉ op.writes) :
    KeptFrom1 m ρ c r := by
  have e2 := W2_of_ne m ρ c r g0
  have e3 := (keepH1 m ρ c r h1).trans e2
  have e4 := (W4_of_ne m ρ c r g1).trans e3
  have e5 := (keepH2 m ρ c r h2).trans e4
  have e6 := (W6_of_ne m ρ c r g2).trans e5
  have e7 := (keepH3 m ρ c r h3).trans e6
  have e8 := (W8_of_ne m ρ c r g3).trans e7
  have e9 := (keepH4 m ρ c r h4).trans e8
  exact ⟨e2, e3, e4, e5, e6, e7, e8, e9⟩

/-- The projected input, which the three hidden updates read through a window and nothing writes after the first
    region: a region leaves an input window's array as it found it. -/
theorem kept_inp :
    W3 m ρ c (Proc.devRef .tc main_v13_0) = W2 m ρ c (Proc.devRef .tc main_v13_0)
    ∧ W5 m ρ c (Proc.devRef .tc main_v13_0) = W2 m ρ c (Proc.devRef .tc main_v13_0)
    ∧ W7 m ρ c (Proc.devRef .tc main_v13_0) = W2 m ρ c (Proc.devRef .tc main_v13_0) := by
  have e3 := keepH1 m ρ c main_v13_0 (by not_written)
  have e4 : W4 m ρ c (Proc.devRef .tc main_v13_0) = W2 m ρ c (Proc.devRef .tc main_v13_0) :=
    ((W4_arr m ρ c 2).trans (((dat1 (V3 m ρ) c).arrAt_in 2 rfl _).trans (A_eq1 (V3 m ρ) c 2))).trans e3
  have e5 := (keepH2 m ρ c main_v13_0 (by not_written)).trans e4
  have e6 : W6 m ρ c (Proc.devRef .tc main_v13_0) = W2 m ρ c (Proc.devRef .tc main_v13_0) :=
    ((W6_arr m ρ c 2).trans (((dat2 (V5 m ρ) c).arrAt_in 2 rfl _).trans (A_eq2 (V5 m ρ) c 2))).trans e5
  have e7 := (keepH3 m ρ c main_v13_0 (by not_written)).trans e6
  exact ⟨e3, e5, e7⟩

end Cert.KernelIdeal.KChain

end
-- ==== Proof.Region2.lean ====
/-
  The array the second hidden update's kernel leaves, on the extended reals.

  The kernel runs over 20 points; at point `t` it reads rows `5000 t .. 5000 t + 4999` of its three row operands and
  the whole of its two weight matrices and its bias, and writes back the same rows of its result. Row `p` of the block
  it writes is the hidden update of rows `p` of the blocks it reads, so row `r` of the array it leaves is the hidden
  update of rows `r` of the arrays it reads.
-/
import proofs.«171517_j47004122087951_1_alg».proof.Proof.Gen.KernelIdeal.Frame
import proofs.«171517_j47004122087951_1_alg».proof.Proof.PayRows
import proofs.«171517_j47004122087951_1_alg».proof.Proof.Rows
import Idealize.ShloMosaic.Lib.Pipeline.Value
import Idealize.ShloMosaic.Lib.ValueIdx

set_option maxRecDepth 16384

noncomputable section

namespace Cert.KernelIdeal.RegionValue

open Idealize.ShloMosaic Idealize.ShloMosaic.TcCoe Idealize.ShloMosaic.ValueIdx Cert.DenseRows Cert.SageRows Cert.KernelIdeal Cert.KernelIdeal.Gen

variable (V : (c : Dev nD) → (b : Ref sig .tc) → Buf (Elt Ideal) ((c : Thread nD τ).loc b)) (c : Dev nD)

theorem hz2 : (![0, 0] : Fin 2 → Nat) = fun _ => 0 := funext fun a => by fin_cases a <;> rfl

/-- The block indices over the grid: the row windows sit at block `(t, 0)`, the weight and bias windows at `(0, 0)`. -/
theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

/-- The array the kernel leaves, by rows. -/
def G2 : S100000x128.Idx → EReal :=
  ofRows fun r => updateRow zeroF fifth (row (V c main_v47) r) (row (V c main_v34) r) (row (V c main_v13_0) r)
    (mat (V c main_v49)) (mat (V c main_v53)) (row (V c main_v54) (0 : Fin 1))

/-! ## Where a block's entries sit in its array -/

theorem emb2_0 (t : Fin cfg2.N) (p : Fin 5000) (q : Fin 128) (r : Fin 100000) (hr : r.val = t.val * 5000 + p.val) :
    ((cfg2.win 0).blk t).view.emb (ix2 p q) = ix2 r q := by
  obtain ⟨e0, e1, -⟩ := idx_facts2 t
  funext a; apply Fin.ext
  match a with
  | ⟨0, _⟩ => show win2_0.index t (0 : Fin 2) * 5000 + 1 * p.val = r.val; omega
  | ⟨1, _⟩ => show win2_0.index t (1 : Fin 2) * 128 + 1 * q.val = q.val; omega

theorem emb2_1 (t : Fin cfg2.N) (p : Fin 5000) (q : Fin 128) (r : Fin 100000) (hr : r.val = t.val * 5000 + p.val) :
    ((cfg2.win 1).blk t).view.emb (ix2 p q) = ix2 r q := by
  obtain ⟨-, -, e0, e1, -⟩ := idx_facts2 t
  funext a; apply Fin.ext
  match a with
  | ⟨0, _⟩ => show win2_1.index t (0 : Fin 2) * 5000 + 1 * p.val = r.val; omega
  | ⟨1, _⟩ => show win2_1.index t (1 : Fin 2) * 128 + 1 * q.val = q.val; omega

theorem emb2_2 (t : Fin cfg2.N) (p : Fin 5000) (q : Fin 128) (r : Fin 100000) (hr : r.val = t.val * 5000 + p.val) :
    ((cfg2.win 2).blk t).view.emb (ix2 p q) = ix2 r q := by
  obtain ⟨-, -, -, -, e0, e1, -⟩ := idx_facts2 t
  funext a; apply Fin.ext
  match a with
  | ⟨0, _⟩ => show win2_2.index t (0 : Fin 2) * 5000 + 1 * p.val = r.val; omega
  | ⟨1, _⟩ => show win2_2.index t (1 : Fin 2) * 128 + 1 * q.val = q.val; omega

theorem emb2_3 (t : Fin cfg2.N) (k : Fin 128) (n : Fin 128) :
    ((cfg2.win 3).blk t).view.emb (ix2 k n) = ix2 k n := by
  obtain ⟨-, -, -, -, -, -, e0, e1, -⟩ := idx_facts2 t
  funext a; apply Fin.ext
  match a with
  | ⟨0, _⟩ => show win2_3.index t (0 : Fin 2) * 128 + 1 * k.val = k.val; omega
  | ⟨1, _⟩ => show win2_3.index t (1 : Fin 2) * 128 + 1 * n.val = n.val; omega

theorem emb2_4 (t : Fin cfg2.N) (k : Fin 1) (n : Fin 128) :
    ((cfg2.win 4).blk t).view.emb (ix2 k n) = ix2 k n := by
  obtain ⟨-, -, -, -, -, -, -, -, e0, e1, -⟩ := idx_facts2 t
  funext a; apply Fin.ext
  match a with
  | ⟨0, _⟩ => show win2_4.index t (0 : Fin 2) * 1 + 1 * k.val = k.val; omega
  | ⟨1, _⟩ => show win2_4.index t (1 : Fin 2) * 128 + 1 * n.val = n.val; omega

theorem emb2_5 (t : Fin cfg2.N) (k : Fin 128) (n : Fin 128) :
    ((cfg2.win 5).blk t).view.emb (ix2 k n) = ix2 k n := by
  obtain ⟨-, -, -, -, -, -, -, -, -, -, e0, e1, -⟩ := idx_facts2 t
  funext a; apply Fin.ext
  match a with
  | ⟨0, _⟩ => show win2_5.index t (0 : Fin 2) * 128 + 1 * k.val = k.val; omega
  | ⟨1, _⟩ => show win2_5.index t (1 : Fin 2) * 128 + 1 * n.val = n.val; omega

theorem emb2_6 (t : Fin cfg2.N) (p : Fin 5000) (q : Fin 128) (r : Fin 100000) (hr : r.val = t.val * 5000 + p.val) :
    ((cfg2.win 6).blk t).view.emb (ix2 p q) = ix2 r q := by
  obtain ⟨-, -, -, -, -, -, -, -, -, -, -, -, e0, e1⟩ := idx_facts2 t
  funext a; apply Fin.ext
  match a with
  | ⟨0, _⟩ => show win2_6.index t (0 : Fin 2) * 5000 + 1 * p.val = r.val; omega
  | ⟨1, _⟩ => show win2_6.index t (1 : Fin 2) * 128 + 1 * q.val = q.val; omega

/-! ## The blocks the body reads, by rows -/

theorem blk2_0 (t : Fin cfg2.N) (p : Fin 5000) (r : Fin 100000) (hr : r.val = t.val * 5000 + p.val) :
    row (iblk2 V c 0 t) p = row (V c main_v47) r := by
  funext k
  show V c (Pipeline.arrRef spec2 0) (((cfg2.win 0).blk t).view.emb (ix2 p k)) = V c main_v47 (ix2 r k)
  exact congrArg (V c main_v47) (emb2_0 t p k r hr)

theorem blk2_1 (t : Fin cfg2.N) (p : Fin 5000) (r : Fin 100000) (hr : r.val = t.val * 5000 + p.val) :
    row (iblk2 V c 1 t) p = row (V c main_v34) r := by
  funext k
  show V c (Pipeline.arrRef spec2 1) (((cfg2.win 1).blk t).view.emb (ix2 p k)) = V c main_v34 (ix2 r k)
  exact congrArg (V c main_v34) (emb2_1 t p k r hr)

theorem blk2_2 (t : Fin cfg2.N) (p : Fin 5000) (r : Fin 100000) (hr : r.val = t.val * 5000 + p.val) :
    row (iblk2 V c 2 t) p = row (V c main_v13_0) r := by
  funext k
  show V c (Pipeline.arrRef spec2 2) (((cfg2.win 2).blk t).view.emb (ix2 p k)) = V c main_v13_0 (ix2 r k)
  exact congrArg (V c main_v13_0) (emb2_2 t p k r hr)

theorem blk2_3 (t : Fin cfg2.N) : mat (iblk2 V c 3 t) = mat (V c main_v49) := by
  funext k n
  show V c (Pipeline.arrRef spec2 3) (((cfg2.win 3).blk t).view.emb (ix2 k n)) = V c main_v49 (ix2 k n)
  exact congrArg (V c main_v49) (emb2_3 t k n)

theorem blk2_4 (t : Fin cfg2.N) : row (iblk2 V c 4 t) (0 : Fin 1) = row (V c main_v54) (0 : Fin 1) := by
  funext n
  show V c (Pipeline.arrRef spec2 4) (((cfg2.win 4).blk t).view.emb (ix2 (0 : Fin 1) n)) = V c main_v54 (ix2 (0 : Fin 1) n)
  exact congrArg (V c main_v54) (emb2_4 t 0 n)

theorem blk2_5 (t : Fin cfg2.N) : mat (iblk2 V c 5 t) = mat (V c main_v53) := by
  funext k n
  show V c (Pipeline.arrRef spec2 5) (((cfg2.win 5).blk t).view.emb (ix2 k n)) = V c main_v53 (ix2 k n)
  exact congrArg (V c main_v53) (emb2_5 t k n)

/-! ## What a point writes back -/

/-- What point `t` writes back is block `t` of the array of updated rows. -/
theorem flushed2_eq (t : Fin cfg2.N) :
    (dat2 (F := Ideal) V c).flushed 6 t = ((cfg2.win 6).blk t).view.read (Elt Ideal) (G2 V c) := by
  show (cfg2.win 6).cut (grid2.coords t) ((dat2 (F := Ideal) V c).after 6 t) = _
  rw [after2_6]
  unfold out2_6
  rw [View.canon_unit_zero hz2]
  simp only [View.ld_unit_zero (S := S5000x128) hz2, View.ld_unit_zero (S := S128x128) hz2, View.ld_unit_zero (S := S1x128) hz2]
  funext y
  obtain ⟨p, q, rfl⟩ : ∃ (p : Fin 5000) (q : Fin 128), y = ix2 p q := ⟨y 0, y 1, eq_ix2 y⟩
  have ht : t.val < 20 := t.isLt
  have hr : t.val * 5000 + p.val < 100000 := by have := p.isLt; omega
  refine (congrFun (PayRows.pay2_row (iblk2 V c 0 t) (iblk2 V c 1 t) (iblk2 V c 3 t) (iblk2 V c 5 t) (iblk2 V c 4 t) (iblk2 V c 2 t) p) q).trans ?_
  rw [blk2_0 V c t p ⟨_, hr⟩ rfl, blk2_1 V c t p ⟨_, hr⟩ rfl, blk2_2 V c t p ⟨_, hr⟩ rfl, blk2_3, blk2_4, blk2_5]
  show _ = G2 V c (((cfg2.win 6).blk t).view.emb (ix2 p q))
  rw [emb2_6 t p q ⟨_, hr⟩ rfl]
  rfl

/-! ## The cover -/

theorem mem_blk2 (t : Fin cfg2.N) (i : S100000x128.Idx) :
    i ∈ ((cfg2.win 6).blk t).view.set ↔ ∀ a : Fin 2, win2_6.index t a * S5000x128.size a ≤ (i a).val ∧ (i a).val < win2_6.index t a * S5000x128.size a + S5000x128.size a := by
  show i ∈ ((View.whole main_v55).slice (win2_6.rect t)).set ↔ _
  rw [View.set_slice_whole, Rect.mem_set_unit]
  exact Iff.rfl

theorem cover2 (i : S100000x128.Idx) : ∃ t : Fin cfg2.N, (cfg2.win 6).flush t = true ∧ i ∈ ((cfg2.win 6).blk t).view.set := by
  have hi0 : (i 0).val < 100000 := (i 0).isLt
  have hi1 : (i 1).val < 128 := (i 1).isLt
  have hlt : (i 0).val / 5000 < 20 := by omega
  refine ⟨⟨(i 0).val / 5000, hlt⟩, flush2_6 _, ?_⟩
  rw [mem_blk2]
  obtain ⟨-, -, -, -, -, -, -, -, -, -, -, -, e0, e1⟩ := idx_facts2 ⟨(i 0).val / 5000, hlt⟩
  intro a
  match a with
  | ⟨0, _⟩ => show win2_6.index ⟨(i 0).val / 5000, hlt⟩ (0 : Fin 2) * 5000 ≤ (i 0).val ∧ (i 0).val < win2_6.index ⟨(i 0).val / 5000, hlt⟩ (0 : Fin 2) * 5000 + 5000; rw [e0]; show (i 0).val / 5000 * 5000 ≤ (i 0).val ∧ (i 0).val < (i 0).val / 5000 * 5000 + 5000; omega
  | ⟨1, _⟩ => show win2_6.index ⟨(i 0).val / 5000, hlt⟩ (1 : Fin 2) * 128 ≤ (i 1).val ∧ (i 1).val < win2_6.index ⟨(i 0).val / 5000, hlt⟩ (1 : Fin 2) * 128 + 128; rw [e1]; omega

/-- The array the second hidden update's kernel leaves: row `r` is the update of the rows `r` it reads. -/
theorem value2 : (dat2 (F := Ideal) V c).arrAt 6 cfg2.N = ofRows fun r => updateRow zeroF fifth (row (V c main_v47) r) (row (V c main_v34) r) (row (V c main_v13_0) r) (mat (V c main_v49)) (mat (V c main_v53)) (row (V c main_v54) (0 : Fin 1)) :=
  (dat2 (F := Ideal) V c).arrAt_eq_of_cover 6 (G2 V c) (fun t _ => flushed2_eq V c t) cover2

end Cert.KernelIdeal.RegionValue

end
-- ==== Proof.Region3.lean ====
/-
  The array the third hidden update's kernel leaves, on the extended reals.

  The kernel runs over 20 points; at point `t` it reads rows `5000 t .. 5000 t + 4999` of its three row operands and
  the whole of its two weight matrices and its bias, and writes back the same rows of its result. Row `p` of the block
  it writes is the hidden update of rows `p` of the blocks it reads, so row `r` of the array it leaves is the hidden
  update of rows `r` of the arrays it reads.
-/
import proofs.«171517_j47004122087951_1_alg».proof.Proof.Gen.KernelIdeal.Frame
import proofs.«171517_j47004122087951_1_alg».proof.Proof.PayRows
import proofs.«171517_j47004122087951_1_alg».proof.Proof.Rows
import Idealize.ShloMosaic.Lib.Pipeline.Value
import Idealize.ShloMosaic.Lib.ValueIdx

set_option maxRecDepth 16384

noncomputable section

namespace Cert.KernelIdeal.RegionValue

open Idealize.ShloMosaic Idealize.ShloMosaic.TcCoe Idealize.ShloMosaic.ValueIdx Cert.DenseRows Cert.SageRows Cert.KernelIdeal Cert.KernelIdeal.Gen

variable (V : (c : Dev nD) → (b : Ref sig .tc) → Buf (Elt Ideal) ((c : Thread nD τ).loc b)) (c : Dev nD)

theorem hz3 : (![0, 0] : Fin 2 → Nat) = fun _ => 0 := funext fun a => by fin_cases a <;> rfl

/-- The block indices over the grid: the row windows sit at block `(t, 0)`, the weight and bias windows at `(0, 0)`. -/
theorem idx_facts3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = t.val ∧ win3_6.index t (1 : Fin 2) = 0 :=
  (by decide +kernel : ∀ t : Fin grid3.N, _)

/-- The array the kernel leaves, by rows. -/
def G3 : S100000x128.Idx → EReal :=
  ofRows fun r => updateRow zeroF fifth (row (V c main_v68) r) (row (V c main_v55) r) (row (V c main_v13_0) r)
    (mat (V c main_v70)) (mat (V c main_v74)) (row (V c main_v75) (0 : Fin 1))

/-! ## Where a block's entries sit in its array -/

theorem emb3_0 (t : Fin cfg3.N) (p : Fin 5000) (q : Fin 128) (r : Fin 100000) (hr : r.val = t.val * 5000 + p.val) :
    ((cfg3.win 0).blk t).view.emb (ix2 p q) = ix2 r q := by
  obtain ⟨e0, e1, -⟩ := idx_facts3 t
  funext a; apply Fin.ext
  match a with
  | ⟨0, _⟩ => show win3_0.index t (0 : Fin 2) * 5000 + 1 * p.val = r.val; omega
  | ⟨1, _⟩ => show win3_0.index t (1 : Fin 2) * 128 + 1 * q.val = q.val; omega

theorem emb3_1 (t : Fin cfg3.N) (p : Fin 5000) (q : Fin 128) (r : Fin 100000) (hr : r.val = t.val * 5000 + p.val) :
    ((cfg3.win 1).blk t).view.emb (ix2 p q) = ix2 r q := by
  obtain ⟨-, -, e0, e1, -⟩ := idx_facts3 t
  funext a; apply Fin.ext
  match a with
  | ⟨0, _⟩ => show win3_1.index t (0 : Fin 2) * 5000 + 1 * p.val = r.val; omega
  | ⟨1, _⟩ => show win3_1.index t (1 : Fin 2) * 128 + 1 * q.val = q.val; omega

theorem emb3_2 (t : Fin cfg3.N) (p : Fin 5000) (q : Fin 128) (r : Fin 100000) (hr : r.val = t.val * 5000 + p.val) :
    ((cfg3.win 2).blk t).view.emb (ix2 p q) = ix2 r q := by
  obtain ⟨-, -, -, -, e0, e1, -⟩ := idx_facts3 t
  funext a; apply Fin.ext
  match a with
  | ⟨0, _⟩ => show win3_2.index t (0 : Fin 2) * 5000 + 1 * p.val = r.val; omega
  | ⟨1, _⟩ => show win3_2.index t (1 : Fin 2) * 128 + 1 * q.val = q.val; omega

theorem emb3_3 (t : Fin cfg3.N) (k : Fin 128) (n : Fin 128) :
    ((cfg3.win 3).blk t).view.emb (ix2 k n) = ix2 k n := by
  obtain ⟨-, -, -, -, -, -, e0, e1, -⟩ := idx_facts3 t
  funext a; apply Fin.ext
  match a with
  | ⟨0, _⟩ => show win3_3.index t (0 : Fin 2) * 128 + 1 * k.val = k.val; omega
  | ⟨1, _⟩ => show win3_3.index t (1 : Fin 2) * 128 + 1 * n.val = n.val; omega

theorem emb3_4 (t : Fin cfg3.N) (k : Fin 1) (n : Fin 128) :
    ((cfg3.win 4).blk t).view.emb (ix2 k n) = ix2 k n := by
  obtain ⟨-, -, -, -, -, -, -, -, e0, e1, -⟩ := idx_facts3 t
  funext a; apply Fin.ext
  match a with
  | ⟨0, _⟩ => show win3_4.index t (0 : Fin 2) * 1 + 1 * k.val = k.val; omega
  | ⟨1, _⟩ => show win3_4.index t (1 : Fin 2) * 128 + 1 * n.val = n.val; omega

theorem emb3_5 (t : Fin cfg3.N) (k : Fin 128) (n : Fin 128) :
    ((cfg3.win 5).blk t).view.emb (ix2 k n) = ix2 k n := by
  obtain ⟨-, -, -, -, -, -, -, -, -, -, e0, e1, -⟩ := idx_facts3 t
  funext a; apply Fin.ext
  match a with
  | ⟨0, _⟩ => show win3_5.index t (0 : Fin 2) * 128 + 1 * k.val = k.val; omega
  | ⟨1, _⟩ => show win3_5.index t (1 : Fin 2) * 128 + 1 * n.val = n.val; omega

theorem emb3_6 (t : Fin cfg3.N) (p : Fin 5000) (q : Fin 128) (r : Fin 100000) (hr : r.val = t.val * 5000 + p.val) :
    ((cfg3.win 6).blk t).view.emb (ix2 p q) = ix2 r q := by
  obtain ⟨-, -, -, -, -, -, -, -, -, -, -, -, e0, e1⟩ := idx_facts3 t
  funext a; apply Fin.ext
  match a with
  | ⟨0, _⟩ => show win3_6.index t (0 : Fin 2) * 5000 + 1 * p.val = r.val; omega
  | ⟨1, _⟩ => show win3_6.index t (1 : Fin 2) * 128 + 1 * q.val = q.val; omega

/-! ## The blocks the body reads, by rows -/

theorem blk3_0 (t : Fin cfg3.N) (p : Fin 5000) (r : Fin 100000) (hr : r.val = t.val * 5000 + p.val) :
    row (iblk3 V c 0 t) p = row (V c main_v68) r := by
  funext k
  show V c (Pipeline.arrRef spec3 0) (((cfg3.win 0).blk t).view.emb (ix2 p k)) = V c main_v68 (ix2 r k)
  exact congrArg (V c main_v68) (emb3_0 t p k r hr)

theorem blk3_1 (t : Fin cfg3.N) (p : Fin 5000) (r : Fin 100000) (hr : r.val = t.val * 5000 + p.val) :
    row (iblk3 V c 1 t) p = row (V c main_v55) r := by
  funext k
  show V c (Pipeline.arrRef spec3 1) (((cfg3.win 1).blk t).view.emb (ix2 p k)) = V c main_v55 (ix2 r k)
  exact congrArg (V c main_v55) (emb3_1 t p k r hr)

theorem blk3_2 (t : Fin cfg3.N) (p : Fin 5000) (r : Fin 100000) (hr : r.val = t.val * 5000 + p.val) :
    row (iblk3 V c 2 t) p = row (V c main_v13_0) r := by
  funext k
  show V c (Pipeline.arrRef spec3 2) (((cfg3.win 2).blk t).view.emb (ix2 p k)) = V c main_v13_0 (ix2 r k)
  exact congrArg (V c main_v13_0) (emb3_2 t p k r hr)

theorem blk3_3 (t : Fin cfg3.N) : mat (iblk3 V c 3 t) = mat (V c main_v70) := by
  funext k n
  show V c (Pipeline.arrRef spec3 3) (((cfg3.win 3).blk t).view.emb (ix2 k n)) = V c main_v70 (ix2 k n)
  exact congrArg (V c main_v70) (emb3_3 t k n)

theorem blk3_4 (t : Fin cfg3.N) : row (iblk3 V c 4 t) (0 : Fin 1) = row (V c main_v75) (0 : Fin 1) := by
  funext n
  show V c (Pipeline.arrRef spec3 4) (((cfg3.win 4).blk t).view.emb (ix2 (0 : Fin 1) n)) = V c main_v75 (ix2 (0 : Fin 1) n)
  exact congrArg (V c main_v75) (emb3_4 t 0 n)

theorem blk3_5 (t : Fin cfg3.N) : mat (iblk3 V c 5 t) = mat (V c main_v74) := by
  funext k n
  show V c (Pipeline.arrRef spec3 5) (((cfg3.win 5).blk t).view.emb (ix2 k n)) = V c main_v74 (ix2 k n)
  exact congrArg (V c main_v74) (emb3_5 t k n)

/-! ## What a point writes back -/

/-- What point `t` writes back is block `t` of the array of updated rows. -/
theorem flushed3_eq (t : Fin cfg3.N) :
    (dat3 (F := Ideal) V c).flushed 6 t = ((cfg3.win 6).blk t).view.read (Elt Ideal) (G3 V c) := by
  show (cfg3.win 6).cut (grid3.coords t) ((dat3 (F := Ideal) V c).after 6 t) = _
  rw [after3_6]
  unfold out3_6
  rw [View.canon_unit_zero hz3]
  simp only [View.ld_unit_zero (S := S5000x128) hz3, View.ld_unit_zero (S := S128x128) hz3, View.ld_unit_zero (S := S1x128) hz3]
  funext y
  obtain ⟨p, q, rfl⟩ : ∃ (p : Fin 5000) (q : Fin 128), y = ix2 p q := ⟨y 0, y 1, eq_ix2 y⟩
  have ht : t.val < 20 := t.isLt
  have hr : t.val * 5000 + p.val < 100000 := by have := p.isLt; omega
  refine (congrFun (PayRows.pay3_row (iblk3 V c 0 t) (iblk3 V c 1 t) (iblk3 V c 3 t) (iblk3 V c 5 t) (iblk3 V c 4 t) (iblk3 V c 2 t) p) q).trans ?_
  rw [blk3_0 V c t p ⟨_, hr⟩ rfl, blk3_1 V c t p ⟨_, hr⟩ rfl, blk3_2 V c t p ⟨_, hr⟩ rfl, blk3_3, blk3_4, blk3_5]
  show _ = G3 V c (((cfg3.win 6).blk t).view.emb (ix2 p q))
  rw [emb3_6 t p q ⟨_, hr⟩ rfl]
  rfl

/-! ## The cover -/

theorem mem_blk3 (t : Fin cfg3.N) (i : S100000x128.Idx) :
    i ∈ ((cfg3.win 6).blk t).view.set ↔ ∀ a : Fin 2, win3_6.index t a * S5000x128.size a ≤ (i a).val ∧ (i a).val < win3_6.index t a * S5000x128.size a + S5000x128.size a := by
  show i ∈ ((View.whole main_v76).slice (win3_6.rect t)).set ↔ _
  rw [View.set_slice_whole, Rect.mem_set_unit]
  exact Iff.rfl

theorem cover3 (i : S100000x128.Idx) : ∃ t : Fin cfg3.N, (cfg3.win 6).flush t = true ∧ i ∈ ((cfg3.win 6).blk t).view.set := by
  have hi0 : (i 0).val < 100000 := (i 0).isLt
  have hi1 : (i 1).val < 128 := (i 1).isLt
  have hlt : (i 0).val / 5000 < 20 := by omega
  refine ⟨⟨(i 0).val / 5000, hlt⟩, flush3_6 _, ?_⟩
  rw [mem_blk3]
  obtain ⟨-, -, -, -, -, -, -, -, -, -, -, -, e0, e1⟩ := idx_facts3 ⟨(i 0).val / 5000, hlt⟩
  intro a
  match a with
  | ⟨0, _⟩ => show win3_6.index ⟨(i 0).val / 5000, hlt⟩ (0 : Fin 2) * 5000 ≤ (i 0).val ∧ (i 0).val < win3_6.index ⟨(i 0).val / 5000, hlt⟩ (0 : Fin 2) * 5000 + 5000; rw [e0]; show (i 0).val / 5000 * 5000 ≤ (i 0).val ∧ (i 0).val < (i 0).val / 5000 * 5000 + 5000; omega
  | ⟨1, _⟩ => show win3_6.index ⟨(i 0).val / 5000, hlt⟩ (1 : Fin 2) * 128 ≤ (i 1).val ∧ (i 1).val < win3_6.index ⟨(i 0).val / 5000, hlt⟩ (1 : Fin 2) * 128 + 128; rw [e1]; omega

/-- The array the third hidden update's kernel leaves: row `r` is the update of the rows `r` it reads. -/
theorem value3 : (dat3 (F := Ideal) V c).arrAt 6 cfg3.N = ofRows fun r => updateRow zeroF fifth (row (V c main_v68) r) (row (V c main_v55) r) (row (V c main_v13_0) r) (mat (V c main_v70)) (mat (V c main_v74)) (row (V c main_v75) (0 : Fin 1)) :=
  (dat3 (F := Ideal) V c).arrAt_eq_of_cover 6 (G3 V c) (fun t _ => flushed3_eq V c t) cover3

end Cert.KernelIdeal.RegionValue

end
-- ==== Proof.Chain2.lean ====
/-
  The kernel program's buffers through the second and third hidden updates.

  The same reading as for the first update, twice more: the edge rows, the reciprocal in-degree and the stacked weight
  arrays are carried along unchanged; each host stretch forms the mean aggregation of the previous hidden state and
  slices the layer's weights; each region computes the next hidden state, a block of rows at a time.
-/
import proofs.«171517_j47004122087951_1_alg».proof.Proof.Chain1
import proofs.«171517_j47004122087951_1_alg».proof.Proof.Kept
import proofs.«171517_j47004122087951_1_alg».proof.Proof.Region2
import proofs.«171517_j47004122087951_1_alg».proof.Proof.Region3
import Idealize.ShloMosaic.Lib.StableHlo.Run

set_option maxRecDepth 16384

noncomputable section

namespace Cert.KernelIdeal.KChain

open Cert.KernelIdeal Cert.KernelIdeal.Gen
open Idealize.ShloMosaic Idealize.ShloMosaic.TcCoe Idealize.SL.Sem Idealize.ShloMosaic.StableHlo
open Cert.DenseRows Cert.SageRows

variable (m : (ℓ : Loc nD τ sig) → Buf (Elt Ideal) ℓ) (ρ : Dev nD → PrngReg) (c : Dev nD)

set_option quotPrecheck false

local notation "A0" => m ((c.tc : Thread nD τ).loc main_arg0)
local notation "A1" => m ((c.tc : Thread nD τ).loc main_arg1)
local notation "A2" => m ((c.tc : Thread nD τ).loc main_arg2)
local notation "A3" => m ((c.tc : Thread nD τ).loc main_arg3)
local notation "A4" => m ((c.tc : Thread nD τ).loc main_arg4)
local notation "A5" => m ((c.tc : Thread nD τ).loc main_arg5)
local notation "A6" => m ((c.tc : Thread nD τ).loc main_arg6)
local notation "A7" => m ((c.tc : Thread nD τ).loc main_arg7)
local notation "A8" => m ((c.tc : Thread nD τ).loc main_arg8)
local notation "A9" => m ((c.tc : Thread nD τ).loc main_arg9)

/-! ## What the later steps leave alone -/

theorem carried_v1 : KeptFrom1 m ρ c main_v1 := kept_from1 m ρ c main_v1 (by decide) (by not_written) (by decide) (by not_written) (by decide) (by not_written) (by decide) (by not_written)
theorem carried_v3 : KeptFrom1 m ρ c main_v3 := kept_from1 m ρ c main_v3 (by decide) (by not_written) (by decide) (by not_written) (by decide) (by not_written) (by decide) (by not_written)
theorem carried_v11 : KeptFrom1 m ρ c main_v11 := kept_from1 m ρ c main_v11 (by decide) (by not_written) (by decide) (by not_written) (by decide) (by not_written) (by decide) (by not_written)
theorem carried_arg4 : KeptFrom1 m ρ c main_arg4 := kept_from1 m ρ c main_arg4 (by decide) (by not_written) (by decide) (by not_written) (by decide) (by not_written) (by decide) (by not_written)
theorem carried_arg5 : KeptFrom1 m ρ c main_arg5 := kept_from1 m ρ c main_arg5 (by decide) (by not_written) (by decide) (by not_written) (by decide) (by not_written) (by decide) (by not_written)
theorem carried_arg6 : KeptFrom1 m ρ c main_arg6 := kept_from1 m ρ c main_arg6 (by decide) (by not_written) (by decide) (by not_written) (by decide) (by not_written) (by decide) (by not_written)

/-! ## Hidden update 2: after its host stretch and after its region -/

theorem W4_v1 : W4 m ρ c (Proc.devRef .tc main_v1) = Cert.Spec.src (F := Ideal) A1 := (carried_v1 m ρ c).2.2.1.trans (W1_v1 m ρ c)
theorem W4_v3 : W4 m ρ c (Proc.devRef .tc main_v3) = Cert.Spec.dst (F := Ideal) A1 := (carried_v3 m ρ c).2.2.1.trans (W1_v3 m ρ c)
theorem W4_v11 : W4 m ρ c (Proc.devRef .tc main_v11) = Cert.Spec.degInv (F := Ideal) A1 := (carried_v11 m ρ c).2.2.1.trans (W1_v11 m ρ c)
theorem W4_arg4 : W4 m ρ c (Proc.devRef .tc main_arg4) = A4 := (carried_arg4 m ρ c).2.2.1.trans (W1_arg4 m ρ c)
theorem W4_arg5 : W4 m ρ c (Proc.devRef .tc main_arg5) = A5 := (carried_arg5 m ρ c).2.2.1.trans (W1_arg5 m ρ c)
theorem W4_arg6 : W4 m ρ c (Proc.devRef .tc main_arg6) = A6 := (carried_arg6 m ρ c).2.2.1.trans (W1_arg6 m ρ c)

set_option maxHeartbeats 4000000 in
/-- The mean aggregation of the previous hidden state. -/
theorem W5_v47 : W5 m ρ c (Proc.devRef .tc main_v47)
    = Cert.Spec.agg (F := Ideal) (Cert.Spec.h1 (F := Ideal) A0 A1 A2 A3 A4 A5 A6) A1 := by
  show StableHlo.after hostOps2 (W4 m ρ c) (Proc.devRef .tc main_v47) = _
  after_results_simp
  rw [W4_v34, W4_v1, W4_v3, W4_v11]
  rfl

set_option maxHeartbeats 4000000 in
theorem W5_v49 : W5 m ρ c (Proc.devRef .tc main_v49) = Cert.Spec.wl1 (F := Ideal) A4 := by
  show StableHlo.after hostOps2 (W4 m ρ c) (Proc.devRef .tc main_v49) = _
  after_results_simp
  rw [W4_arg4]
  rfl

set_option maxHeartbeats 4000000 in
theorem W5_v53 : W5 m ρ c (Proc.devRef .tc main_v53) = Cert.Spec.wl1 (F := Ideal) A6 := by
  show StableHlo.after hostOps2 (W4 m ρ c) (Proc.devRef .tc main_v53) = _
  after_results_simp
  rw [W4_arg6]
  rfl

set_option maxHeartbeats 4000000 in
/-- The layer's bias as the one-row matrix the kernel loads. -/
theorem W5_v54 : W5 m ρ c (Proc.devRef .tc main_v54)
    = shapeCast (⟨2, ![1, 128]⟩ : Shape) (Cert.Spec.bl1 (F := Ideal) A5 : (⟨1, ![128]⟩ : Shape).Idx → EReal) shapeCasts_S128_S1x128 := by
  show StableHlo.after hostOps2 (W4 m ρ c) (Proc.devRef .tc main_v54) = _
  after_results_simp
  rw [W4_arg5]
  rfl

theorem W5_v34 : W5 m ρ c (Proc.devRef .tc main_v34) = Cert.Spec.h1 (F := Ideal) A0 A1 A2 A3 A4 A5 A6 :=
  (keepH2 m ρ c main_v34 (by not_written)).trans (W4_v34 m ρ c)

theorem W5_v13_0 : W5 m ρ c (Proc.devRef .tc main_v13_0) = Cert.Spec.inp (F := Ideal) A0 A2 A3 :=
  (kept_inp m ρ c).2.1.trans (W2_v13_0 m ρ c)

/-- Hidden state 2. -/
theorem W6_v55 : W6 m ρ c (Proc.devRef .tc main_v55) = Cert.Spec.h2 (F := Ideal) A0 A1 A2 A3 A4 A5 A6 := by
  refine (W6_arr m ρ c 6).trans ?_
  refine (RegionValue.value2 (V5 m ρ) c).trans ?_
  refine ext_rows fun r => ?_
  unfold Cert.Spec.h2
  rw [row_ofRows, Cert.SpecRows.row_upd]
  show updateRow zeroF fifth (row (W5 m ρ c (Proc.devRef .tc main_v47)) r) (row (W5 m ρ c (Proc.devRef .tc main_v34)) r)
      (row (W5 m ρ c (Proc.devRef .tc main_v13_0)) r) (mat (W5 m ρ c (Proc.devRef .tc main_v49)))
      (mat (W5 m ρ c (Proc.devRef .tc main_v53))) (row (W5 m ρ c (Proc.devRef .tc main_v54)) (0 : Fin 1)) = _
  rw [W5_v47, W5_v34, W5_v13_0, W5_v49, W5_v53, W5_v54, Cert.SpecRows.vec_of_cast]

/-! ## Hidden update 3: after its host stretch and after its region -/

theorem W6_v1 : W6 m ρ c (Proc.devRef .tc main_v1) = Cert.Spec.src (F := Ideal) A1 := (carried_v1 m ρ c).2.2.2.2.1.trans (W1_v1 m ρ c)
theorem W6_v3 : W6 m ρ c (Proc.devRef .tc main_v3) = Cert.Spec.dst (F := Ideal) A1 := (carried_v3 m ρ c).2.2.2.2.1.trans (W1_v3 m ρ c)
theorem W6_v11 : W6 m ρ c (Proc.devRef .tc main_v11) = Cert.Spec.degInv (F := Ideal) A1 := (carried_v11 m ρ c).2.2.2.2.1.trans (W1_v11 m ρ c)
theorem W6_arg4 : W6 m ρ c (Proc.devRef .tc main_arg4) = A4 := (carried_arg4 m ρ c).2.2.2.2.1.trans (W1_arg4 m ρ c)
theorem W6_arg5 : W6 m ρ c (Proc.devRef .tc main_arg5) = A5 := (carried_arg5 m ρ c).2.2.2.2.1.trans (W1_arg5 m ρ c)
theorem W6_arg6 : W6 m ρ c (Proc.devRef .tc main_arg6) = A6 := (carried_arg6 m ρ c).2.2.2.2.1.trans (W1_arg6 m ρ c)

set_option maxHeartbeats 4000000 in
/-- The mean aggregation of the previous hidden state. -/
theorem W7_v68 : W7 m ρ c (Proc.devRef .tc main_v68)
    = Cert.Spec.agg (F := Ideal) (Cert.Spec.h2 (F := Ideal) A0 A1 A2 A3 A4 A5 A6) A1 := by
  show StableHlo.after hostOps3 (W6 m ρ c) (Proc.devRef .tc main_v68) = _
  after_results_simp
  rw [W6_v55, W6_v1, W6_v3, W6_v11]
  rfl

set_option maxHeartbeats 4000000 in
theorem W7_v70 : W7 m ρ c (Proc.devRef .tc main_v70) = Cert.Spec.wl2 (F := Ideal) A4 := by
  show StableHlo.after hostOps3 (W6 m ρ c) (Proc.devRef .tc main_v70) = _
  after_results_simp
  rw [W6_arg4]
  rfl

set_option maxHeartbeats 4000000 in
theorem W7_v74 : W7 m ρ c (Proc.devRef .tc main_v74) = Cert.Spec.wl2 (F := Ideal) A6 := by
  show StableHlo.after hostOps3 (W6 m ρ c) (Proc.devRef .tc main_v74) = _
  after_results_simp
  rw [W6_arg6]
  rfl

set_option maxHeartbeats 4000000 in
/-- The layer's bias as the one-row matrix the kernel loads. -/
theorem W7_v75 : W7 m ρ c (Proc.devRef .tc main_v75)
    = shapeCast (⟨2, ![1, 128]⟩ : Shape) (Cert.Spec.bl2 (F := Ideal) A5 : (⟨1, ![128]⟩ : Shape).Idx → EReal) shapeCasts_S128_S1x128 := by
  show StableHlo.after hostOps3 (W6 m ρ c) (Proc.devRef .tc main_v75) = _
  after_results_simp
  rw [W6_arg5]
  rfl

theorem W7_v55 : W7 m ρ c (Proc.devRef .tc main_v55) = Cert.Spec.h2 (F := Ideal) A0 A1 A2 A3 A4 A5 A6 :=
  (keepH3 m ρ c main_v55 (by not_written)).trans (W6_v55 m ρ c)

theorem W7_v13_0 : W7 m ρ c (Proc.devRef .tc main_v13_0) = Cert.Spec.inp (F := Ideal) A0 A2 A3 :=
  (kept_inp m ρ c).2.2.trans (W2_v13_0 m ρ c)

/-- Hidden state 3. -/
theorem W8_v76 : W8 m ρ c (Proc.devRef .tc main_v76) = Cert.Spec.h3 (F := Ideal) A0 A1 A2 A3 A4 A5 A6 := by
  refine (W8_arr m ρ c 6).trans ?_
  refine (RegionValue.value3 (V7 m ρ) c).trans ?_
  refine ext_rows fun r => ?_
  unfold Cert.Spec.h3
  rw [row_ofRows, Cert.SpecRows.row_upd]
  show updateRow zeroF fifth (row (W7 m ρ c (Proc.devRef .tc main_v68)) r) (row (W7 m ρ c (Proc.devRef .tc main_v55)) r)
      (row (W7 m ρ c (Proc.devRef .tc main_v13_0)) r) (mat (W7 m ρ c (Proc.devRef .tc main_v70)))
      (mat (W7 m ρ c (Proc.devRef .tc main_v74))) (row (W7 m ρ c (Proc.devRef .tc main_v75)) (0 : Fin 1)) = _
  rw [W7_v68, W7_v55, W7_v13_0, W7_v70, W7_v74, W7_v75, Cert.SpecRows.vec_of_cast]

end Cert.KernelIdeal.KChain

end
-- ==== Proof.FinalPayRows.lean ====
/-
  Rows of the output kernel's stored block, on the extended reals: row `p` is the shifted log-softmax of the logits
  of row `p`.

  The body keeps a row statistic (the lane maximum, the lane sum of the exponentials) as a column `[R, 1]` and spreads
  it back over the lanes; read at `(r, k)` the spread column is the statistic of row `r`, so every entry of row `r`
  of the result is a function of row `r` of the logits alone.
-/
import proofs.«171517_j47004122087951_1_alg».proof.Proof.Gen.KernelIdeal.Skeleton
import proofs.«171517_j47004122087951_1_alg».proof.Proof.Rows

noncomputable section

namespace Cert.FinalRows

open Idealize.ShloMosaic Idealize.ShloMosaic.ValueIdx Cert.DenseRows Cert.SageRows

/-- An `[a]` array cast to the column `[a, 1]` reads, at `(i, 0)`, the array at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[R]` array cast to a column and spread over `K` lanes reads, at `(r, k)`, the array at `r`. -/
theorem keepdims_apply {α : Type} {R K : ℕ} (x : (⟨1, ![R]⟩ : Shape).Idx → α)
    (hc : (⟨1, ![R]⟩ : Shape).ShapeCasts ⟨2, ![R, 1]⟩) (hb : (⟨2, ![R, 1]⟩ : Shape).Broadcasts ⟨2, ![R, K]⟩)
    (r : Fin R) (k : Fin K) :
    broadcastTo ⟨2, ![R, K]⟩ (shapeCast ⟨2, ![R, 1]⟩ x hc) hb (ix2 r k) = x (ix1 r) :=
  (Cert.LibBlockRows.column_spread _ hb r k).trans (shapeCast_a_a1_apply x hc r 0)

/-- The index over `(r)` with the lane `k` put back is `(r, k)`. -/
theorem lift_ix1 {R N : ℕ} (h : Shape.Reduces ⟨2, ![R, N]⟩ [1] ⟨1, ![R]⟩) (r : Fin R) (k : Fin N) :
    h.lift (ix1 r) k = ix2 r k :=
  funext fun a => Fin.ext (by
    match a with
    | ⟨0, _⟩ => rfl
    | ⟨1, _⟩ => rfl)

/-- The lane maximum of an `[R, N]` array from `-∞`, at `r`, is the largest entry of row `r`. -/
theorem reduceMax_apply {R N : ℕ} (src : FVec Ideal ⟨2, ![R, N]⟩ .f32) (h : Shape.Reduces ⟨2, ![R, N]⟩ [1] ⟨1, ![R]⟩)
    (hφ : FKind.Formats .f32) (hacc : (0xFF800000#32 : BitVec 32) = 0xFF800000#32) (r : Fin R) :
    multiReduction .maximumf [1] ⟨1, ![R]⟩ src 0xFF800000#32 h hφ hacc (ix1 r) = rowMax negInf (row src r) := by
  refine (Ideal.multiReduction_maximumf_single src _ h hφ hacc (ix1 r)).trans ?_
  show (Finset.univ : Finset (Fin N)).fold max negInf (src ∘ h.lift (ix1 r)) = (Finset.univ : Finset (Fin N)).fold max negInf (row src r)
  exact congrArg (fun f => (Finset.univ : Finset (Fin N)).fold max negInf f) (funext fun k => congrArg src (lift_ix1 h r k))

/-- The lane sum of an `[R, N]` array from zero, at `r`, is the sum of row `r`. -/
theorem reduceAdd_apply {R N : ℕ} (src : FVec Ideal ⟨2, ![R, N]⟩ .f32) (h : Shape.Reduces ⟨2, ![R, N]⟩ [1] ⟨1, ![R]⟩)
    (hφ : FKind.Formats .f32) (hacc : (0x00000000#32 : BitVec 32) = 0x00000000#32) (r : Fin R) :
    multiReduction .add [1] ⟨1, ![R]⟩ src 0x00000000#32 h hφ hacc (ix1 r) = ∑ k : Fin N, row src r k := by
  refine (Ideal.multiReduction_add_single src _ h hφ hacc (ix1 r)).trans ?_
  show ∑ k : Fin N, src (h.lift (ix1 r) k) = ∑ k : Fin N, src (ix2 r k)
  exact Finset.sum_congr rfl fun k _ => congrArg src (lift_ix1 h r k)

/-- Row `r` of the shifted log-softmax of an `[R, N]` block as a kernel body spells it: the lane maximum from
    `-∞` kept as a column and spread back, subtracted; the exponentials' lane sum from zero kept as a column, its
    logarithm spread back, subtracted. -/
theorem row_logSoftmax_block {R N : ℕ} (y : FVec Ideal ⟨2, ![R, N]⟩ .f32)
    (hr : Shape.Reduces ⟨2, ![R, N]⟩ [1] ⟨1, ![R]⟩) (hc : (⟨1, ![R]⟩ : Shape).ShapeCasts ⟨2, ![R, 1]⟩)
    (hb : (⟨2, ![R, 1]⟩ : Shape).Broadcasts ⟨2, ![R, N]⟩) (hφ hφ' : FKind.Formats .f32)
    (hm : (0xFF800000#32 : BitVec 32) = 0xFF800000#32) (ha : (0x00000000#32 : BitVec 32) = 0x00000000#32) (r : Fin R) :
    row (subf
          (subf y (broadcastTo ⟨2, ![R, N]⟩
            (shapeCast ⟨2, ![R, 1]⟩ (multiReduction .maximumf [1] ⟨1, ![R]⟩ y 0xFF800000#32 hr hφ hm) hc) hb))
          (broadcastTo ⟨2, ![R, N]⟩
            (log (shapeCast ⟨2, ![R, 1]⟩
              (multiReduction .add [1] ⟨1, ![R]⟩
                (exp (subf y (broadcastTo ⟨2, ![R, N]⟩
                  (shapeCast ⟨2, ![R, 1]⟩ (multiReduction .maximumf [1] ⟨1, ![R]⟩ y 0xFF800000#32 hr hφ hm) hc) hb)))
                0x00000000#32 hr hφ' ha) hc)) hb)) r
      = logSoftmaxRow negInf (row y r) := by
  have hM : ∀ k : Fin N, broadcastTo ⟨2, ![R, N]⟩
      (shapeCast ⟨2, ![R, 1]⟩ (multiReduction .maximumf [1] ⟨1, ![R]⟩ y 0xFF800000#32 hr hφ hm) hc) hb (ix2 r k)
        = rowMax negInf (row y r) :=
    fun k => (keepdims_apply _ hc hb r k).trans (reduceMax_apply y hr hφ hm r)
  have hz : ∀ k : Fin N, subf y (broadcastTo ⟨2, ![R, N]⟩
      (shapeCast ⟨2, ![R, 1]⟩ (multiReduction .maximumf [1] ⟨1, ![R]⟩ y 0xFF800000#32 hr hφ hm) hc) hb) (ix2 r k)
        = row y r k - rowMax negInf (row y r) :=
    fun k => congrArg (fun m => y (ix2 r k) - m) (hM k)
  have hS : multiReduction .add [1] ⟨1, ![R]⟩
      (exp (subf y (broadcastTo ⟨2, ![R, N]⟩
        (shapeCast ⟨2, ![R, 1]⟩ (multiReduction .maximumf [1] ⟨1, ![R]⟩ y 0xFF800000#32 hr hφ hm) hc) hb)))
      0x00000000#32 hr hφ' ha (ix1 r) = ∑ k : Fin N, Ideal.exp (row y r k - rowMax negInf (row y r)) :=
    (reduceAdd_apply _ hr hφ' ha r).trans (Finset.sum_congr rfl fun k _ => congrArg Ideal.exp (hz k))
  funext n
  refine congrArg₂ (fun a b : EReal => a - b) (hz n) ?_
  refine (Cert.LibBlockRows.column_spread _ hb r n).trans ?_
  exact congrArg Ideal.log ((shapeCast_a_a1_apply _ hc r 0).trans hS)

end Cert.FinalRows

namespace Cert.KernelIdeal.PayRows

open Idealize.ShloMosaic Idealize.ShloMosaic.ValueIdx Cert.DenseRows Cert.SageRows Cert.KernelIdeal Cert.KernelIdeal.Gen

/-- Row `p` of the output block. -/
theorem pay4_row (agg h : Vec Ideal S5000x128 .f32) (wl wr : Vec Ideal S128x47 .f32) (b : Vec Ideal S1x47 .f32) (p : Fin 5000) :
    row (k4_pay1 (F := Ideal) agg h wl wr b) p
      = logSoftmaxRow negInf (logitsRow (row agg p) (row h p) (mat wl) (mat wr) (row b (0 : Fin 1))) := by
  refine (Cert.FinalRows.row_logSoftmax_block _ reduces_S5000x47_S5000 shapeCasts_S5000_S5000x1
    broadcasts_S5000x1_S5000x47 (.inl rfl) (.inl rfl) rfl rfl p).trans ?_
  refine congrArg (logSoftmaxRow negInf) ?_
  have e1 := Cert.LibBlockRows.row_matmul_rowbias dot_S5000x128_S128x47_S5000x47_1_0_0_1_n_n rfl none
    (truncf .bf16 agg bitsLt_bf16_f32) (truncf .bf16 wl bitsLt_bf16_f32) b broadcasts_S1x47_S5000x47 p
  have e2 := row_matmul dot_S5000x128_S128x47_S5000x47_1_0_0_1_n_n rfl none
    (truncf .bf16 h bitsLt_bf16_f32) (truncf .bf16 wr bitsLt_bf16_f32) p
  rw [shapeCast_self, shapeCast_self, shapeCast_self]
  funext n
  exact congrArg₂ (fun a b : EReal => a + b) (congrFun e1 n) (congrFun e2 n)

end Cert.KernelIdeal.PayRows

end
-- ==== Proof.Region4.lean ====
/-
  The array the output kernel leaves, on the extended reals.

  The kernel runs over 20 points; at point `t` it reads rows `5000 t .. 5000 t + 4999` of its two row operands and the
  whole of its two weight matrices and its bias, and writes back the same rows of its result. Row `p` of the block it
  writes is the shifted log-softmax of the logits of rows `p` of the blocks it reads, so row `r` of the array it leaves
  is that function of rows `r` of the arrays it reads.
-/
import proofs.«171517_j47004122087951_1_alg».proof.Proof.Gen.KernelIdeal.Frame
import proofs.«171517_j47004122087951_1_alg».proof.Proof.PayRows
import proofs.«171517_j47004122087951_1_alg».proof.Proof.FinalPayRows
import proofs.«171517_j47004122087951_1_alg».proof.Proof.Rows
import Idealize.ShloMosaic.Lib.Pipeline.Value
import Idealize.ShloMosaic.Lib.ValueIdx

set_option maxRecDepth 16384

noncomputable section

namespace Cert.KernelIdeal.RegionValue

open Idealize.ShloMosaic Idealize.ShloMosaic.TcCoe Idealize.ShloMosaic.ValueIdx Cert.DenseRows Cert.SageRows Cert.KernelIdeal Cert.KernelIdeal.Gen

variable (V : (c : Dev nD) → (b : Ref sig .tc) → Buf (Elt Ideal) ((c : Thread nD τ).loc b)) (c : Dev nD)

theorem hz4 : (![0, 0] : Fin 2 → Nat) = fun _ => 0 := funext fun a => by fin_cases a <;> rfl

/-- The block indices over the grid: the row windows sit at block `(t, 0)`, the weight and bias windows at `(0, 0)`. -/
theorem idx_facts4 : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = t.val ∧ win4_5.index t (1 : Fin 2) = 0 :=
  (by decide +kernel : ∀ t : Fin grid4.N, _)

/-- The array the kernel leaves, by rows. -/
def G4 : S100000x47.Idx → EReal :=
  ofRows fun r => logSoftmaxRow negInf (logitsRow (row (V c main_v89) r) (row (V c main_v76) r)
    (mat (V c main_arg7)) (mat (V c main_arg9)) (row (V c main_v90) (0 : Fin 1)))

/-! ## Where a block's entries sit in its array -/

theorem emb4_0 (t : Fin cfg4.N) (p : Fin 5000) (q : Fin 128) (r : Fin 100000) (hr : r.val = t.val * 5000 + p.val) :
    ((cfg4.win 0).blk t).view.emb (ix2 p q) = ix2 r q := by
  obtain ⟨e0, e1, -⟩ := idx_facts4 t
  funext a; apply Fin.ext
  match a with
  | ⟨0, _⟩ => show win4_0.index t (0 : Fin 2) * 5000 + 1 * p.val = r.val; omega
  | ⟨1, _⟩ => show win4_0.index t (1 : Fin 2) * 128 + 1 * q.val = q.val; omega

theorem emb4_1 (t : Fin cfg4.N) (p : Fin 5000) (q : Fin 128) (r : Fin 100000) (hr : r.val = t.val * 5000 + p.val) :
    ((cfg4.win 1).blk t).view.emb (ix2 p q) = ix2 r q := by
  obtain ⟨-, -, e0, e1, -⟩ := idx_facts4 t
  funext a; apply Fin.ext
  match a with
  | ⟨0, _⟩ => show win4_1.index t (0 : Fin 2) * 5000 + 1 * p.val = r.val; omega
  | ⟨1, _⟩ => show win4_1.index t (1 : Fin 2) * 128 + 1 * q.val = q.val; omega

theorem emb4_2 (t : Fin cfg4.N) (k : Fin 128) (n : Fin 47) :
    ((cfg4.win 2).blk t).view.emb (ix2 k n) = ix2 k n := by
  obtain ⟨-, -, -, -, e0, e1, -⟩ := idx_facts4 t
  funext a; apply Fin.ext
  match a with
  | ⟨0, _⟩ => show win4_2.index t (0 : Fin 2) * 128 + 1 * k.val = k.val; omega
  | ⟨1, _⟩ => show win4_2.index t (1 : Fin 2) * 47 + 1 * n.val = n.val; omega

theorem emb4_3 (t : Fin cfg4.N) (k : Fin 1) (n : Fin 47) :
    ((cfg4.win 3).blk t).view.emb (ix2 k n) = ix2 k n := by
  obtain ⟨-, -, -, -, -, -, e0, e1, -⟩ := idx_facts4 t
  funext a; apply Fin.ext
  match a with
  | ⟨0, _⟩ => show win4_3.index t (0 : Fin 2) * 1 + 1 * k.val = k.val; omega
  | ⟨1, _⟩ => show win4_3.index t (1 : Fin 2) * 47 + 1 * n.val = n.val; omega

theorem emb4_4 (t : Fin cfg4.N) (k : Fin 128) (n : Fin 47) :
    ((cfg4.win 4).blk t).view.emb (ix2 k n) = ix2 k n := by
  obtain ⟨-, -, -, -, -, -, -, -, e0, e1, -⟩ := idx_facts4 t
  funext a; apply Fin.ext
  match a with
  | ⟨0, _⟩ => show win4_4.index t (0 : Fin 2) * 128 + 1 * k.val = k.val; omega
  | ⟨1, _⟩ => show win4_4.index t (1 : Fin 2) * 47 + 1 * n.val = n.val; omega

theorem emb4_5 (t : Fin cfg4.N) (p : Fin 5000) (q : Fin 47) (r : Fin 100000) (hr : r.val = t.val * 5000 + p.val) :
    ((cfg4.win 5).blk t).view.emb (ix2 p q) = ix2 r q := by
  obtain ⟨-, -, -, -, -, -, -, -, -, -, e0, e1⟩ := idx_facts4 t
  funext a; apply Fin.ext
  match a with
  | ⟨0, _⟩ => show win4_5.index t (0 : Fin 2) * 5000 + 1 * p.val = r.val; omega
  | ⟨1, _⟩ => show win4_5.index t (1 : Fin 2) * 47 + 1 * q.val = q.val; omega

/-! ## The blocks the body reads, by rows -/

theorem blk4_0 (t : Fin cfg4.N) (p : Fin 5000) (r : Fin 100000) (hr : r.val = t.val * 5000 + p.val) :
    row (iblk4 V c 0 t) p = row (V c main_v89) r := by
  funext k
  show V c (Pipeline.arrRef spec4 0) (((cfg4.win 0).blk t).view.emb (ix2 p k)) = V c main_v89 (ix2 r k)
  exact congrArg (V c main_v89) (emb4_0 t p k r hr)

theorem blk4_1 (t : Fin cfg4.N) (p : Fin 5000) (r : Fin 100000) (hr : r.val = t.val * 5000 + p.val) :
    row (iblk4 V c 1 t) p = row (V c main_v76) r := by
  funext k
  show V c (Pipeline.arrRef spec4 1) (((cfg4.win 1).blk t).view.emb (ix2 p k)) = V c main_v76 (ix2 r k)
  exact congrArg (V c main_v76) (emb4_1 t p k r hr)

theorem blk4_2 (t : Fin cfg4.N) : mat (iblk4 V c 2 t) = mat (V c main_arg7) := by
  funext k n
  show V c (Pipeline.arrRef spec4 2) (((cfg4.win 2).blk t).view.emb (ix2 k n)) = V c main_arg7 (ix2 k n)
  exact congrArg (V c main_arg7) (emb4_2 t k n)

theorem blk4_3 (t : Fin cfg4.N) : row (iblk4 V c 3 t) (0 : Fin 1) = row (V c main_v90) (0 : Fin 1) := by
  funext n
  show V c (Pipeline.arrRef spec4 3) (((cfg4.win 3).blk t).view.emb (ix2 (0 : Fin 1) n)) = V c main_v90 (ix2 (0 : Fin 1) n)
  exact congrArg (V c main_v90) (emb4_3 t 0 n)

theorem blk4_4 (t : Fin cfg4.N) : mat (iblk4 V c 4 t) = mat (V c main_arg9) := by
  funext k n
  show V c (Pipeline.arrRef spec4 4) (((cfg4.win 4).blk t).view.emb (ix2 k n)) = V c main_arg9 (ix2 k n)
  exact congrArg (V c main_arg9) (emb4_4 t k n)

/-! ## What a point writes back -/

/-- What point `t` writes back is block `t` of the array of log-softmax rows. -/
theorem flushed4_eq (t : Fin cfg4.N) :
    (dat4 (F := Ideal) V c).flushed 5 t = ((cfg4.win 5).blk t).view.read (Elt Ideal) (G4 V c) := by
  show (cfg4.win 5).cut (grid4.coords t) ((dat4 (F := Ideal) V c).after 5 t) = _
  rw [after4_5]
  unfold out4_5
  rw [View.canon_unit_zero hz4]
  simp only [View.ld_unit_zero (S := S5000x128) hz4, View.ld_unit_zero (S := S128x47) hz4, View.ld_unit_zero (S := S1x47) hz4]
  funext y
  obtain ⟨p, q, rfl⟩ : ∃ (p : Fin 5000) (q : Fin 47), y = ix2 p q := ⟨y 0, y 1, eq_ix2 y⟩
  have ht : t.val < 20 := t.isLt
  have hr : t.val * 5000 + p.val < 100000 := by have := p.isLt; omega
  refine (congrFun (PayRows.pay4_row (iblk4 V c 0 t) (iblk4 V c 1 t) (iblk4 V c 2 t) (iblk4 V c 4 t) (iblk4 V c 3 t) p) q).trans ?_
  rw [blk4_0 V c t p ⟨_, hr⟩ rfl, blk4_1 V c t p ⟨_, hr⟩ rfl, blk4_2, blk4_3, blk4_4]
  show _ = G4 V c (((cfg4.win 5).blk t).view.emb (ix2 p q))
  rw [emb4_5 t p q ⟨_, hr⟩ rfl]
  rfl

/-! ## The cover -/

theorem mem_blk4 (t : Fin cfg4.N) (i : S100000x47.Idx) :
    i ∈ ((cfg4.win 5).blk t).view.set ↔ ∀ a : Fin 2, win4_5.index t a * S5000x47.size a ≤ (i a).val ∧ (i a).val < win4_5.index t a * S5000x47.size a + S5000x47.size a := by
  show i ∈ ((View.whole main_v91).slice (win4_5.rect t)).set ↔ _
  rw [View.set_slice_whole, Rect.mem_set_unit]
  exact Iff.rfl

theorem covers4 (i : S100000x47.Idx) : ∃ t : Fin cfg4.N, (cfg4.win 5).flush t = true ∧ i ∈ ((cfg4.win 5).blk t).view.set := by
  have hi0 : (i 0).val < 100000 := (i 0).isLt
  have hi1 : (i 1).val < 47 := (i 1).isLt
  have hlt : (i 0).val / 5000 < 20 := by omega
  refine ⟨⟨(i 0).val / 5000, hlt⟩, flush4_5 _, ?_⟩
  rw [mem_blk4]
  obtain ⟨-, -, -, -, -, -, -, -, -, -, e0, e1⟩ := idx_facts4 ⟨(i 0).val / 5000, hlt⟩
  intro a
  match a with
  | ⟨0, _⟩ => show win4_5.index ⟨(i 0).val / 5000, hlt⟩ (0 : Fin 2) * 5000 ≤ (i 0).val ∧ (i 0).val < win4_5.index ⟨(i 0).val / 5000, hlt⟩ (0 : Fin 2) * 5000 + 5000; rw [e0]; show (i 0).val / 5000 * 5000 ≤ (i 0).val ∧ (i 0).val < (i 0).val / 5000 * 5000 + 5000; omega
  | ⟨1, _⟩ => show win4_5.index ⟨(i 0).val / 5000, hlt⟩ (1 : Fin 2) * 47 ≤ (i 1).val ∧ (i 1).val < win4_5.index ⟨(i 0).val / 5000, hlt⟩ (1 : Fin 2) * 47 + 47; rw [e1]; omega

/-- The array the output kernel leaves: row `r` is the shifted log-softmax of the logits of rows `r` it reads. -/
theorem value4 : (dat4 (F := Ideal) V c).arrAt 5 cfg4.N = ofRows fun r => logSoftmaxRow negInf (logitsRow (row (V c main_v89) r) (row (V c main_v76) r) (mat (V c main_arg7)) (mat (V c main_arg9)) (row (V c main_v90) (0 : Fin 1))) :=
  (dat4 (F := Ideal) V c).arrAt_eq_of_cover 5 (G4 V c) (fun t _ => flushed4_eq V c t) covers4

end Cert.KernelIdeal.RegionValue

end
-- ==== Proof.SpecFinalRows.lean ====
/-
  Rows of the reference's output step, on the extended reals: row `r` of the row-wise log-softmax of an array `y` is
  the shifted log-softmax of row `r` of `y`.

  The host spelling reduces over the lanes (a maximum from the word 0xFF800000, a sum from the word 0x00000000), keeps
  each row statistic as a column `[R, 1]` by a broadcast in dimension and spreads it back over the lanes by another;
  read at `(r, n)` the spread column is the statistic of row `r`.
-/
import proofs.«171517_j47004122087951_1_alg».proof.Proof.Spec
import proofs.«171517_j47004122087951_1_alg».proof.Proof.Rows
import proofs.«171517_j47004122087951_1_alg».proof.Proof.Gen.ReferenceIdeal

noncomputable section

namespace Cert.SpecRows

open Idealize.ShloMosaic Idealize.ShloMosaic.ValueIdx Cert.Spec Cert.ReferenceIdeal Cert.DenseRows Cert.SageRows

/-- An `[R]` array broadcast in dimension to the column `[R, 1]` reads, at `(r, u)`, the array at `r`. -/
theorem column_inDim_apply {α : Type} {R : ℕ} (v : (⟨1, ![R]⟩ : Shape).Idx → α)
    (h1 : (⟨1, ![R]⟩ : Shape).BroadcastsInDim ⟨2, ![R, 1]⟩ ![0]) (r : Fin R) (u : Fin 1) :
    broadcastInDim ⟨2, ![R, 1]⟩ ![0] h1 v (ix2 r u) = v (ix1 r) :=
  broadcastInDim_apply ![0] h1 v (ix2 r u) (ix1 r) (fun a => by
    match a with
    | ⟨0, _⟩ =>
      show r.val = if R = 1 then 0 else r.val
      split
      · have := r.isLt; omega
      · rfl)

/-- A column `[R, 1]` broadcast in dimension to `[R, N]` reads, at `(r, n)`, the column at `r`. -/
theorem spread_inDim_apply {α : Type} {R N : ℕ} (w : (⟨2, ![R, 1]⟩ : Shape).Idx → α)
    (h2 : (⟨2, ![R, 1]⟩ : Shape).BroadcastsInDim ⟨2, ![R, N]⟩ ![0, 1]) (r : Fin R) (n : Fin N) :
    broadcastInDim ⟨2, ![R, N]⟩ ![0, 1] h2 w (ix2 r n) = w (ix2 r (0 : Fin 1)) :=
  broadcastInDim_apply ![0, 1] h2 w (ix2 r n) (ix2 r (0 : Fin 1)) (fun a => by
    match a with
    | ⟨0, _⟩ =>
      show r.val = if R = 1 then 0 else r.val
      split
      · have := r.isLt; omega
      · rfl
    | ⟨1, _⟩ => rfl)

/-- The index over `(r)` with the lane `k` put back is `(r, k)`. -/
theorem lift_ix1 {R N : ℕ} (h : Shape.Reduces ⟨2, ![R, N]⟩ [1] ⟨1, ![R]⟩) (r : Fin R) (k : Fin N) :
    h.lift (ix1 r) k = ix2 r k :=
  funext fun a => Fin.ext (by
    match a with
    | ⟨0, _⟩ => rfl
    | ⟨1, _⟩ => rfl)

/-- The host's lane maximum of an `[R, N]` array, at `r`: the largest entry of row `r`, folded from the initial
    value's one entry. -/
theorem hostMax_apply {R N : ℕ} {u : Shape} (y : FVec Ideal ⟨2, ![R, N]⟩ .f32) (init : u.Idx → Ideal .f32)
    (h' : Shape.ReducesTo ⟨2, ![R, N]⟩ [1] ⟨1, ![R]⟩) (h : Shape.Reduces ⟨2, ![R, N]⟩ [1] ⟨1, ![R]⟩)
    (hu : 0 < u.numel) (r : Fin R) :
    Host.reduce (FloatOps.maximumf (F := Ideal) (φ := .f32)) y init h' hu (ix1 r)
      = rowMax (init (Shape.Idx.first hu)) (row y r) := by
  refine (Host.reduce_eq_fold_single _ y init h' h hu (ix1 r)).trans ?_
  show (Finset.univ : Finset (Fin N)).fold max (init (Shape.Idx.first hu)) (y ∘ h.lift (ix1 r))
      = (Finset.univ : Finset (Fin N)).fold max (init (Shape.Idx.first hu)) (row y r)
  exact congrArg (fun f => (Finset.univ : Finset (Fin N)).fold max (init (Shape.Idx.first hu)) f)
    (funext fun k => congrArg y (lift_ix1 h r k))

/-- The host's lane sum of an `[R, N]` array, at `r`: the initial value's one entry plus the sum of row `r`. -/
theorem hostSum_apply {R N : ℕ} {u : Shape} (x : FVec Ideal ⟨2, ![R, N]⟩ .f32) (init : u.Idx → Ideal .f32)
    (h' : Shape.ReducesTo ⟨2, ![R, N]⟩ [1] ⟨1, ![R]⟩) (h : Shape.Reduces ⟨2, ![R, N]⟩ [1] ⟨1, ![R]⟩)
    (hu : 0 < u.numel) (r : Fin R) :
    Host.reduceAdd x init h' hu (ix1 r) = init (Shape.Idx.first hu) + ∑ k : Fin N, row x r k := by
  refine (Ideal.hostReduceAdd_single h' h x (init (Shape.Idx.first hu)) (ix1 r)).trans ?_
  show init (Shape.Idx.first hu) + ∑ k : Fin N, x (h.lift (ix1 r) k) = init (Shape.Idx.first hu) + ∑ k : Fin N, x (ix2 r k)
  exact congrArg (fun s => init (Shape.Idx.first hu) + s) (Finset.sum_congr rfl fun k _ => congrArg x (lift_ix1 h r k))

/-- Entry `(r, n)` of an `[R, N]` array less its rows' largest entries, in the host spelling: the lane maximum from
    `-∞`, once more the maximum with `-∞`, kept as a column and spread back over the lanes, subtracted. -/
theorem shifted_host_apply {R N : ℕ} (y : FVec Ideal ⟨2, ![R, N]⟩ .f32)
    (hb0 : (⟨0, ![]⟩ : Shape).BroadcastsInDim ⟨1, ![R]⟩ ![])
    (h1 : (⟨1, ![R]⟩ : Shape).BroadcastsInDim ⟨2, ![R, 1]⟩ ![0])
    (h2 : (⟨2, ![R, 1]⟩ : Shape).BroadcastsInDim ⟨2, ![R, N]⟩ ![0, 1])
    (h' : Shape.ReducesTo ⟨2, ![R, N]⟩ [1] ⟨1, ![R]⟩) (h : Shape.Reduces ⟨2, ![R, N]⟩ [1] ⟨1, ![R]⟩)
    (hu : 0 < (⟨0, ![]⟩ : Shape).numel) (r : Fin R) (n : Fin N) :
    (subf y (broadcastInDim ⟨2, ![R, N]⟩ ![0, 1] h2 (broadcastInDim ⟨2, ![R, 1]⟩ ![0] h1
        (maximumf (broadcastInDim ⟨1, ![R]⟩ ![] hb0 (constant (F := Ideal) ⟨0, ![]⟩ .f32 0xFF800000#32))
          (Host.reduce (FloatOps.maximumf (F := Ideal) (φ := .f32)) y (constant (F := Ideal) ⟨0, ![]⟩ .f32 0xFF800000#32) h' hu))))) (ix2 r n) = row y r n - rowMax negInf (row y r) := by
  refine congrArg (fun m => y (ix2 r n) - m) ?_
  refine (spread_inDim_apply _ h2 r n).trans ?_
  refine (column_inDim_apply _ h1 r 0).trans ?_
  refine (congrArg₂ (fun a b : EReal => max a b) (splat_apply ![] hb0 _ (ix1 r)) (hostMax_apply y _ h' h hu r)).trans ?_
  exact max_rowMax negInf (row y r)

/-- Row `r` of the row-wise log-softmax of an `[R, N]` array in the host spelling: the shifted array less the
    logarithm of the lane sum, from zero, of its exponentials, the sum kept as a column and its logarithm spread back. -/
theorem row_logSoftmax_host {R N : ℕ} (y : FVec Ideal ⟨2, ![R, N]⟩ .f32)
    (hb0 : (⟨0, ![]⟩ : Shape).BroadcastsInDim ⟨1, ![R]⟩ ![])
    (h1 : (⟨1, ![R]⟩ : Shape).BroadcastsInDim ⟨2, ![R, 1]⟩ ![0])
    (h2 : (⟨2, ![R, 1]⟩ : Shape).BroadcastsInDim ⟨2, ![R, N]⟩ ![0, 1])
    (h' : Shape.ReducesTo ⟨2, ![R, N]⟩ [1] ⟨1, ![R]⟩) (h : Shape.Reduces ⟨2, ![R, N]⟩ [1] ⟨1, ![R]⟩)
    (hu : 0 < (⟨0, ![]⟩ : Shape).numel) (r : Fin R) :
    row (subf (subf y (broadcastInDim ⟨2, ![R, N]⟩ ![0, 1] h2 (broadcastInDim ⟨2, ![R, 1]⟩ ![0] h1
        (maximumf (broadcastInDim ⟨1, ![R]⟩ ![] hb0 (constant (F := Ideal) ⟨0, ![]⟩ .f32 0xFF800000#32))
          (Host.reduce (FloatOps.maximumf (F := Ideal) (φ := .f32)) y (constant (F := Ideal) ⟨0, ![]⟩ .f32 0xFF800000#32) h' hu)))))
        (broadcastInDim ⟨2, ![R, N]⟩ ![0, 1] h2 (Host.log (broadcastInDim ⟨2, ![R, 1]⟩ ![0] h1
          (Host.reduceAdd (Host.exp (subf y (broadcastInDim ⟨2, ![R, N]⟩ ![0, 1] h2 (broadcastInDim ⟨2, ![R, 1]⟩ ![0] h1
        (maximumf (broadcastInDim ⟨1, ![R]⟩ ![] hb0 (constant (F := Ideal) ⟨0, ![]⟩ .f32 0xFF800000#32))
          (Host.reduce (FloatOps.maximumf (F := Ideal) (φ := .f32)) y (constant (F := Ideal) ⟨0, ![]⟩ .f32 0xFF800000#32) h' hu)))))) (constant (F := Ideal) ⟨0, ![]⟩ .f32 0x00000000#32) h' hu))))) r
      = logSoftmaxRow negInf (row y r) := by
  funext n
  refine congrArg₂ (fun a b : EReal => a - b) (shifted_host_apply y hb0 h1 h2 h' h hu r n) ?_
  refine (spread_inDim_apply _ h2 r n).trans ?_
  refine congrArg Ideal.log ?_
  refine (column_inDim_apply _ h1 r 0).trans ?_
  refine (hostSum_apply _ _ h' h hu r).trans ?_
  refine (congrArg (fun z : EReal => z + _) Ideal.ofBits_zero_f32).trans ?_
  refine (zero_add _).trans ?_
  exact Finset.sum_congr rfl fun k _ => congrArg Ideal.exp (shifted_host_apply y hb0 h1 h2 h' h hu r k)

theorem reduces_100000x47 : Shape.Reduces S100000x47 [1] S100000 := by decide

/-- Row `r` of the row-wise log-softmax. -/
theorem row_lsm (y : Arr Ideal S100000x47 .f32) (r : Fin 100000) :
    row (lsm (F := Ideal) y) r = logSoftmaxRow negInf (row y r) := by
  unfold lsm shifted
  exact row_logSoftmax_host y Facts₀.bcast_S_S100000 Facts₀.bcast_S100000_S100000x1_0
    Facts₀.bcast_S100000x1_S100000x47_0_1 Facts₀.reducesTo_S100000x47_S100000_d1 reduces_100000x47 Facts₀.h_S_ r

end Cert.SpecRows

end
-- ==== Proof.Chain3.lean ====
/-
  The kernel program's buffers through the output step.

  The last host stretch forms the mean aggregation of the third hidden state and reshapes the output bias to the one-row
  matrix the last kernel loads; the last region computes, a block of rows at a time, the logits of each row and their
  shifted log-softmax. Row by row this is the network function's last step, so the result array is the network
  function of the arguments.
-/
import proofs.«171517_j47004122087951_1_alg».proof.Proof.Chain2
import proofs.«171517_j47004122087951_1_alg».proof.Proof.Kept
import proofs.«171517_j47004122087951_1_alg».proof.Proof.Region4
import proofs.«171517_j47004122087951_1_alg».proof.Proof.SpecRows
import proofs.«171517_j47004122087951_1_alg».proof.Proof.SpecFinalRows
import Idealize.ShloMosaic.Lib.StableHlo.Run

set_option maxRecDepth 16384

noncomputable section

namespace Cert.KernelIdeal.KChain

open Cert.KernelIdeal Cert.KernelIdeal.Gen
open Idealize.ShloMosaic Idealize.ShloMosaic.TcCoe Idealize.SL.Sem Idealize.ShloMosaic.StableHlo
open Cert.DenseRows Cert.SageRows

variable (m : (ℓ : Loc nD τ sig) → Buf (Elt Ideal) ℓ) (ρ : Dev nD → PrngReg) (c : Dev nD)

set_option quotPrecheck false

local notation "A0" => m ((c.tc : Thread nD τ).loc main_arg0)
local notation "A1" => m ((c.tc : Thread nD τ).loc main_arg1)
local notation "A2" => m ((c.tc : Thread nD τ).loc main_arg2)
local notation "A3" => m ((c.tc : Thread nD τ).loc main_arg3)
local notation "A4" => m ((c.tc : Thread nD τ).loc main_arg4)
local notation "A5" => m ((c.tc : Thread nD τ).loc main_arg5)
local notation "A6" => m ((c.tc : Thread nD τ).loc main_arg6)
local notation "A7" => m ((c.tc : Thread nD τ).loc main_arg7)
local notation "A8" => m ((c.tc : Thread nD τ).loc main_arg8)
local notation "A9" => m ((c.tc : Thread nD τ).loc main_arg9)

/-! ## What the earlier steps left alone -/

theorem carried_arg7 : KeptFrom1 m ρ c main_arg7 := kept_from1 m ρ c main_arg7 (by decide) (by not_written) (by decide) (by not_written) (by decide) (by not_written) (by decide) (by not_written)
theorem carried_arg8 : KeptFrom1 m ρ c main_arg8 := kept_from1 m ρ c main_arg8 (by decide) (by not_written) (by decide) (by not_written) (by decide) (by not_written) (by decide) (by not_written)
theorem carried_arg9 : KeptFrom1 m ρ c main_arg9 := kept_from1 m ρ c main_arg9 (by decide) (by not_written) (by decide) (by not_written) (by decide) (by not_written) (by decide) (by not_written)

theorem W8_v1 : W8 m ρ c (Proc.devRef .tc main_v1) = Cert.Spec.src (F := Ideal) A1 := (carried_v1 m ρ c).2.2.2.2.2.2.1.trans (W1_v1 m ρ c)
theorem W8_v3 : W8 m ρ c (Proc.devRef .tc main_v3) = Cert.Spec.dst (F := Ideal) A1 := (carried_v3 m ρ c).2.2.2.2.2.2.1.trans (W1_v3 m ρ c)
theorem W8_v11 : W8 m ρ c (Proc.devRef .tc main_v11) = Cert.Spec.degInv (F := Ideal) A1 := (carried_v11 m ρ c).2.2.2.2.2.2.1.trans (W1_v11 m ρ c)
theorem W8_arg8 : W8 m ρ c (Proc.devRef .tc main_arg8) = A8 :=
  (carried_arg8 m ρ c).2.2.2.2.2.2.1.trans (keepH0 m ρ c main_arg8 (by not_written))
theorem W9_arg7 : W9 m ρ c (Proc.devRef .tc main_arg7) = A7 :=
  (carried_arg7 m ρ c).2.2.2.2.2.2.2.trans (keepH0 m ρ c main_arg7 (by not_written))
theorem W9_arg9 : W9 m ρ c (Proc.devRef .tc main_arg9) = A9 :=
  (carried_arg9 m ρ c).2.2.2.2.2.2.2.trans (keepH0 m ρ c main_arg9 (by not_written))

/-! ## After the last host stretch -/

set_option maxHeartbeats 4000000 in
/-- The mean aggregation of the third hidden state. -/
theorem W9_v89 : W9 m ρ c (Proc.devRef .tc main_v89)
    = Cert.Spec.agg (F := Ideal) (Cert.Spec.h3 (F := Ideal) A0 A1 A2 A3 A4 A5 A6) A1 := by
  show StableHlo.after hostOps4 (W8 m ρ c) (Proc.devRef .tc main_v89) = _
  after_results_simp
  rw [W8_v76, W8_v1, W8_v3, W8_v11]
  rfl

set_option maxHeartbeats 4000000 in
/-- The output bias as the one-row matrix the last kernel loads. -/
theorem W9_v90 : W9 m ρ c (Proc.devRef .tc main_v90)
    = shapeCast (⟨2, ![1, 47]⟩ : Shape) (A8 : (⟨1, ![47]⟩ : Shape).Idx → EReal) shapeCasts_S47_S1x47 := by
  show StableHlo.after hostOps4 (W8 m ρ c) (Proc.devRef .tc main_v90) = _
  after_results_simp
  rw [W8_arg8]
  rfl

theorem W9_v76 : W9 m ρ c (Proc.devRef .tc main_v76) = Cert.Spec.h3 (F := Ideal) A0 A1 A2 A3 A4 A5 A6 :=
  (keepH4 m ρ c main_v76 (by not_written)).trans (W8_v76 m ρ c)

/-! ## After the last region -/

/-- The result array is the network function of the arguments. -/
theorem W10_v91 : W10 m ρ c (Proc.devRef .tc main_v91) = Cert.Spec.out (F := Ideal) A0 A1 A2 A3 A4 A5 A6 A7 A8 A9 := by
  refine (W10_arr m ρ c 5).trans ?_
  refine (RegionValue.value4 (V9 m ρ) c).trans ?_
  refine ext_rows fun r => ?_
  unfold Cert.Spec.out
  rw [row_ofRows, Cert.SpecRows.row_lsm, Cert.SpecRows.row_logits]
  show logSoftmaxRow negInf (logitsRow (row (W9 m ρ c (Proc.devRef .tc main_v89)) r) (row (W9 m ρ c (Proc.devRef .tc main_v76)) r)
      (mat (W9 m ρ c (Proc.devRef .tc main_arg7))) (mat (W9 m ρ c (Proc.devRef .tc main_arg9)))
      (row (W9 m ρ c (Proc.devRef .tc main_v90)) (0 : Fin 1))) = _
  rw [W9_v89, W9_v76, W9_arg7, W9_arg9, W9_v90, Cert.SpecRows.vec_of_cast]

end Cert.KernelIdeal.KChain

end
-- ==== Proof.KernelValue.lean ====
/-
  The idealized kernel program's run, its result read as the network function.

  Every weakly fair execution terminates with the result array at the network function of the arguments' launch
  contents and every argument array unchanged: the run with every buffer named, the chain of valuations read through to
  its last one at the result buffer, and at each argument buffer back to the launch memory.
-/
import proofs.«171517_j47004122087951_1_alg».proof.Proof.KernelRun
import proofs.«171517_j47004122087951_1_alg».proof.Proof.Chain3
import proofs.«171517_j47004122087951_1_alg».proof.Proof.Assembly

set_option maxRecDepth 16384

noncomputable section

namespace Cert.KernelIdeal.KValue

open Cert.KernelIdeal Cert.KernelIdeal.Gen
open Idealize.ShloMosaic Idealize.ShloMosaic.TcCoe Idealize.SL.Sem

theorem run : Cert.Proof.Assembly.KernelRun := fun m ρ =>
  (θ_run (defs (F := Ideal)) _ _).mono
    (fun r h c =>
      ⟨(mem_final m ρ h c main_v91 (by decide)).trans (Cert.KernelIdeal.KChain.W10_v91 m ρ c),
       (mem_final m ρ h c main_arg0 (by decide)).trans (W10_main_arg0 m ρ c),
       (mem_final m ρ h c main_arg1 (by decide)).trans (W10_main_arg1 m ρ c),
       (mem_final m ρ h c main_arg2 (by decide)).trans (W10_main_arg2 m ρ c),
       (mem_final m ρ h c main_arg3 (by decide)).trans (W10_main_arg3 m ρ c),
       (mem_final m ρ h c main_arg4 (by decide)).trans (W10_main_arg4 m ρ c),
       (mem_final m ρ h c main_arg5 (by decide)).trans (W10_main_arg5 m ρ c),
       (mem_final m ρ h c main_arg6 (by decide)).trans (W10_main_arg6 m ρ c),
       (mem_final m ρ h c main_arg7 (by decide)).trans (W10_main_arg7 m ρ c),
       (mem_final m ρ h c main_arg8 (by decide)).trans (W10_main_arg8 m ρ c),
       (mem_final m ρ h c main_arg9 (by decide)).trans (W10_main_arg9 m ρ c)⟩)
    (run_all m ρ)

end Cert.KernelIdeal.KValue

end
-- ==== Proof.RefOps.lean ====
/-
  The reference program's straight line, cut at the layer boundaries.

  The program's 165 host operations are listed in six stretches: the preparation (the edge list's two rows, the
  reciprocal in-degree, the input projection and its rectified copy), the three hidden updates, the logits, and their
  row-wise log-softmax.
  The whole line is their concatenation, and the contents of the buffers after the whole line are those after the last
  stretch, started from those after the stretch before, and so on back to the launch contents.
-/
import proofs.«171517_j47004122087951_1_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- @main's operations 0 to 22: the edge list's rows, the reciprocal in-degree, the input projection and its rectified copy. -/
abbrev opsA : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    nullary main_cst (constant S_ .f32 0x3F800000#32),
    unary main_cst main_v4 (broadcastInDim S1600000 ![] bcast_S_S1600000 : (⟨S_, .f32⟩ : BufTy).Contents (Elt F) → (⟨S1600000, .f32⟩ : BufTy).Contents (Elt F)),
    nullary main_cst_0 (constant S_ .f32 0x00000000#32),
    unary main_cst_0 main_v5 (broadcastInDim S100000 ![] bcast_S_S100000 : (⟨S_, .f32⟩ : BufTy).Contents (Elt F) → (⟨S100000, .f32⟩ : BufTy).Contents (Elt F)),
    unary main_v3 main_v6 (broadcastInDim S1600000x1 ![0] bcast_S1600000_S1600000x1_0 : (⟨S1600000, .i32⟩ : BufTy).Contents (Elt F) → (⟨S1600000x1, .i32⟩ : BufTy).Contents (Elt F)),
    ternary main_v5 main_v6 main_v4 main_v7 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_1 (constant S_ .f32 0x3F800000#32),
    unary main_cst_1 main_v8 (broadcastInDim S100000 ![] bcast_S_S100000 : (⟨S_, .f32⟩ : BufTy).Contents (Elt F) → (⟨S100000, .f32⟩ : BufTy).Contents (Elt F)),
    binary main_v7 main_v8 main_v9 (maximumf : (⟨S100000, .f32⟩ : BufTy).Contents (Elt F) → (⟨S100000, .f32⟩ : BufTy).Contents (Elt F) → (⟨S100000, .f32⟩ : BufTy).Contents (Elt F)),
    nullary main_cst_2 (constant S_ .f32 0x3F800000#32),
    unary main_cst_2 main_v10 (broadcastInDim S100000 ![] bcast_S_S100000 : (⟨S_, .f32⟩ : BufTy).Contents (Elt F) → (⟨S100000, .f32⟩ : BufTy).Contents (Elt F)),
    binary main_v10 main_v9 main_v11 (Host.divf : (⟨S100000, .f32⟩ : BufTy).Contents (Elt F) → (⟨S100000, .f32⟩ : BufTy).Contents (Elt F) → (⟨S100000, .f32⟩ : BufTy).Contents (Elt F)),
    binary main_arg0 main_arg2 main_v12 ((fun l r => Host.dotGeneral dot_S100000x256_S256x128_S100000x128_1_0_0_1_n_n none l r) : (⟨S100000x256, .f32⟩ : BufTy).Contents (Elt F) → (⟨S256x128, .f32⟩ : BufTy).Contents (Elt F) → (⟨S100000x128, .f32⟩ : BufTy).Contents (Elt F)),
    unary main_arg3 main_v13 (broadcastInDim S1x128 ![1] bcast_S128_S1x128_1 : (⟨S128, .f32⟩ : BufTy).Contents (Elt F) → (⟨S1x128, .f32⟩ : BufTy).Contents (Elt F)),
    unary main_v13 main_v14 (broadcastInDim S100000x128 ![0, 1] bcast_S1x128_S100000x128_0_1 : (⟨S1x128, .f32⟩ : BufTy).Contents (Elt F) → (⟨S100000x128, .f32⟩ : BufTy).Contents (Elt F)),
    binary main_v12 main_v14 main_v15 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S100000x128, .f32⟩) main_call0_v0) (broadcastInDim S100000x128 ![] bcast_S_S100000x128),
    TRef.binary (TRef.of (T := ⟨S100000x128, .f32⟩) main_v15) (TRef.of (T := ⟨S100000x128, .f32⟩) main_call0_v0) (TRef.of (T := ⟨S100000x128, .f32⟩) main_v16) maximumf ]

theorem opsA_sub : (opsA : List (HloOp τ sig (Elt F))).Forall fun op => op.bufs ⊆ tcRefs τ sig :=
  ⟨unary_bufs_sub .., reshape_bufs_sub .., unary_bufs_sub .., reshape_bufs_sub .., nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub ..⟩

/-- @main's operations 23 to 57: the first hidden update. -/
abbrev opsB1 : List (HloOp τ sig (Elt F)) :=
  [ unary main_arg4 main_v17 ((extractStridedSlice S1x128x128 ![0, 0, 0] · slices_S3x128x128_S1x128x128_0_0_0) : (⟨S3x128x128, .f32⟩ : BufTy).Contents (Elt F) → (⟨S1x128x128, .f32⟩ : BufTy).Contents (Elt F)),
    reshape main_v17 main_v18 rfl shapeCasts_S1x128x128_S128x128,
    unary main_arg5 main_v19 ((extractStridedSlice S1x128 ![0, 0] · slices_S3x128_S1x128_0_0) : (⟨S3x128, .f32⟩ : BufTy).Contents (Elt F) → (⟨S1x128, .f32⟩ : BufTy).Contents (Elt F)),
    reshape main_v19 main_v20 rfl shapeCasts_S1x128_S128,
    unary main_arg6 main_v21 ((extractStridedSlice S1x128x128 ![0, 0, 0] · slices_S3x128x128_S1x128x128_0_0_0) : (⟨S3x128x128, .f32⟩ : BufTy).Contents (Elt F) → (⟨S1x128x128, .f32⟩ : BufTy).Contents (Elt F)),
    reshape main_v21 main_v22 rfl shapeCasts_S1x128x128_S128x128,
    nullary main_c (constantI S_ 32 0#32),
    unary main_c main_v23 (broadcastInDim S1600000 ![] bcast_S_S1600000 : (⟨S_, .i32⟩ : BufTy).Contents (Elt F) → (⟨S1600000, .i32⟩ : BufTy).Contents (Elt F)),
    binary main_v1 main_v23 main_v24 (cmpi .slt : (⟨S1600000, .i32⟩ : BufTy).Contents (Elt F) → (⟨S1600000, .i32⟩ : BufTy).Contents (Elt F) → (⟨S1600000, .i1⟩ : BufTy).Contents (Elt F)),
    nullary main_c_3 (constantI S_ 32 100000#32),
    unary main_c_3 main_v25 (broadcastInDim S1600000 ![] bcast_S_S1600000 : (⟨S_, .i32⟩ : BufTy).Contents (Elt F) → (⟨S1600000, .i32⟩ : BufTy).Contents (Elt F)),
    binary main_v1 main_v25 main_v26 (addi : (⟨S1600000, .i32⟩ : BufTy).Contents (Elt F) → (⟨S1600000, .i32⟩ : BufTy).Contents (Elt F) → (⟨S1600000, .i32⟩ : BufTy).Contents (Elt F)),
    ternary main_v24 main_v26 main_v1 main_v27 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v27 main_v28 (broadcastInDim S1600000x1 ![0] bcast_S1600000_S1600000x1_0 : (⟨S1600000, .i32⟩ : BufTy).Contents (Elt F) → (⟨S1600000x1, .i32⟩ : BufTy).Contents (Elt F)),
    binary main_v16 main_v28 main_v29 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst_4 (constant S_ .f32 0x00000000#32),
    unary main_cst_4 main_v30 (broadcastInDim S100000x128 ![] bcast_S_S100000x128 : (⟨S_, .f32⟩ : BufTy).Contents (Elt F) → (⟨S100000x128, .f32⟩ : BufTy).Contents (Elt F)),
    unary main_v3 main_v31 (broadcastInDim S1600000x1 ![0] bcast_S1600000_S1600000x1_0 : (⟨S1600000, .i32⟩ : BufTy).Contents (Elt F) → (⟨S1600000x1, .i32⟩ : BufTy).Contents (Elt F)),
    ternary main_v30 main_v31 main_v29 main_v32 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    unary main_v11 main_v33 (broadcastInDim S100000x1 ![0] bcast_S100000_S100000x1_0 : (⟨S100000, .f32⟩ : BufTy).Contents (Elt F) → (⟨S100000x1, .f32⟩ : BufTy).Contents (Elt F)),
    unary main_v33 main_v34 (broadcastInDim S100000x128 ![0, 1] bcast_S100000x1_S100000x128_0_1 : (⟨S100000x1, .f32⟩ : BufTy).Contents (Elt F) → (⟨S100000x128, .f32⟩ : BufTy).Contents (Elt F)),
    binary main_v32 main_v34 main_v35 (mulf : (⟨S100000x128, .f32⟩ : BufTy).Contents (Elt F) → (⟨S100000x128, .f32⟩ : BufTy).Contents (Elt F) → (⟨S100000x128, .f32⟩ : BufTy).Contents (Elt F)),
    binary main_v35 main_v18 main_v36 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_v20 main_v37 (broadcastInDim S1x128 ![1] bcast_S128_S1x128_1 : (⟨S128, .f32⟩ : BufTy).Contents (Elt F) → (⟨S1x128, .f32⟩ : BufTy).Contents (Elt F)),
    unary main_v37 main_v38 (broadcastInDim S100000x128 ![0, 1] bcast_S1x128_S100000x128_0_1 : (⟨S1x128, .f32⟩ : BufTy).Contents (Elt F) → (⟨S100000x128, .f32⟩ : BufTy).Contents (Elt F)),
    binary main_v36 main_v38 main_v39 (addf : (⟨S100000x128, .f32⟩ : BufTy).Contents (Elt F) → (⟨S100000x128, .f32⟩ : BufTy).Contents (Elt F) → (⟨S100000x128, .f32⟩ : BufTy).Contents (Elt F)),
    binary main_v16 main_v22 main_v40 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v39 main_v40 main_v41 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x128, .f32⟩) main_call1_v0) (broadcastInDim S100000x128 ![] bcast_S_S100000x128),
    TRef.binary (TRef.of (T := ⟨S100000x128, .f32⟩) main_v41) (TRef.of (T := ⟨S100000x128, .f32⟩) main_call1_v0) (TRef.of (T := ⟨S100000x128, .f32⟩) main_v42) maximumf,
    nullary main_cst_5 (constant S_ .f32 0x3E4CCCCD#32),
    unary main_cst_5 main_v43 (broadcastInDim S100000x128 ![] bcast_S_S100000x128 : (⟨S_, .f32⟩ : BufTy).Contents (Elt F) → (⟨S100000x128, .f32⟩ : BufTy).Contents (Elt F)),
    binary main_v43 main_v15 main_v44 (mulf : (⟨S100000x128, .f32⟩ : BufTy).Contents (Elt F) → (⟨S100000x128, .f32⟩ : BufTy).Contents (Elt F) → (⟨S100000x128, .f32⟩ : BufTy).Contents (Elt F)),
    binary main_v42 main_v44 main_v45 (addf : (⟨S100000x128, .f32⟩ : BufTy).Contents (Elt F) → (⟨S100000x128, .f32⟩ : BufTy).Contents (Elt F) → (⟨S100000x128, .f32⟩ : BufTy).Contents (Elt F)) ]

theorem opsB1_sub : (opsB1 : List (HloOp τ sig (Elt F))).Forall fun op => op.bufs ⊆ tcRefs τ sig :=
  ⟨unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., unary_bufs_sub .., binary_bufs_sub .., binary_bufs_sub .., unary_bufs_sub .., unary_bufs_sub .., binary_bufs_sub .., binary_bufs_sub .., binary_bufs_sub .., nullary_bufs_sub .., unary_bufs_sub .., binary_bufs_sub .., nullary_bufs_sub .., unary_bufs_sub .., binary_bufs_sub .., binary_bufs_sub ..⟩

/-- @main's operations 58 to 92: the second hidden update. -/
abbrev opsB2 : List (HloOp τ sig (Elt F)) :=
  [ unary main_arg4 main_v46 ((extractStridedSlice S1x128x128 ![1, 0, 0] · slices_S3x128x128_S1x128x128_1_0_0) : (⟨S3x128x128, .f32⟩ : BufTy).Contents (Elt F) → (⟨S1x128x128, .f32⟩ : BufTy).Contents (Elt F)),
    reshape main_v46 main_v47 rfl shapeCasts_S1x128x128_S128x128,
    unary main_arg5 main_v48 ((extractStridedSlice S1x128 ![1, 0] · slices_S3x128_S1x128_1_0) : (⟨S3x128, .f32⟩ : BufTy).Contents (Elt F) → (⟨S1x128, .f32⟩ : BufTy).Contents (Elt F)),
    reshape main_v48 main_v49 rfl shapeCasts_S1x128_S128,
    unary main_arg6 main_v50 ((extractStridedSlice S1x128x128 ![1, 0, 0] · slices_S3x128x128_S1x128x128_1_0_0) : (⟨S3x128x128, .f32⟩ : BufTy).Contents (Elt F) → (⟨S1x128x128, .f32⟩ : BufTy).Contents (Elt F)),
    reshape main_v50 main_v51 rfl shapeCasts_S1x128x128_S128x128,
    nullary main_c_6 (constantI S_ 32 0#32),
    unary main_c_6 main_v52 (broadcastInDim S1600000 ![] bcast_S_S1600000 : (⟨S_, .i32⟩ : BufTy).Contents (Elt F) → (⟨S1600000, .i32⟩ : BufTy).Contents (Elt F)),
    binary main_v1 main_v52 main_v53 (cmpi .slt : (⟨S1600000, .i32⟩ : BufTy).Contents (Elt F) → (⟨S1600000, .i32⟩ : BufTy).Contents (Elt F) → (⟨S1600000, .i1⟩ : BufTy).Contents (Elt F)),
    nullary main_c_7 (constantI S_ 32 100000#32),
    unary main_c_7 main_v54 (broadcastInDim S1600000 ![] bcast_S_S1600000 : (⟨S_, .i32⟩ : BufTy).Contents (Elt F) → (⟨S1600000, .i32⟩ : BufTy).Contents (Elt F)),
    binary main_v1 main_v54 main_v55 (addi : (⟨S1600000, .i32⟩ : BufTy).Contents (Elt F) → (⟨S1600000, .i32⟩ : BufTy).Contents (Elt F) → (⟨S1600000, .i32⟩ : BufTy).Contents (Elt F)),
    ternary main_v53 main_v55 main_v1 main_v56 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v56 main_v57 (broadcastInDim S1600000x1 ![0] bcast_S1600000_S1600000x1_0 : (⟨S1600000, .i32⟩ : BufTy).Contents (Elt F) → (⟨S1600000x1, .i32⟩ : BufTy).Contents (Elt F)),
    binary main_v45 main_v57 main_v58 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst_8 (constant S_ .f32 0x00000000#32),
    unary main_cst_8 main_v59 (broadcastInDim S100000x128 ![] bcast_S_S100000x128 : (⟨S_, .f32⟩ : BufTy).Contents (Elt F) → (⟨S100000x128, .f32⟩ : BufTy).Contents (Elt F)),
    unary main_v3 main_v60 (broadcastInDim S1600000x1 ![0] bcast_S1600000_S1600000x1_0 : (⟨S1600000, .i32⟩ : BufTy).Contents (Elt F) → (⟨S1600000x1, .i32⟩ : BufTy).Contents (Elt F)),
    ternary main_v59 main_v60 main_v58 main_v61 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    unary main_v11 main_v62 (broadcastInDim S100000x1 ![0] bcast_S100000_S100000x1_0 : (⟨S100000, .f32⟩ : BufTy).Contents (Elt F) → (⟨S100000x1, .f32⟩ : BufTy).Contents (Elt F)),
    unary main_v62 main_v63 (broadcastInDim S100000x128 ![0, 1] bcast_S100000x1_S100000x128_0_1 : (⟨S100000x1, .f32⟩ : BufTy).Contents (Elt F) → (⟨S100000x128, .f32⟩ : BufTy).Contents (Elt F)),
    binary main_v61 main_v63 main_v64 (mulf : (⟨S100000x128, .f32⟩ : BufTy).Contents (Elt F) → (⟨S100000x128, .f32⟩ : BufTy).Contents (Elt F) → (⟨S100000x128, .f32⟩ : BufTy).Contents (Elt F)),
    binary main_v64 main_v47 main_v65 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_v49 main_v66 (broadcastInDim S1x128 ![1] bcast_S128_S1x128_1 : (⟨S128, .f32⟩ : BufTy).Contents (Elt F) → (⟨S1x128, .f32⟩ : BufTy).Contents (Elt F)),
    unary main_v66 main_v67 (broadcastInDim S100000x128 ![0, 1] bcast_S1x128_S100000x128_0_1 : (⟨S1x128, .f32⟩ : BufTy).Contents (Elt F) → (⟨S100000x128, .f32⟩ : BufTy).Contents (Elt F)),
    binary main_v65 main_v67 main_v68 (addf : (⟨S100000x128, .f32⟩ : BufTy).Contents (Elt F) → (⟨S100000x128, .f32⟩ : BufTy).Contents (Elt F) → (⟨S100000x128, .f32⟩ : BufTy).Contents (Elt F)),
    binary main_v45 main_v51 main_v69 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v68 main_v69 main_v70 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S100000x128, .f32⟩) main_call2_v0) (broadcastInDim S100000x128 ![] bcast_S_S100000x128),
    TRef.binary (TRef.of (T := ⟨S100000x128, .f32⟩) main_v70) (TRef.of (T := ⟨S100000x128, .f32⟩) main_call2_v0) (TRef.of (T := ⟨S100000x128, .f32⟩) main_v71) maximumf,
    nullary main_cst_9 (constant S_ .f32 0x3E4CCCCD#32),
    unary main_cst_9 main_v72 (broadcastInDim S100000x128 ![] bcast_S_S100000x128 : (⟨S_, .f32⟩ : BufTy).Contents (Elt F) → (⟨S100000x128, .f32⟩ : BufTy).Contents (Elt F)),
    binary main_v72 main_v15 main_v73 (mulf : (⟨S100000x128, .f32⟩ : BufTy).Contents (Elt F) → (⟨S100000x128, .f32⟩ : BufTy).Contents (Elt F) → (⟨S100000x128, .f32⟩ : BufTy).Contents (Elt F)),
    binary main_v71 main_v73 main_v74 (addf : (⟨S100000x128, .f32⟩ : BufTy).Contents (Elt F) → (⟨S100000x128, .f32⟩ : BufTy).Contents (Elt F) → (⟨S100000x128, .f32⟩ : BufTy).Contents (Elt F)) ]

theorem opsB2_sub : (opsB2 : List (HloOp τ sig (Elt F))).Forall fun op => op.bufs ⊆ tcRefs τ sig :=
  ⟨unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., unary_bufs_sub .., binary_bufs_sub .., binary_bufs_sub .., unary_bufs_sub .., unary_bufs_sub .., binary_bufs_sub .., binary_bufs_sub .., binary_bufs_sub .., nullary_bufs_sub .., unary_bufs_sub .., binary_bufs_sub .., nullary_bufs_sub .., unary_bufs_sub .., binary_bufs_sub .., binary_bufs_sub ..⟩

/-- @main's operations 93 to 127: the third hidden update. -/
abbrev opsB3 : List (HloOp τ sig (Elt F)) :=
  [ unary main_arg4 main_v75 ((extractStridedSlice S1x128x128 ![2, 0, 0] · slices_S3x128x128_S1x128x128_2_0_0) : (⟨S3x128x128, .f32⟩ : BufTy).Contents (Elt F) → (⟨S1x128x128, .f32⟩ : BufTy).Contents (Elt F)),
    reshape main_v75 main_v76 rfl shapeCasts_S1x128x128_S128x128,
    unary main_arg5 main_v77 ((extractStridedSlice S1x128 ![2, 0] · slices_S3x128_S1x128_2_0) : (⟨S3x128, .f32⟩ : BufTy).Contents (Elt F) → (⟨S1x128, .f32⟩ : BufTy).Contents (Elt F)),
    reshape main_v77 main_v78 rfl shapeCasts_S1x128_S128,
    unary main_arg6 main_v79 ((extractStridedSlice S1x128x128 ![2, 0, 0] · slices_S3x128x128_S1x128x128_2_0_0) : (⟨S3x128x128, .f32⟩ : BufTy).Contents (Elt F) → (⟨S1x128x128, .f32⟩ : BufTy).Contents (Elt F)),
    reshape main_v79 main_v80 rfl shapeCasts_S1x128x128_S128x128,
    nullary main_c_10 (constantI S_ 32 0#32),
    unary main_c_10 main_v81 (broadcastInDim S1600000 ![] bcast_S_S1600000 : (⟨S_, .i32⟩ : BufTy).Contents (Elt F) → (⟨S1600000, .i32⟩ : BufTy).Contents (Elt F)),
    binary main_v1 main_v81 main_v82 (cmpi .slt : (⟨S1600000, .i32⟩ : BufTy).Contents (Elt F) → (⟨S1600000, .i32⟩ : BufTy).Contents (Elt F) → (⟨S1600000, .i1⟩ : BufTy).Contents (Elt F)),
    nullary main_c_11 (constantI S_ 32 100000#32),
    unary main_c_11 main_v83 (broadcastInDim S1600000 ![] bcast_S_S1600000 : (⟨S_, .i32⟩ : BufTy).Contents (Elt F) → (⟨S1600000, .i32⟩ : BufTy).Contents (Elt F)),
    binary main_v1 main_v83 main_v84 (addi : (⟨S1600000, .i32⟩ : BufTy).Contents (Elt F) → (⟨S1600000, .i32⟩ : BufTy).Contents (Elt F) → (⟨S1600000, .i32⟩ : BufTy).Contents (Elt F)),
    ternary main_v82 main_v84 main_v1 main_v85 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v85 main_v86 (broadcastInDim S1600000x1 ![0] bcast_S1600000_S1600000x1_0 : (⟨S1600000, .i32⟩ : BufTy).Contents (Elt F) → (⟨S1600000x1, .i32⟩ : BufTy).Contents (Elt F)),
    binary main_v74 main_v86 main_v87 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst_12 (constant S_ .f32 0x00000000#32),
    unary main_cst_12 main_v88 (broadcastInDim S100000x128 ![] bcast_S_S100000x128 : (⟨S_, .f32⟩ : BufTy).Contents (Elt F) → (⟨S100000x128, .f32⟩ : BufTy).Contents (Elt F)),
    unary main_v3 main_v89 (broadcastInDim S1600000x1 ![0] bcast_S1600000_S1600000x1_0 : (⟨S1600000, .i32⟩ : BufTy).Contents (Elt F) → (⟨S1600000x1, .i32⟩ : BufTy).Contents (Elt F)),
    ternary main_v88 main_v89 main_v87 main_v90 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    unary main_v11 main_v91 (broadcastInDim S100000x1 ![0] bcast_S100000_S100000x1_0 : (⟨S100000, .f32⟩ : BufTy).Contents (Elt F) → (⟨S100000x1, .f32⟩ : BufTy).Contents (Elt F)),
    unary main_v91 main_v92 (broadcastInDim S100000x128 ![0, 1] bcast_S100000x1_S100000x128_0_1 : (⟨S100000x1, .f32⟩ : BufTy).Contents (Elt F) → (⟨S100000x128, .f32⟩ : BufTy).Contents (Elt F)),
    binary main_v90 main_v92 main_v93 (mulf : (⟨S100000x128, .f32⟩ : BufTy).Contents (Elt F) → (⟨S100000x128, .f32⟩ : BufTy).Contents (Elt F) → (⟨S100000x128, .f32⟩ : BufTy).Contents (Elt F)),
    binary main_v93 main_v76 main_v94 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_v78 main_v95 (broadcastInDim S1x128 ![1] bcast_S128_S1x128_1 : (⟨S128, .f32⟩ : BufTy).Contents (Elt F) → (⟨S1x128, .f32⟩ : BufTy).Contents (Elt F)),
    unary main_v95 main_v96 (broadcastInDim S100000x128 ![0, 1] bcast_S1x128_S100000x128_0_1 : (⟨S1x128, .f32⟩ : BufTy).Contents (Elt F) → (⟨S100000x128, .f32⟩ : BufTy).Contents (Elt F)),
    binary main_v94 main_v96 main_v97 (addf : (⟨S100000x128, .f32⟩ : BufTy).Contents (Elt F) → (⟨S100000x128, .f32⟩ : BufTy).Contents (Elt F) → (⟨S100000x128, .f32⟩ : BufTy).Contents (Elt F)),
    binary main_v74 main_v80 main_v98 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v97 main_v98 main_v99 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S100000x128, .f32⟩) main_call3_v0) (broadcastInDim S100000x128 ![] bcast_S_S100000x128),
    TRef.binary (TRef.of (T := ⟨S100000x128, .f32⟩) main_v99) (TRef.of (T := ⟨S100000x128, .f32⟩) main_call3_v0) (TRef.of (T := ⟨S100000x128, .f32⟩) main_v100) maximumf,
    nullary main_cst_13 (constant S_ .f32 0x3E4CCCCD#32),
    unary main_cst_13 main_v101 (broadcastInDim S100000x128 ![] bcast_S_S100000x128 : (⟨S_, .f32⟩ : BufTy).Contents (Elt F) → (⟨S100000x128, .f32⟩ : BufTy).Contents (Elt F)),
    binary main_v101 main_v15 main_v102 (mulf : (⟨S100000x128, .f32⟩ : BufTy).Contents (Elt F) → (⟨S100000x128, .f32⟩ : BufTy).Contents (Elt F) → (⟨S100000x128, .f32⟩ : BufTy).Contents (Elt F)),
    binary main_v100 main_v102 main_v103 (addf : (⟨S100000x128, .f32⟩ : BufTy).Contents (Elt F) → (⟨S100000x128, .f32⟩ : BufTy).Contents (Elt F) → (⟨S100000x128, .f32⟩ : BufTy).Contents (Elt F)) ]

theorem opsB3_sub : (opsB3 : List (HloOp τ sig (Elt F))).Forall fun op => op.bufs ⊆ tcRefs τ sig :=
  ⟨unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., unary_bufs_sub .., binary_bufs_sub .., binary_bufs_sub .., unary_bufs_sub .., unary_bufs_sub .., binary_bufs_sub .., binary_bufs_sub .., binary_bufs_sub .., nullary_bufs_sub .., unary_bufs_sub .., binary_bufs_sub .., nullary_bufs_sub .., unary_bufs_sub .., binary_bufs_sub .., binary_bufs_sub ..⟩

/-- @main's operations 128 to 149: the last aggregation and the logits. -/
abbrev opsC : List (HloOp τ sig (Elt F)) :=
  [ nullary main_c_14 (constantI S_ 32 0#32),
    unary main_c_14 main_v104 (broadcastInDim S1600000 ![] bcast_S_S1600000 : (⟨S_, .i32⟩ : BufTy).Contents (Elt F) → (⟨S1600000, .i32⟩ : BufTy).Contents (Elt F)),
    binary main_v1 main_v104 main_v105 (cmpi .slt : (⟨S1600000, .i32⟩ : BufTy).Contents (Elt F) → (⟨S1600000, .i32⟩ : BufTy).Contents (Elt F) → (⟨S1600000, .i1⟩ : BufTy).Contents (Elt F)),
    nullary main_c_15 (constantI S_ 32 100000#32),
    unary main_c_15 main_v106 (broadcastInDim S1600000 ![] bcast_S_S1600000 : (⟨S_, .i32⟩ : BufTy).Contents (Elt F) → (⟨S1600000, .i32⟩ : BufTy).Contents (Elt F)),
    binary main_v1 main_v106 main_v107 (addi : (⟨S1600000, .i32⟩ : BufTy).Contents (Elt F) → (⟨S1600000, .i32⟩ : BufTy).Contents (Elt F) → (⟨S1600000, .i32⟩ : BufTy).Contents (Elt F)),
    ternary main_v105 main_v107 main_v1 main_v108 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v108 main_v109 (broadcastInDim S1600000x1 ![0] bcast_S1600000_S1600000x1_0 : (⟨S1600000, .i32⟩ : BufTy).Contents (Elt F) → (⟨S1600000x1, .i32⟩ : BufTy).Contents (Elt F)),
    binary main_v103 main_v109 main_v110 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst_16 (constant S_ .f32 0x00000000#32),
    unary main_cst_16 main_v111 (broadcastInDim S100000x128 ![] bcast_S_S100000x128 : (⟨S_, .f32⟩ : BufTy).Contents (Elt F) → (⟨S100000x128, .f32⟩ : BufTy).Contents (Elt F)),
    unary main_v3 main_v112 (broadcastInDim S1600000x1 ![0] bcast_S1600000_S1600000x1_0 : (⟨S1600000, .i32⟩ : BufTy).Contents (Elt F) → (⟨S1600000x1, .i32⟩ : BufTy).Contents (Elt F)),
    ternary main_v111 main_v112 main_v110 main_v113 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    unary main_v11 main_v114 (broadcastInDim S100000x1 ![0] bcast_S100000_S100000x1_0 : (⟨S100000, .f32⟩ : BufTy).Contents (Elt F) → (⟨S100000x1, .f32⟩ : BufTy).Contents (Elt F)),
    unary main_v114 main_v115 (broadcastInDim S100000x128 ![0, 1] bcast_S100000x1_S100000x128_0_1 : (⟨S100000x1, .f32⟩ : BufTy).Contents (Elt F) → (⟨S100000x128, .f32⟩ : BufTy).Contents (Elt F)),
    binary main_v113 main_v115 main_v116 (mulf : (⟨S100000x128, .f32⟩ : BufTy).Contents (Elt F) → (⟨S100000x128, .f32⟩ : BufTy).Contents (Elt F) → (⟨S100000x128, .f32⟩ : BufTy).Contents (Elt F)),
    binary main_v116 main_arg7 main_v117 ((fun l r => Host.dotGeneral dot_S100000x128_S128x47_S100000x47_1_0_0_1_n_n none l r) : (⟨S100000x128, .f32⟩ : BufTy).Contents (Elt F) → (⟨S128x47, .f32⟩ : BufTy).Contents (Elt F) → (⟨S100000x47, .f32⟩ : BufTy).Contents (Elt F)),
    unary main_arg8 main_v118 (broadcastInDim S1x47 ![1] bcast_S47_S1x47_1 : (⟨S47, .f32⟩ : BufTy).Contents (Elt F) → (⟨S1x47, .f32⟩ : BufTy).Contents (Elt F)),
    unary main_v118 main_v119 (broadcastInDim S100000x47 ![0, 1] bcast_S1x47_S100000x47_0_1 : (⟨S1x47, .f32⟩ : BufTy).Contents (Elt F) → (⟨S100000x47, .f32⟩ : BufTy).Contents (Elt F)),
    binary main_v117 main_v119 main_v120 (addf : (⟨S100000x47, .f32⟩ : BufTy).Contents (Elt F) → (⟨S100000x47, .f32⟩ : BufTy).Contents (Elt F) → (⟨S100000x47, .f32⟩ : BufTy).Contents (Elt F)),
    binary main_v103 main_arg9 main_v121 ((fun l r => Host.dotGeneral dot_S100000x128_S128x47_S100000x47_1_0_0_1_n_n none l r) : (⟨S100000x128, .f32⟩ : BufTy).Contents (Elt F) → (⟨S128x47, .f32⟩ : BufTy).Contents (Elt F) → (⟨S100000x47, .f32⟩ : BufTy).Contents (Elt F)),
    binary main_v120 main_v121 main_v122 (addf : (⟨S100000x47, .f32⟩ : BufTy).Contents (Elt F) → (⟨S100000x47, .f32⟩ : BufTy).Contents (Elt F) → (⟨S100000x47, .f32⟩ : BufTy).Contents (Elt F)) ]

theorem opsC_sub : (opsC : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., unary_bufs_sub .., binary_bufs_sub .., binary_bufs_sub .., unary_bufs_sub .., unary_bufs_sub .., binary_bufs_sub .., binary_bufs_sub .., binary_bufs_sub ..⟩

/-- @main's operations 150 to 164: the logits' row-wise log-softmax. -/
abbrev opsD : List (HloOp τ sig (Elt F)) :=
  [ TRef.nullary (TRef.of (T := ⟨S_, .f32⟩) main_call4_cst) (constant S_ .f32 0xFF800000#32),
    TRef.binary (TRef.of (T := ⟨S100000x47, .f32⟩) main_v122) (TRef.of (T := ⟨S_, .f32⟩) main_call4_cst) (TRef.of (T := ⟨S100000, .f32⟩) main_call4_v0) (fun x v => Host.reduce FloatOps.maximumf x v reducesTo_S100000x47_S100000_d1 h_S_),
    TRef.nullary (TRef.of (T := ⟨S_, .f32⟩) main_call4_cst_0) (constant S_ .f32 0xFF800000#32),
    TRef.unary (TRef.of (T := ⟨S_, .f32⟩) main_call4_cst_0) (TRef.of (T := ⟨S100000, .f32⟩) main_call4_v1) (broadcastInDim S100000 ![] bcast_S_S100000),
    TRef.binary (TRef.of (T := ⟨S100000, .f32⟩) main_call4_v1) (TRef.of (T := ⟨S100000, .f32⟩) main_call4_v0) (TRef.of (T := ⟨S100000, .f32⟩) main_call4_v2) maximumf,
    TRef.unary (TRef.of (T := ⟨S100000, .f32⟩) main_call4_v2) (TRef.of (T := ⟨S100000x1, .f32⟩) main_call4_v3) (broadcastInDim S100000x1 ![0] bcast_S100000_S100000x1_0),
    TRef.unary (TRef.of (T := ⟨S100000x1, .f32⟩) main_call4_v3) (TRef.of (T := ⟨S100000x47, .f32⟩) main_call4_v4) (broadcastInDim S100000x47 ![0, 1] bcast_S100000x1_S100000x47_0_1),
    TRef.binary (TRef.of (T := ⟨S100000x47, .f32⟩) main_v122) (TRef.of (T := ⟨S100000x47, .f32⟩) main_call4_v4) (TRef.of (T := ⟨S100000x47, .f32⟩) main_call4_v5) subf,
    TRef.unary (TRef.of (T := ⟨S100000x47, .f32⟩) main_call4_v5) (TRef.of (T := ⟨S100000x47, .f32⟩) main_call4_v6) Host.exp,
    TRef.nullary (TRef.of (T := ⟨S_, .f32⟩) main_call4_cst_1) (constant S_ .f32 0x00000000#32),
    TRef.binary (TRef.of (T := ⟨S100000x47, .f32⟩) main_call4_v6) (TRef.of (T := ⟨S_, .f32⟩) main_call4_cst_1) (TRef.of (T := ⟨S100000, .f32⟩) main_call4_v7) (fun x v => Host.reduceAdd x v reducesTo_S100000x47_S100000_d1 h_S_),
    TRef.unary (TRef.of (T := ⟨S100000, .f32⟩) main_call4_v7) (TRef.of (T := ⟨S100000x1, .f32⟩) main_call4_v8) (broadcastInDim S100000x1 ![0] bcast_S100000_S100000x1_0),
    TRef.unary (TRef.of (T := ⟨S100000x1, .f32⟩) main_call4_v8) (TRef.of (T := ⟨S100000x1, .f32⟩) main_call4_v9) Host.log,
    TRef.unary (TRef.of (T := ⟨S100000x1, .f32⟩) main_call4_v9) (TRef.of (T := ⟨S100000x47, .f32⟩) main_call4_v10) (broadcastInDim S100000x47 ![0, 1] bcast_S100000x1_S100000x47_0_1),
    TRef.binary (TRef.of (T := ⟨S100000x47, .f32⟩) main_call4_v5) (TRef.of (T := ⟨S100000x47, .f32⟩) main_call4_v10) (TRef.of (T := ⟨S100000x47, .f32⟩) main_v123) subf ]

theorem opsD_sub : (opsD : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

/-- @main's 165 operations, in order: the six stretches one after the other. -/
abbrev ops : List (HloOp τ sig (Elt F)) := opsA ++ opsB1 ++ opsB2 ++ opsB3 ++ opsC ++ opsD

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide

/-- A property of every operation of two lists holds of every operation of their concatenation. -/
theorem forall_append {α : Type} {p : α → Prop} : ∀ {l₁ l₂ : List α}, l₁.Forall p → l₂.Forall p → (l₁ ++ l₂).Forall p := by
  intro l₁ l₂ h₁ h₂
  rw [List.forall_iff_forall_mem] at *
  intro x hx
  rcases List.mem_append.1 hx with h | h
  · exact h₁ x h
  · exact h₂ x h

theorem ops_sub : (ops : List (HloOp τ sig (Elt F))).Forall fun op => op.bufs ⊆ tcRefs τ sig :=
  forall_append (forall_append (forall_append (forall_append (forall_append opsA_sub opsB1_sub) opsB2_sub) opsB3_sub) opsC_sub) opsD_sub

/-- The contents after two lines in a row are those after the second, started from those after the first. -/
theorem after_append' : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_append' l₁ l₂]

/-- The contents after the whole line, stretch by stretch. -/
theorem after_ops (V : Valuation τ sig (Elt F)) :
    after ops V = after opsD (after opsC (after opsB3 (after opsB2 (after opsB1 (after opsA V))))) := by
  rw [after_append', after_append', after_append', after_append', after_append']

end Cert.ReferenceIdeal.RefValue

end
-- ==== Proof.RefStretchA.lean ====
/-
  The preparation stretch of the reference program, read as the network's named values.

  From any contents `V` of the buffers, after the stretch the buffers hold: the edge list's two rows, the reciprocal
  in-degree, the input projection and its rectified copy, each as the network function of the arguments' contents
  in `V`; the arguments themselves are left as they were.
-/
import proofs.«171517_j47004122087951_1_alg».proof.Proof.RefOps
import proofs.«171517_j47004122087951_1_alg».proof.Proof.Spec

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

theorem A_v1 (V : Valuation τ sig (Elt F)) : after opsA V (Proc.devRef .tc main_v1 : DevRef τ sig) = Cert.Spec.src (V (Proc.devRef .tc main_arg1 : DevRef τ sig)) := by
  after_results
  rfl
theorem A_v3 (V : Valuation τ sig (Elt F)) : after opsA V (Proc.devRef .tc main_v3 : DevRef τ sig) = Cert.Spec.dst (V (Proc.devRef .tc main_arg1 : DevRef τ sig)) := by
  after_results
  rfl
theorem A_v11 (V : Valuation τ sig (Elt F)) : after opsA V (Proc.devRef .tc main_v11 : DevRef τ sig) = Cert.Spec.degInv (V (Proc.devRef .tc main_arg1 : DevRef τ sig)) := by
  after_results
  rfl
theorem A_v15 (V : Valuation τ sig (Elt F)) :
    after opsA V (Proc.devRef .tc main_v15 : DevRef τ sig) = Cert.Spec.inp (V (Proc.devRef .tc main_arg0 : DevRef τ sig)) (V (Proc.devRef .tc main_arg2 : DevRef τ sig)) (V (Proc.devRef .tc main_arg3 : DevRef τ sig)) := by
  after_results
  rfl
theorem A_v16 (V : Valuation τ sig (Elt F)) :
    after opsA V (Proc.devRef .tc main_v16 : DevRef τ sig) = Cert.Spec.h0 (V (Proc.devRef .tc main_arg0 : DevRef τ sig)) (V (Proc.devRef .tc main_arg2 : DevRef τ sig)) (V (Proc.devRef .tc main_arg3 : DevRef τ sig)) := by
  after_results
  rfl
theorem A_arg0 (V : Valuation τ sig (Elt F)) : after opsA V (Proc.devRef .tc main_arg0 : DevRef τ sig) = V (Proc.devRef .tc main_arg0 : DevRef τ sig) := by
  after_results
theorem A_arg1 (V : Valuation τ sig (Elt F)) : after opsA V (Proc.devRef .tc main_arg1 : DevRef τ sig) = V (Proc.devRef .tc main_arg1 : DevRef τ sig) := by
  after_results
theorem A_arg2 (V : Valuation τ sig (Elt F)) : after opsA V (Proc.devRef .tc main_arg2 : DevRef τ sig) = V (Proc.devRef .tc main_arg2 : DevRef τ sig) := by
  after_results
theorem A_arg3 (V : Valuation τ sig (Elt F)) : after opsA V (Proc.devRef .tc main_arg3 : DevRef τ sig) = V (Proc.devRef .tc main_arg3 : DevRef τ sig) := by
  after_results
theorem A_arg4 (V : Valuation τ sig (Elt F)) : after opsA V (Proc.devRef .tc main_arg4 : DevRef τ sig) = V (Proc.devRef .tc main_arg4 : DevRef τ sig) := by
  after_results
theorem A_arg5 (V : Valuation τ sig (Elt F)) : after opsA V (Proc.devRef .tc main_arg5 : DevRef τ sig) = V (Proc.devRef .tc main_arg5 : DevRef τ sig) := by
  after_results
theorem A_arg6 (V : Valuation τ sig (Elt F)) : after opsA V (Proc.devRef .tc main_arg6 : DevRef τ sig) = V (Proc.devRef .tc main_arg6 : DevRef τ sig) := by
  after_results
theorem A_arg7 (V : Valuation τ sig (Elt F)) : after opsA V (Proc.devRef .tc main_arg7 : DevRef τ sig) = V (Proc.devRef .tc main_arg7 : DevRef τ sig) := by
  after_results
theorem A_arg8 (V : Valuation τ sig (Elt F)) : after opsA V (Proc.devRef .tc main_arg8 : DevRef τ sig) = V (Proc.devRef .tc main_arg8 : DevRef τ sig) := by
  after_results
theorem A_arg9 (V : Valuation τ sig (Elt F)) : after opsA V (Proc.devRef .tc main_arg9 : DevRef τ sig) = V (Proc.devRef .tc main_arg9 : DevRef τ sig) := by
  after_results

end Cert.ReferenceIdeal.RefValue

end
-- ==== Proof.RefStretchB1.lean ====
/-
  The first hidden update of the reference program, read as the network's update.

  From any contents `V` of the buffers in which the edge list's rows and the reciprocal in-degree are those of an edge
  list `ei`, after the stretch the new hidden state is the network's update of the old one, the input projection and
  the stacked weights' slab; the carried values and the arguments are left as they were.
-/
import proofs.«171517_j47004122087951_1_alg».proof.Proof.RefOps
import proofs.«171517_j47004122087951_1_alg».proof.Proof.Spec

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
theorem B1_v45 (V : Valuation τ sig (Elt F)) (ei : Cert.Spec.Arr F S2x1600000 .i32)
    (h1 : V (Proc.devRef .tc main_v1 : DevRef τ sig) = Cert.Spec.src ei) (h3 : V (Proc.devRef .tc main_v3 : DevRef τ sig) = Cert.Spec.dst ei)
    (h11 : V (Proc.devRef .tc main_v11 : DevRef τ sig) = Cert.Spec.degInv ei) :
    after opsB1 V (Proc.devRef .tc main_v45 : DevRef τ sig)
      = Cert.Spec.upd (Cert.Spec.agg (V (Proc.devRef .tc main_v16 : DevRef τ sig)) ei) (V (Proc.devRef .tc main_v16 : DevRef τ sig)) (V (Proc.devRef .tc main_v15 : DevRef τ sig))
          (Cert.Spec.wl0 (V (Proc.devRef .tc main_arg4 : DevRef τ sig))) (Cert.Spec.bl0 (V (Proc.devRef .tc main_arg5 : DevRef τ sig))) (Cert.Spec.wl0 (V (Proc.devRef .tc main_arg6 : DevRef τ sig))) := by
  after_results_simp
  rw [h1, h3, h11]
  rfl
theorem B1_v1 (V : Valuation τ sig (Elt F)) : after opsB1 V (Proc.devRef .tc main_v1 : DevRef τ sig) = V (Proc.devRef .tc main_v1 : DevRef τ sig) := by
  after_results
theorem B1_v3 (V : Valuation τ sig (Elt F)) : after opsB1 V (Proc.devRef .tc main_v3 : DevRef τ sig) = V (Proc.devRef .tc main_v3 : DevRef τ sig) := by
  after_results
theorem B1_v11 (V : Valuation τ sig (Elt F)) : after opsB1 V (Proc.devRef .tc main_v11 : DevRef τ sig) = V (Proc.devRef .tc main_v11 : DevRef τ sig) := by
  after_results
theorem B1_v15 (V : Valuation τ sig (Elt F)) : after opsB1 V (Proc.devRef .tc main_v15 : DevRef τ sig) = V (Proc.devRef .tc main_v15 : DevRef τ sig) := by
  after_results
theorem B1_arg0 (V : Valuation τ sig (Elt F)) : after opsB1 V (Proc.devRef .tc main_arg0 : DevRef τ sig) = V (Proc.devRef .tc main_arg0 : DevRef τ sig) := by
  after_results
theorem B1_arg1 (V : Valuation τ sig (Elt F)) : after opsB1 V (Proc.devRef .tc main_arg1 : DevRef τ sig) = V (Proc.devRef .tc main_arg1 : DevRef τ sig) := by
  after_results
theorem B1_arg2 (V : Valuation τ sig (Elt F)) : after opsB1 V (Proc.devRef .tc main_arg2 : DevRef τ sig) = V (Proc.devRef .tc main_arg2 : DevRef τ sig) := by
  after_results
theorem B1_arg3 (V : Valuation τ sig (Elt F)) : after opsB1 V (Proc.devRef .tc main_arg3 : DevRef τ sig) = V (Proc.devRef .tc main_arg3 : DevRef τ sig) := by
  after_results
theorem B1_arg4 (V : Valuation τ sig (Elt F)) : after opsB1 V (Proc.devRef .tc main_arg4 : DevRef τ sig) = V (Proc.devRef .tc main_arg4 : DevRef τ sig) := by
  after_results
theorem B1_arg5 (V : Valuation τ sig (Elt F)) : after opsB1 V (Proc.devRef .tc main_arg5 : DevRef τ sig) = V (Proc.devRef .tc main_arg5 : DevRef τ sig) := by
  after_results
theorem B1_arg6 (V : Valuation τ sig (Elt F)) : after opsB1 V (Proc.devRef .tc main_arg6 : DevRef τ sig) = V (Proc.devRef .tc main_arg6 : DevRef τ sig) := by
  after_results
theorem B1_arg7 (V : Valuation τ sig (Elt F)) : after opsB1 V (Proc.devRef .tc main_arg7 : DevRef τ sig) = V (Proc.devRef .tc main_arg7 : DevRef τ sig) := by
  after_results
theorem B1_arg8 (V : Valuation τ sig (Elt F)) : after opsB1 V (Proc.devRef .tc main_arg8 : DevRef τ sig) = V (Proc.devRef .tc main_arg8 : DevRef τ sig) := by
  after_results
theorem B1_arg9 (V : Valuation τ sig (Elt F)) : after opsB1 V (Proc.devRef .tc main_arg9 : DevRef τ sig) = V (Proc.devRef .tc main_arg9 : DevRef τ sig) := by
  after_results

end Cert.ReferenceIdeal.RefValue

end
-- ==== Proof.RefStretchB2.lean ====
/-
  The second hidden update of the reference program, read as the network's update.

  From any contents `V` of the buffers in which the edge list's rows and the reciprocal in-degree are those of an edge
  list `ei`, after the stretch the new hidden state is the network's update of the old one, the input projection and
  the stacked weights' slab; the carried values and the arguments are left as they were.
-/
import proofs.«171517_j47004122087951_1_alg».proof.Proof.RefOps
import proofs.«171517_j47004122087951_1_alg».proof.Proof.Spec

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
theorem B2_v74 (V : Valuation τ sig (Elt F)) (ei : Cert.Spec.Arr F S2x1600000 .i32)
    (h1 : V (Proc.devRef .tc main_v1 : DevRef τ sig) = Cert.Spec.src ei) (h3 : V (Proc.devRef .tc main_v3 : DevRef τ sig) = Cert.Spec.dst ei)
    (h11 : V (Proc.devRef .tc main_v11 : DevRef τ sig) = Cert.Spec.degInv ei) :
    after opsB2 V (Proc.devRef .tc main_v74 : DevRef τ sig)
      = Cert.Spec.upd (Cert.Spec.agg (V (Proc.devRef .tc main_v45 : DevRef τ sig)) ei) (V (Proc.devRef .tc main_v45 : DevRef τ sig)) (V (Proc.devRef .tc main_v15 : DevRef τ sig))
          (Cert.Spec.wl1 (V (Proc.devRef .tc main_arg4 : DevRef τ sig))) (Cert.Spec.bl1 (V (Proc.devRef .tc main_arg5 : DevRef τ sig))) (Cert.Spec.wl1 (V (Proc.devRef .tc main_arg6 : DevRef τ sig))) := by
  after_results_simp
  rw [h1, h3, h11]
  rfl
theorem B2_v1 (V : Valuation τ sig (Elt F)) : after opsB2 V (Proc.devRef .tc main_v1 : DevRef τ sig) = V (Proc.devRef .tc main_v1 : DevRef τ sig) := by
  after_results
theorem B2_v3 (V : Valuation τ sig (Elt F)) : after opsB2 V (Proc.devRef .tc main_v3 : DevRef τ sig) = V (Proc.devRef .tc main_v3 : DevRef τ sig) := by
  after_results
theorem B2_v11 (V : Valuation τ sig (Elt F)) : after opsB2 V (Proc.devRef .tc main_v11 : DevRef τ sig) = V (Proc.devRef .tc main_v11 : DevRef τ sig) := by
  after_results
theorem B2_v15 (V : Valuation τ sig (Elt F)) : after opsB2 V (Proc.devRef .tc main_v15 : DevRef τ sig) = V (Proc.devRef .tc main_v15 : DevRef τ sig) := by
  after_results
theorem B2_arg0 (V : Valuation τ sig (Elt F)) : after opsB2 V (Proc.devRef .tc main_arg0 : DevRef τ sig) = V (Proc.devRef .tc main_arg0 : DevRef τ sig) := by
  after_results
theorem B2_arg1 (V : Valuation τ sig (Elt F)) : after opsB2 V (Proc.devRef .tc main_arg1 : DevRef τ sig) = V (Proc.devRef .tc main_arg1 : DevRef τ sig) := by
  after_results
theorem B2_arg2 (V : Valuation τ sig (Elt F)) : after opsB2 V (Proc.devRef .tc main_arg2 : DevRef τ sig) = V (Proc.devRef .tc main_arg2 : DevRef τ sig) := by
  after_results
theorem B2_arg3 (V : Valuation τ sig (Elt F)) : after opsB2 V (Proc.devRef .tc main_arg3 : DevRef τ sig) = V (Proc.devRef .tc main_arg3 : DevRef τ sig) := by
  after_results
theorem B2_arg4 (V : Valuation τ sig (Elt F)) : after opsB2 V (Proc.devRef .tc main_arg4 : DevRef τ sig) = V (Proc.devRef .tc main_arg4 : DevRef τ sig) := by
  after_results
theorem B2_arg5 (V : Valuation τ sig (Elt F)) : after opsB2 V (Proc.devRef .tc main_arg5 : DevRef τ sig) = V (Proc.devRef .tc main_arg5 : DevRef τ sig) := by
  after_results
theorem B2_arg6 (V : Valuation τ sig (Elt F)) : after opsB2 V (Proc.devRef .tc main_arg6 : DevRef τ sig) = V (Proc.devRef .tc main_arg6 : DevRef τ sig) := by
  after_results
theorem B2_arg7 (V : Valuation τ sig (Elt F)) : after opsB2 V (Proc.devRef .tc main_arg7 : DevRef τ sig) = V (Proc.devRef .tc main_arg7 : DevRef τ sig) := by
  after_results
theorem B2_arg8 (V : Valuation τ sig (Elt F)) : after opsB2 V (Proc.devRef .tc main_arg8 : DevRef τ sig) = V (Proc.devRef .tc main_arg8 : DevRef τ sig) := by
  after_results
theorem B2_arg9 (V : Valuation τ sig (Elt F)) : after opsB2 V (Proc.devRef .tc main_arg9 : DevRef τ sig) = V (Proc.devRef .tc main_arg9 : DevRef τ sig) := by
  after_results

end Cert.ReferenceIdeal.RefValue

end
-- ==== Proof.RefStretchB3.lean ====
/-
  The third hidden update of the reference program, read as the network's update.

  From any contents `V` of the buffers in which the edge list's rows and the reciprocal in-degree are those of an edge
  list `ei`, after the stretch the new hidden state is the network's update of the old one, the input projection and
  the stacked weights' slab; the carried values and the arguments are left as they were.
-/
import proofs.«171517_j47004122087951_1_alg».proof.Proof.RefOps
import proofs.«171517_j47004122087951_1_alg».proof.Proof.Spec

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
theorem B3_v103 (V : Valuation τ sig (Elt F)) (ei : Cert.Spec.Arr F S2x1600000 .i32)
    (h1 : V (Proc.devRef .tc main_v1 : DevRef τ sig) = Cert.Spec.src ei) (h3 : V (Proc.devRef .tc main_v3 : DevRef τ sig) = Cert.Spec.dst ei)
    (h11 : V (Proc.devRef .tc main_v11 : DevRef τ sig) = Cert.Spec.degInv ei) :
    after opsB3 V (Proc.devRef .tc main_v103 : DevRef τ sig)
      = Cert.Spec.upd (Cert.Spec.agg (V (Proc.devRef .tc main_v74 : DevRef τ sig)) ei) (V (Proc.devRef .tc main_v74 : DevRef τ sig)) (V (Proc.devRef .tc main_v15 : DevRef τ sig))
          (Cert.Spec.wl2 (V (Proc.devRef .tc main_arg4 : DevRef τ sig))) (Cert.Spec.bl2 (V (Proc.devRef .tc main_arg5 : DevRef τ sig))) (Cert.Spec.wl2 (V (Proc.devRef .tc main_arg6 : DevRef τ sig))) := by
  after_results_simp
  rw [h1, h3, h11]
  rfl
theorem B3_v1 (V : Valuation τ sig (Elt F)) : after opsB3 V (Proc.devRef .tc main_v1 : DevRef τ sig) = V (Proc.devRef .tc main_v1 : DevRef τ sig) := by
  after_results
theorem B3_v3 (V : Valuation τ sig (Elt F)) : after opsB3 V (Proc.devRef .tc main_v3 : DevRef τ sig) = V (Proc.devRef .tc main_v3 : DevRef τ sig) := by
  after_results
theorem B3_v11 (V : Valuation τ sig (Elt F)) : after opsB3 V (Proc.devRef .tc main_v11 : DevRef τ sig) = V (Proc.devRef .tc main_v11 : DevRef τ sig) := by
  after_results
theorem B3_v15 (V : Valuation τ sig (Elt F)) : after opsB3 V (Proc.devRef .tc main_v15 : DevRef τ sig) = V (Proc.devRef .tc main_v15 : DevRef τ sig) := by
  after_results
theorem B3_arg0 (V : Valuation τ sig (Elt F)) : after opsB3 V (Proc.devRef .tc main_arg0 : DevRef τ sig) = V (Proc.devRef .tc main_arg0 : DevRef τ sig) := by
  after_results
theorem B3_arg1 (V : Valuation τ sig (Elt F)) : after opsB3 V (Proc.devRef .tc main_arg1 : DevRef τ sig) = V (Proc.devRef .tc main_arg1 : DevRef τ sig) := by
  after_results
theorem B3_arg2 (V : Valuation τ sig (Elt F)) : after opsB3 V (Proc.devRef .tc main_arg2 : DevRef τ sig) = V (Proc.devRef .tc main_arg2 : DevRef τ sig) := by
  after_results
theorem B3_arg3 (V : Valuation τ sig (Elt F)) : after opsB3 V (Proc.devRef .tc main_arg3 : DevRef τ sig) = V (Proc.devRef .tc main_arg3 : DevRef τ sig) := by
  after_results
theorem B3_arg4 (V : Valuation τ sig (Elt F)) : after opsB3 V (Proc.devRef .tc main_arg4 : DevRef τ sig) = V (Proc.devRef .tc main_arg4 : DevRef τ sig) := by
  after_results
theorem B3_arg5 (V : Valuation τ sig (Elt F)) : after opsB3 V (Proc.devRef .tc main_arg5 : DevRef τ sig) = V (Proc.devRef .tc main_arg5 : DevRef τ sig) := by
  after_results
theorem B3_arg6 (V : Valuation τ sig (Elt F)) : after opsB3 V (Proc.devRef .tc main_arg6 : DevRef τ sig) = V (Proc.devRef .tc main_arg6 : DevRef τ sig) := by
  after_results
theorem B3_arg7 (V : Valuation τ sig (Elt F)) : after opsB3 V (Proc.devRef .tc main_arg7 : DevRef τ sig) = V (Proc.devRef .tc main_arg7 : DevRef τ sig) := by
  after_results
theorem B3_arg8 (V : Valuation τ sig (Elt F)) : after opsB3 V (Proc.devRef .tc main_arg8 : DevRef τ sig) = V (Proc.devRef .tc main_arg8 : DevRef τ sig) := by
  after_results
theorem B3_arg9 (V : Valuation τ sig (Elt F)) : after opsB3 V (Proc.devRef .tc main_arg9 : DevRef τ sig) = V (Proc.devRef .tc main_arg9 : DevRef τ sig) := by
  after_results

end Cert.ReferenceIdeal.RefValue

end
-- ==== Proof.RefStretchC.lean ====
/-
  The logits stretch of the reference program, read as the network's logits.

  From any contents `V` of the buffers in which the edge list's rows and the reciprocal in-degree are those of an edge
  list `ei`, after the stretch the logits buffer holds the network's logits of the last hidden state and its mean
  aggregation; the arguments are left as they were.
-/
import proofs.«171517_j47004122087951_1_alg».proof.Proof.RefOps
import proofs.«171517_j47004122087951_1_alg».proof.Proof.Spec

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
theorem C_v122 (V : Valuation τ sig (Elt F)) (ei : Cert.Spec.Arr F S2x1600000 .i32)
    (h1 : V (Proc.devRef .tc main_v1 : DevRef τ sig) = Cert.Spec.src ei) (h3 : V (Proc.devRef .tc main_v3 : DevRef τ sig) = Cert.Spec.dst ei)
    (h11 : V (Proc.devRef .tc main_v11 : DevRef τ sig) = Cert.Spec.degInv ei) :
    after opsC V (Proc.devRef .tc main_v122 : DevRef τ sig)
      = Cert.Spec.logits (Cert.Spec.agg (V (Proc.devRef .tc main_v103 : DevRef τ sig)) ei) (V (Proc.devRef .tc main_v103 : DevRef τ sig))
          (V (Proc.devRef .tc main_arg7 : DevRef τ sig)) (V (Proc.devRef .tc main_arg8 : DevRef τ sig)) (V (Proc.devRef .tc main_arg9 : DevRef τ sig)) := by
  after_results_simp
  rw [h1, h3, h11]
  rfl
theorem C_arg0 (V : Valuation τ sig (Elt F)) : after opsC V (Proc.devRef .tc main_arg0 : DevRef τ sig) = V (Proc.devRef .tc main_arg0 : DevRef τ sig) := by
  after_results
theorem C_arg1 (V : Valuation τ sig (Elt F)) : after opsC V (Proc.devRef .tc main_arg1 : DevRef τ sig) = V (Proc.devRef .tc main_arg1 : DevRef τ sig) := by
  after_results
theorem C_arg2 (V : Valuation τ sig (Elt F)) : after opsC V (Proc.devRef .tc main_arg2 : DevRef τ sig) = V (Proc.devRef .tc main_arg2 : DevRef τ sig) := by
  after_results
theorem C_arg3 (V : Valuation τ sig (Elt F)) : after opsC V (Proc.devRef .tc main_arg3 : DevRef τ sig) = V (Proc.devRef .tc main_arg3 : DevRef τ sig) := by
  after_results
theorem C_arg4 (V : Valuation τ sig (Elt F)) : after opsC V (Proc.devRef .tc main_arg4 : DevRef τ sig) = V (Proc.devRef .tc main_arg4 : DevRef τ sig) := by
  after_results
theorem C_arg5 (V : Valuation τ sig (Elt F)) : after opsC V (Proc.devRef .tc main_arg5 : DevRef τ sig) = V (Proc.devRef .tc main_arg5 : DevRef τ sig) := by
  after_results
theorem C_arg6 (V : Valuation τ sig (Elt F)) : after opsC V (Proc.devRef .tc main_arg6 : DevRef τ sig) = V (Proc.devRef .tc main_arg6 : DevRef τ sig) := by
  after_results
theorem C_arg7 (V : Valuation τ sig (Elt F)) : after opsC V (Proc.devRef .tc main_arg7 : DevRef τ sig) = V (Proc.devRef .tc main_arg7 : DevRef τ sig) := by
  after_results
theorem C_arg8 (V : Valuation τ sig (Elt F)) : after opsC V (Proc.devRef .tc main_arg8 : DevRef τ sig) = V (Proc.devRef .tc main_arg8 : DevRef τ sig) := by
  after_results
theorem C_arg9 (V : Valuation τ sig (Elt F)) : after opsC V (Proc.devRef .tc main_arg9 : DevRef τ sig) = V (Proc.devRef .tc main_arg9 : DevRef τ sig) := by
  after_results

end Cert.ReferenceIdeal.RefValue

end
-- ==== Proof.RefStretchD.lean ====
/-
  The last stretch of the reference program, read as the row-wise log-softmax.

  From any contents `V` of the buffers, after the stretch the result buffer holds the row-wise log-softmax of the
  logits buffer's contents in `V`; the arguments are left as they were.
-/
import proofs.«171517_j47004122087951_1_alg».proof.Proof.RefOps
import proofs.«171517_j47004122087951_1_alg».proof.Proof.Spec

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- A value moved to an equal type and back is the value. -/
theorem cast_cancel {α β : Sort _} (h : β = α) (h' : α = β) (v : α) : cast h (cast h' v) = v := by
  subst h'
  rfl

/-- A value written at the result buffer's own type is the value. -/
theorem toBuf_v123 (v : (⟨S100000x47, .f32⟩ : BufTy).Contents (Elt F)) :
    (TRef.of (T := ⟨S100000x47, .f32⟩) main_v123).toBuf v = v := rfl

/-- The logits buffer's contents read at their own type are the contents. -/
theorem ofBuf_v122 (v : (Proc.devRef .tc main_v122 : DevRef τ sig).ty.Contents (Elt F)) :
    (TRef.of (T := ⟨S100000x47, .f32⟩) main_v122).ofBuf v = v := rfl

set_option maxRecDepth 8192 in
set_option maxHeartbeats 4000000 in
theorem D_v123 (V : Valuation τ sig (Elt F)) :
    after opsD V (Proc.devRef .tc main_v123 : DevRef τ sig) = Cert.Spec.lsm (V (Proc.devRef .tc main_v122 : DevRef τ sig)) := by
  after_results_simp
  simp only [cast_cancel]
  rw [toBuf_v123, ofBuf_v122]
  unfold Cert.Spec.lsm Cert.Spec.shifted
  rfl
theorem D_arg0 (V : Valuation τ sig (Elt F)) : after opsD V (Proc.devRef .tc main_arg0 : DevRef τ sig) = V (Proc.devRef .tc main_arg0 : DevRef τ sig) := by
  after_results
theorem D_arg1 (V : Valuation τ sig (Elt F)) : after opsD V (Proc.devRef .tc main_arg1 : DevRef τ sig) = V (Proc.devRef .tc main_arg1 : DevRef τ sig) := by
  after_results
theorem D_arg2 (V : Valuation τ sig (Elt F)) : after opsD V (Proc.devRef .tc main_arg2 : DevRef τ sig) = V (Proc.devRef .tc main_arg2 : DevRef τ sig) := by
  after_results
theorem D_arg3 (V : Valuation τ sig (Elt F)) : after opsD V (Proc.devRef .tc main_arg3 : DevRef τ sig) = V (Proc.devRef .tc main_arg3 : DevRef τ sig) := by
  after_results
theorem D_arg4 (V : Valuation τ sig (Elt F)) : after opsD V (Proc.devRef .tc main_arg4 : DevRef τ sig) = V (Proc.devRef .tc main_arg4 : DevRef τ sig) := by
  after_results
theorem D_arg5 (V : Valuation τ sig (Elt F)) : after opsD V (Proc.devRef .tc main_arg5 : DevRef τ sig) = V (Proc.devRef .tc main_arg5 : DevRef τ sig) := by
  after_results
theorem D_arg6 (V : Valuation τ sig (Elt F)) : after opsD V (Proc.devRef .tc main_arg6 : DevRef τ sig) = V (Proc.devRef .tc main_arg6 : DevRef τ sig) := by
  after_results
theorem D_arg7 (V : Valuation τ sig (Elt F)) : after opsD V (Proc.devRef .tc main_arg7 : DevRef τ sig) = V (Proc.devRef .tc main_arg7 : DevRef τ sig) := by
  after_results
theorem D_arg8 (V : Valuation τ sig (Elt F)) : after opsD V (Proc.devRef .tc main_arg8 : DevRef τ sig) = V (Proc.devRef .tc main_arg8 : DevRef τ sig) := by
  after_results
theorem D_arg9 (V : Valuation τ sig (Elt F)) : after opsD V (Proc.devRef .tc main_arg9 : DevRef τ sig) = V (Proc.devRef .tc main_arg9 : DevRef τ sig) := by
  after_results

end Cert.ReferenceIdeal.RefValue

end
-- ==== Proof.RefRun.lean ====
/-
  The reference program's run, read as the network function of its arguments.

  The contents of the buffers after each stretch of the program are named in turn, from the launch contents; after
  each stretch the hidden state is the network's named value of the arguments, the carried values (the edge list's rows,
  the reciprocal in-degree, the input projection) and the arguments are as before. The run then ends with the result
  buffer at the network's output of the arguments, and the arguments unchanged.
-/
import proofs.«171517_j47004122087951_1_alg».proof.Proof.RefStretchA
import proofs.«171517_j47004122087951_1_alg».proof.Proof.RefStretchB1
import proofs.«171517_j47004122087951_1_alg».proof.Proof.RefStretchB2
import proofs.«171517_j47004122087951_1_alg».proof.Proof.RefStretchB3
import proofs.«171517_j47004122087951_1_alg».proof.Proof.RefStretchC
import proofs.«171517_j47004122087951_1_alg».proof.Proof.RefStretchD

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

section Chain

variable (m : (ℓ : Loc nD τ sig) → Buf (Elt F) ℓ) (c : Dev nD)

/-- The buffers' contents after the preparation, from the launch contents. -/
def R1 : Valuation τ sig (Elt F) := after opsA (launchContents m c)
/-- After the first hidden update. -/
def R2 : Valuation τ sig (Elt F) := after opsB1 (R1 m c)
/-- After the second hidden update. -/
def R3 : Valuation τ sig (Elt F) := after opsB2 (R2 m c)
/-- After the third hidden update. -/
def R4 : Valuation τ sig (Elt F) := after opsB3 (R3 m c)
/-- After the logits. -/
def R5 : Valuation τ sig (Elt F) := after opsC (R4 m c)
/-- After the row-wise log-softmax: the contents at the end of the run. -/
def R6 : Valuation τ sig (Elt F) := after opsD (R5 m c)

theorem after_ops_eq : after ops (launchContents m c) = R6 m c := after_ops _

theorem R1_v1 : R1 m c (Proc.devRef .tc main_v1 : DevRef τ sig) = Cert.Spec.src (m ((c.tc : Thread nD τ).loc main_arg1)) := A_v1 _
theorem R1_v3 : R1 m c (Proc.devRef .tc main_v3 : DevRef τ sig) = Cert.Spec.dst (m ((c.tc : Thread nD τ).loc main_arg1)) := A_v3 _
theorem R1_v11 : R1 m c (Proc.devRef .tc main_v11 : DevRef τ sig) = Cert.Spec.degInv (m ((c.tc : Thread nD τ).loc main_arg1)) := A_v11 _
theorem R1_v15 : R1 m c (Proc.devRef .tc main_v15 : DevRef τ sig) = Cert.Spec.inp (m ((c.tc : Thread nD τ).loc main_arg0)) (m ((c.tc : Thread nD τ).loc main_arg2)) (m ((c.tc : Thread nD τ).loc main_arg3)) := A_v15 _
theorem R1_v16 : R1 m c (Proc.devRef .tc main_v16 : DevRef τ sig) = Cert.Spec.h0 (m ((c.tc : Thread nD τ).loc main_arg0)) (m ((c.tc : Thread nD τ).loc main_arg2)) (m ((c.tc : Thread nD τ).loc main_arg3)) := A_v16 _
theorem R1_arg0 : R1 m c (Proc.devRef .tc main_arg0 : DevRef τ sig) = (m ((c.tc : Thread nD τ).loc main_arg0)) := A_arg0 _
theorem R1_arg1 : R1 m c (Proc.devRef .tc main_arg1 : DevRef τ sig) = (m ((c.tc : Thread nD τ).loc main_arg1)) := A_arg1 _
theorem R1_arg2 : R1 m c (Proc.devRef .tc main_arg2 : DevRef τ sig) = (m ((c.tc : Thread nD τ).loc main_arg2)) := A_arg2 _
theorem R1_arg3 : R1 m c (Proc.devRef .tc main_arg3 : DevRef τ sig) = (m ((c.tc : Thread nD τ).loc main_arg3)) := A_arg3 _
theorem R1_arg4 : R1 m c (Proc.devRef .tc main_arg4 : DevRef τ sig) = (m ((c.tc : Thread nD τ).loc main_arg4)) := A_arg4 _
theorem R1_arg5 : R1 m c (Proc.devRef .tc main_arg5 : DevRef τ sig) = (m ((c.tc : Thread nD τ).loc main_arg5)) := A_arg5 _
theorem R1_arg6 : R1 m c (Proc.devRef .tc main_arg6 : DevRef τ sig) = (m ((c.tc : Thread nD τ).loc main_arg6)) := A_arg6 _
theorem R1_arg7 : R1 m c (Proc.devRef .tc main_arg7 : DevRef τ sig) = (m ((c.tc : Thread nD τ).loc main_arg7)) := A_arg7 _
theorem R1_arg8 : R1 m c (Proc.devRef .tc main_arg8 : DevRef τ sig) = (m ((c.tc : Thread nD τ).loc main_arg8)) := A_arg8 _
theorem R1_arg9 : R1 m c (Proc.devRef .tc main_arg9 : DevRef τ sig) = (m ((c.tc : Thread nD τ).loc main_arg9)) := A_arg9 _

theorem R2_v1 : R2 m c (Proc.devRef .tc main_v1 : DevRef τ sig) = Cert.Spec.src (m ((c.tc : Thread nD τ).loc main_arg1)) := (B1_v1 _).trans (R1_v1 m c)
theorem R2_v3 : R2 m c (Proc.devRef .tc main_v3 : DevRef τ sig) = Cert.Spec.dst (m ((c.tc : Thread nD τ).loc main_arg1)) := (B1_v3 _).trans (R1_v3 m c)
theorem R2_v11 : R2 m c (Proc.devRef .tc main_v11 : DevRef τ sig) = Cert.Spec.degInv (m ((c.tc : Thread nD τ).loc main_arg1)) := (B1_v11 _).trans (R1_v11 m c)
theorem R2_v15 : R2 m c (Proc.devRef .tc main_v15 : DevRef τ sig) = Cert.Spec.inp (m ((c.tc : Thread nD τ).loc main_arg0)) (m ((c.tc : Thread nD τ).loc main_arg2)) (m ((c.tc : Thread nD τ).loc main_arg3)) := (B1_v15 _).trans (R1_v15 m c)
theorem R2_arg0 : R2 m c (Proc.devRef .tc main_arg0 : DevRef τ sig) = (m ((c.tc : Thread nD τ).loc main_arg0)) := (B1_arg0 _).trans (R1_arg0 m c)
theorem R2_arg1 : R2 m c (Proc.devRef .tc main_arg1 : DevRef τ sig) = (m ((c.tc : Thread nD τ).loc main_arg1)) := (B1_arg1 _).trans (R1_arg1 m c)
theorem R2_arg2 : R2 m c (Proc.devRef .tc main_arg2 : DevRef τ sig) = (m ((c.tc : Thread nD τ).loc main_arg2)) := (B1_arg2 _).trans (R1_arg2 m c)
theorem R2_arg3 : R2 m c (Proc.devRef .tc main_arg3 : DevRef τ sig) = (m ((c.tc : Thread nD τ).loc main_arg3)) := (B1_arg3 _).trans (R1_arg3 m c)
theorem R2_arg4 : R2 m c (Proc.devRef .tc main_arg4 : DevRef τ sig) = (m ((c.tc : Thread nD τ).loc main_arg4)) := (B1_arg4 _).trans (R1_arg4 m c)
theorem R2_arg5 : R2 m c (Proc.devRef .tc main_arg5 : DevRef τ sig) = (m ((c.tc : Thread nD τ).loc main_arg5)) := (B1_arg5 _).trans (R1_arg5 m c)
theorem R2_arg6 : R2 m c (Proc.devRef .tc main_arg6 : DevRef τ sig) = (m ((c.tc : Thread nD τ).loc main_arg6)) := (B1_arg6 _).trans (R1_arg6 m c)
theorem R2_arg7 : R2 m c (Proc.devRef .tc main_arg7 : DevRef τ sig) = (m ((c.tc : Thread nD τ).loc main_arg7)) := (B1_arg7 _).trans (R1_arg7 m c)
theorem R2_arg8 : R2 m c (Proc.devRef .tc main_arg8 : DevRef τ sig) = (m ((c.tc : Thread nD τ).loc main_arg8)) := (B1_arg8 _).trans (R1_arg8 m c)
theorem R2_arg9 : R2 m c (Proc.devRef .tc main_arg9 : DevRef τ sig) = (m ((c.tc : Thread nD τ).loc main_arg9)) := (B1_arg9 _).trans (R1_arg9 m c)

theorem R2_v45 : R2 m c (Proc.devRef .tc main_v45 : DevRef τ sig) = Cert.Spec.h1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  refine (B1_v45 (R1 m c) (m ((c.tc : Thread nD τ).loc main_arg1)) (R1_v1 m c) (R1_v3 m c) (R1_v11 m c)).trans ?_
  rw [R1_v16, R1_v15, R1_arg4, R1_arg5, R1_arg6]
  rfl

theorem R3_v1 : R3 m c (Proc.devRef .tc main_v1 : DevRef τ sig) = Cert.Spec.src (m ((c.tc : Thread nD τ).loc main_arg1)) := (B2_v1 _).trans (R2_v1 m c)
theorem R3_v3 : R3 m c (Proc.devRef .tc main_v3 : DevRef τ sig) = Cert.Spec.dst (m ((c.tc : Thread nD τ).loc main_arg1)) := (B2_v3 _).trans (R2_v3 m c)
theorem R3_v11 : R3 m c (Proc.devRef .tc main_v11 : DevRef τ sig) = Cert.Spec.degInv (m ((c.tc : Thread nD τ).loc main_arg1)) := (B2_v11 _).trans (R2_v11 m c)
theorem R3_v15 : R3 m c (Proc.devRef .tc main_v15 : DevRef τ sig) = Cert.Spec.inp (m ((c.tc : Thread nD τ).loc main_arg0)) (m ((c.tc : Thread nD τ).loc main_arg2)) (m ((c.tc : Thread nD τ).loc main_arg3)) := (B2_v15 _).trans (R2_v15 m c)
theorem R3_arg0 : R3 m c (Proc.devRef .tc main_arg0 : DevRef τ sig) = (m ((c.tc : Thread nD τ).loc main_arg0)) := (B2_arg0 _).trans (R2_arg0 m c)
theorem R3_arg1 : R3 m c (Proc.devRef .tc main_arg1 : DevRef τ sig) = (m ((c.tc : Thread nD τ).loc main_arg1)) := (B2_arg1 _).trans (R2_arg1 m c)
theorem R3_arg2 : R3 m c (Proc.devRef .tc main_arg2 : DevRef τ sig) = (m ((c.tc : Thread nD τ).loc main_arg2)) := (B2_arg2 _).trans (R2_arg2 m c)
theorem R3_arg3 : R3 m c (Proc.devRef .tc main_arg3 : DevRef τ sig) = (m ((c.tc : Thread nD τ).loc main_arg3)) := (B2_arg3 _).trans (R2_arg3 m c)
theorem R3_arg4 : R3 m c (Proc.devRef .tc main_arg4 : DevRef τ sig) = (m ((c.tc : Thread nD τ).loc main_arg4)) := (B2_arg4 _).trans (R2_arg4 m c)
theorem R3_arg5 : R3 m c (Proc.devRef .tc main_arg5 : DevRef τ sig) = (m ((c.tc : Thread nD τ).loc main_arg5)) := (B2_arg5 _).trans (R2_arg5 m c)
theorem R3_arg6 : R3 m c (Proc.devRef .tc main_arg6 : DevRef τ sig) = (m ((c.tc : Thread nD τ).loc main_arg6)) := (B2_arg6 _).trans (R2_arg6 m c)
theorem R3_arg7 : R3 m c (Proc.devRef .tc main_arg7 : DevRef τ sig) = (m ((c.tc : Thread nD τ).loc main_arg7)) := (B2_arg7 _).trans (R2_arg7 m c)
theorem R3_arg8 : R3 m c (Proc.devRef .tc main_arg8 : DevRef τ sig) = (m ((c.tc : Thread nD τ).loc main_arg8)) := (B2_arg8 _).trans (R2_arg8 m c)
theorem R3_arg9 : R3 m c (Proc.devRef .tc main_arg9 : DevRef τ sig) = (m ((c.tc : Thread nD τ).loc main_arg9)) := (B2_arg9 _).trans (R2_arg9 m c)

theorem R3_v74 : R3 m c (Proc.devRef .tc main_v74 : DevRef τ sig) = Cert.Spec.h2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  refine (B2_v74 (R2 m c) (m ((c.tc : Thread nD τ).loc main_arg1)) (R2_v1 m c) (R2_v3 m c) (R2_v11 m c)).trans ?_
  rw [R2_v45, R2_v15, R2_arg4, R2_arg5, R2_arg6]
  rfl

theorem R4_v1 : R4 m c (Proc.devRef .tc main_v1 : DevRef τ sig) = Cert.Spec.src (m ((c.tc : Thread nD τ).loc main_arg1)) := (B3_v1 _).trans (R3_v1 m c)
theorem R4_v3 : R4 m c (Proc.devRef .tc main_v3 : DevRef τ sig) = Cert.Spec.dst (m ((c.tc : Thread nD τ).loc main_arg1)) := (B3_v3 _).trans (R3_v3 m c)
theorem R4_v11 : R4 m c (Proc.devRef .tc main_v11 : DevRef τ sig) = Cert.Spec.degInv (m ((c.tc : Thread nD τ).loc main_arg1)) := (B3_v11 _).trans (R3_v11 m c)
theorem R4_arg0 : R4 m c (Proc.devRef .tc main_arg0 : DevRef τ sig) = (m ((c.tc : Thread nD τ).loc main_arg0)) := (B3_arg0 _).trans (R3_arg0 m c)
theorem R4_arg1 : R4 m c (Proc.devRef .tc main_arg1 : DevRef τ sig) = (m ((c.tc : Thread nD τ).loc main_arg1)) := (B3_arg1 _).trans (R3_arg1 m c)
theorem R4_arg2 : R4 m c (Proc.devRef .tc main_arg2 : DevRef τ sig) = (m ((c.tc : Thread nD τ).loc main_arg2)) := (B3_arg2 _).trans (R3_arg2 m c)
theorem R4_arg3 : R4 m c (Proc.devRef .tc main_arg3 : DevRef τ sig) = (m ((c.tc : Thread nD τ).loc main_arg3)) := (B3_arg3 _).trans (R3_arg3 m c)
theorem R4_arg4 : R4 m c (Proc.devRef .tc main_arg4 : DevRef τ sig) = (m ((c.tc : Thread nD τ).loc main_arg4)) := (B3_arg4 _).trans (R3_arg4 m c)
theorem R4_arg5 : R4 m c (Proc.devRef .tc main_arg5 : DevRef τ sig) = (m ((c.tc : Thread nD τ).loc main_arg5)) := (B3_arg5 _).trans (R3_arg5 m c)
theorem R4_arg6 : R4 m c (Proc.devRef .tc main_arg6 : DevRef τ sig) = (m ((c.tc : Thread nD τ).loc main_arg6)) := (B3_arg6 _).trans (R3_arg6 m c)
theorem R4_arg7 : R4 m c (Proc.devRef .tc main_arg7 : DevRef τ sig) = (m ((c.tc : Thread nD τ).loc main_arg7)) := (B3_arg7 _).trans (R3_arg7 m c)
theorem R4_arg8 : R4 m c (Proc.devRef .tc main_arg8 : DevRef τ sig) = (m ((c.tc : Thread nD τ).loc main_arg8)) := (B3_arg8 _).trans (R3_arg8 m c)
theorem R4_arg9 : R4 m c (Proc.devRef .tc main_arg9 : DevRef τ sig) = (m ((c.tc : Thread nD τ).loc main_arg9)) := (B3_arg9 _).trans (R3_arg9 m c)

theorem R4_v103 : R4 m c (Proc.devRef .tc main_v103 : DevRef τ sig) = Cert.Spec.h3 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  refine (B3_v103 (R3 m c) (m ((c.tc : Thread nD τ).loc main_arg1)) (R3_v1 m c) (R3_v3 m c) (R3_v11 m c)).trans ?_
  rw [R3_v74, R3_v15, R3_arg4, R3_arg5, R3_arg6]
  rfl

theorem R5_arg0 : R5 m c (Proc.devRef .tc main_arg0 : DevRef τ sig) = (m ((c.tc : Thread nD τ).loc main_arg0)) := (C_arg0 _).trans (R4_arg0 m c)
theorem R5_arg1 : R5 m c (Proc.devRef .tc main_arg1 : DevRef τ sig) = (m ((c.tc : Thread nD τ).loc main_arg1)) := (C_arg1 _).trans (R4_arg1 m c)
theorem R5_arg2 : R5 m c (Proc.devRef .tc main_arg2 : DevRef τ sig) = (m ((c.tc : Thread nD τ).loc main_arg2)) := (C_arg2 _).trans (R4_arg2 m c)
theorem R5_arg3 : R5 m c (Proc.devRef .tc main_arg3 : DevRef τ sig) = (m ((c.tc : Thread nD τ).loc main_arg3)) := (C_arg3 _).trans (R4_arg3 m c)
theorem R5_arg4 : R5 m c (Proc.devRef .tc main_arg4 : DevRef τ sig) = (m ((c.tc : Thread nD τ).loc main_arg4)) := (C_arg4 _).trans (R4_arg4 m c)
theorem R5_arg5 : R5 m c (Proc.devRef .tc main_arg5 : DevRef τ sig) = (m ((c.tc : Thread nD τ).loc main_arg5)) := (C_arg5 _).trans (R4_arg5 m c)
theorem R5_arg6 : R5 m c (Proc.devRef .tc main_arg6 : DevRef τ sig) = (m ((c.tc : Thread nD τ).loc main_arg6)) := (C_arg6 _).trans (R4_arg6 m c)
theorem R5_arg7 : R5 m c (Proc.devRef .tc main_arg7 : DevRef τ sig) = (m ((c.tc : Thread nD τ).loc main_arg7)) := (C_arg7 _).trans (R4_arg7 m c)
theorem R5_arg8 : R5 m c (Proc.devRef .tc main_arg8 : DevRef τ sig) = (m ((c.tc : Thread nD τ).loc main_arg8)) := (C_arg8 _).trans (R4_arg8 m c)
theorem R5_arg9 : R5 m c (Proc.devRef .tc main_arg9 : DevRef τ sig) = (m ((c.tc : Thread nD τ).loc main_arg9)) := (C_arg9 _).trans (R4_arg9 m c)

theorem R5_v122 : R5 m c (Proc.devRef .tc main_v122 : DevRef τ sig)
    = Cert.Spec.logits (Cert.Spec.agg (Cert.Spec.h3 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))) (m ((c.tc : Thread nD τ).loc main_arg1))) (Cert.Spec.h3 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))) (m ((c.tc : Thread nD τ).loc main_arg7)) (m ((c.tc : Thread nD τ).loc main_arg8)) (m ((c.tc : Thread nD τ).loc main_arg9)) := by
  refine (C_v122 (R4 m c) (m ((c.tc : Thread nD τ).loc main_arg1)) (R4_v1 m c) (R4_v3 m c) (R4_v11 m c)).trans ?_
  rw [R4_v103, R4_arg7, R4_arg8, R4_arg9]

theorem R6_arg0 : R6 m c (Proc.devRef .tc main_arg0 : DevRef τ sig) = (m ((c.tc : Thread nD τ).loc main_arg0)) := (D_arg0 _).trans (R5_arg0 m c)
theorem R6_arg1 : R6 m c (Proc.devRef .tc main_arg1 : DevRef τ sig) = (m ((c.tc : Thread nD τ).loc main_arg1)) := (D_arg1 _).trans (R5_arg1 m c)
theorem R6_arg2 : R6 m c (Proc.devRef .tc main_arg2 : DevRef τ sig) = (m ((c.tc : Thread nD τ).loc main_arg2)) := (D_arg2 _).trans (R5_arg2 m c)
theorem R6_arg3 : R6 m c (Proc.devRef .tc main_arg3 : DevRef τ sig) = (m ((c.tc : Thread nD τ).loc main_arg3)) := (D_arg3 _).trans (R5_arg3 m c)
theorem R6_arg4 : R6 m c (Proc.devRef .tc main_arg4 : DevRef τ sig) = (m ((c.tc : Thread nD τ).loc main_arg4)) := (D_arg4 _).trans (R5_arg4 m c)
theorem R6_arg5 : R6 m c (Proc.devRef .tc main_arg5 : DevRef τ sig) = (m ((c.tc : Thread nD τ).loc main_arg5)) := (D_arg5 _).trans (R5_arg5 m c)
theorem R6_arg6 : R6 m c (Proc.devRef .tc main_arg6 : DevRef τ sig) = (m ((c.tc : Thread nD τ).loc main_arg6)) := (D_arg6 _).trans (R5_arg6 m c)
theorem R6_arg7 : R6 m c (Proc.devRef .tc main_arg7 : DevRef τ sig) = (m ((c.tc : Thread nD τ).loc main_arg7)) := (D_arg7 _).trans (R5_arg7 m c)
theorem R6_arg8 : R6 m c (Proc.devRef .tc main_arg8 : DevRef τ sig) = (m ((c.tc : Thread nD τ).loc main_arg8)) := (D_arg8 _).trans (R5_arg8 m c)
theorem R6_arg9 : R6 m c (Proc.devRef .tc main_arg9 : DevRef τ sig) = (m ((c.tc : Thread nD τ).loc main_arg9)) := (D_arg9 _).trans (R5_arg9 m c)

theorem R6_v123 : R6 m c (Proc.devRef .tc main_v123 : DevRef τ sig) = Cert.Spec.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  refine (D_v123 (R5 m c)).trans ?_
  rw [R5_v122]
  rfl

end Chain

/-- On every device, for any float values, from any memory with zero counters: every weakly fair execution of
    @main terminates with the result buffer at the network's output of the arguments and the arguments unchanged. -/
theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v123) = Cert.Spec.out (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c main_v123).trans ((congrFun (after_ops_eq m c) _).trans (R6_v123 m c)),
      (h c main_arg0).trans ((congrFun (after_ops_eq m c) _).trans (R6_arg0 m c)),
      (h c main_arg1).trans ((congrFun (after_ops_eq m c) _).trans (R6_arg1 m c)),
      (h c main_arg2).trans ((congrFun (after_ops_eq m c) _).trans (R6_arg2 m c)),
      (h c main_arg3).trans ((congrFun (after_ops_eq m c) _).trans (R6_arg3 m c)),
      (h c main_arg4).trans ((congrFun (after_ops_eq m c) _).trans (R6_arg4 m c)),
      (h c main_arg5).trans ((congrFun (after_ops_eq m c) _).trans (R6_arg5 m c)),
      (h c main_arg6).trans ((congrFun (after_ops_eq m c) _).trans (R6_arg6 m c)),
      (h c main_arg7).trans ((congrFun (after_ops_eq m c) _).trans (R6_arg7 m c)),
      (h c main_arg8).trans ((congrFun (after_ops_eq m c) _).trans (R6_arg8 m c)),
      (h c main_arg9).trans ((congrFun (after_ops_eq m c) _).trans (R6_arg9 m c))⟩)
    (run_seq scopedRefs_eq scopedSems_eq defs main (fun _ => ops) main_eq (fun _ => ops_sub) m ρ)

end Cert.ReferenceIdeal.RefValue

end
-- ==== Proof.lean ====
/-
  A four-layer mean-aggregation graph network, computed by five row-blocked kernels among host gathers and scatter-adds,
  against the same network written with whole-array operations.

  Both programs compute one function of the arguments on the extended reals (`Cert.Spec.out`): the input projection
  `x · W + b` and its rectified copy; three hidden updates `max (agg · Wl + bl + h · Wr) 0 + c · inp`, where `agg` is the
  mean of the previous hidden state over each node's incoming edges; and the output step, the row-wise shifted
  log-softmax of `agg · Wl + bl + h · Wr`. The aggregation (a row gather by the edges' sources, a scatter-add by their
  destinations, a scaling by the reciprocal in-degree) is spelt by the same host operations in both programs and is
  never opened. Every dense step acts on each node's row independently of the others, so a kernel that works on 5000
  rows at a time computes the rows of the whole-array step: each kernel's stored block is read row by row, each region's
  output array is assembled from its twenty blocks, and the two spellings of a dense layer (a matrix product
  accumulated into zeros plus a loaded bias row; `dot_general` plus a broadcast bias) agree row by row. Rounding to
  bfloat16 before a matrix product is the identity on the extended reals. No step uses the inputs' finiteness.

  The frames of the two kernel programs are the generated ones; the reference's run is read in six stretches cut at
  the layer boundaries. The idealization rewrote nothing, so the kernel program's idealization claim is trivially true.
-/
import proofs.«171517_j47004122087951_1_alg».proof.Defs
import proofs.«171517_j47004122087951_1_alg».proof.Proof.Assembly
import proofs.«171517_j47004122087951_1_alg».proof.Proof.KernelValue
import proofs.«171517_j47004122087951_1_alg».proof.Proof.RefRun

noncomputable section

namespace Cert.Proof

theorem claim : Cert.Claim :=
  Cert.Proof.Assembly.claim_of Cert.KernelIdeal.KValue.run
    (fun m ρ => Cert.ReferenceIdeal.RefValue.run (F := Idealize.ShloMosaic.Ideal) m ρ)

end Cert.Proof

end
